-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2048x2048 : Shape := ⟨2, ![2048, 2048]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S2x2048x1024 .f32) (main_arg1 : FVec F S2048x2048 .f32) (main_arg2 : FVec F S1024x1024 .f32) (main_arg3 : FVec F S1024x1024 .f32) (main_arg4 : FVec F S1024x1024 .f32) (main_arg5 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S2x2048x1024 : Shape := ⟨3, ![2, 2048, 1024]⟩
abbrev S2048x2048 : Shape := ⟨2, ![2048, 2048]⟩
abbrev S1024x1024 : Shape := ⟨2, ![1024, 1024]⟩
abbrev S4096x1024 : Shape := ⟨2, ![4096, 1024]⟩
abbrev S1024x3072 : Shape := ⟨2, ![1024, 3072]⟩
abbrev S4096x3072 : Shape := ⟨2, ![4096, 3072]⟩
abbrev S512x1024 : Shape := ⟨2, ![512, 1024]⟩
abbrev S1024x512 : Shape := ⟨2, ![1024, 512]⟩
abbrev S512x512 : Shape := ⟨2, ![512, 512]⟩
abbrev S512x128 : Shape := ⟨2, ![512, 128]⟩
abbrev S2048x128 : Shape := ⟨2, ![2048, 128]⟩
abbrev S512x2048 : Shape := ⟨2, ![512, 2048]⟩
abbrev S512x64 : Shape := ⟨2, ![512, 64]⟩
abbrev S2048x64 : Shape := ⟨2, ![2048, 64]⟩
abbrev S512 : Shape := ⟨1, ![512]⟩
abbrev S512x1 : Shape := ⟨2, ![512, 1]⟩

abbrev nBuf : Space → Nat
  | .hbm => 22
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S2048x2048, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x3072, .bf16⟩
  | .hbm, ⟨15, _⟩ => ⟨S4096x3072, .bf16⟩
  | .hbm, ⟨16, _⟩ => ⟨S2048x2048, .bf16⟩
  | .hbm, ⟨17, _⟩ => ⟨S4096x1024, .bf16⟩
  | .hbm, ⟨18, _⟩ => ⟨S1024x1024, .bf16⟩
  | .hbm, ⟨19, _⟩ => ⟨S1024x1024, .bf16⟩
  | .hbm, ⟨20, _⟩ => ⟨S4096x1024, .f32⟩
  | .hbm, ⟨21, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S512x128, .bf16⟩
  | .local _ .vmem, ⟨7, _⟩ => ⟨S512x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S512x2048, .bf16⟩
  | .local _ .vmem, ⟨13, _⟩ => ⟨S512x2048, .bf16⟩
  | .local _ .vmem, ⟨14, _⟩ => ⟨S512x128, .bf16⟩
  | .local _ .vmem, ⟨15, _⟩ => ⟨S512x128, .bf16⟩
  | .local _ .vmem, ⟨16, _⟩ => ⟨S512x1024, .bf16⟩
  | .local _ .vmem, ⟨17, _⟩ => ⟨S512x1024, .bf16⟩
  | .local _ .vmem, ⟨18, _⟩ => ⟨S1024x512, .bf16⟩
  | .local _ .vmem, ⟨19, _⟩ => ⟨S1024x512, .bf16⟩
  | .local _ .vmem, ⟨20, _⟩ => ⟨S512x512, .f32⟩
  | .local _ .vmem, ⟨21, _⟩ => ⟨S512x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 2, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg0
  let c0_i32 : BitVec 32 := 0#32
  ![v1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg2
  let c0_i32 : BitVec 32 := 0#32
  ![arg1.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg0
  let c0_i32 : BitVec 32 := 0#32
  ![v1.toNat, arg2.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S2x2048x1024_S4096x1024 : S2x2048x1024.ShapeCasts S4096x1024
  bitsLt_bf16_f32 : FTy.bits .bf16 < FTy.bits .f32
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  packedbf16_S512x128_S512x128_0_0 : (Rect.unit (s := S512x128) ![0, 0] S512x128.size inb_S512x128_S512x128_0_0).PackedRows (EltTy.packing .bf16)
  shapeCasts_S4096x1024_S2x2048x1024 : S4096x1024.ShapeCasts S2x2048x1024
  dot_S512x1024_S1024x512_S512x512_1_0_0_1_n_n_wf : DotDims.WF S512x1024 S1024x512 S512x512 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x3072.size a
  hwx0_1 : ∀ i : grid0.Coords, EltTy.bits .bf16 = 32 ∨ (Rect.block (s := S1024x3072) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x3072.size a
  hwx0_2 : ∀ i : grid0.Coords, EltTy.bits .bf16 = 32 ∨ (Rect.block (s := S4096x3072) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x3072.size a
  hwx1_0 : ∀ i : grid1.Coords, EltTy.bits .bf16 = 32 ∨ (Rect.block (s := S4096x3072) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x3072.size a
  hwx1_1 : ∀ i : grid1.Coords, EltTy.bits .bf16 = 32 ∨ (Rect.block (s := S4096x3072) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S4096x3072.size a
  hwx1_2 : ∀ i : grid1.Coords, EltTy.bits .bf16 = 32 ∨ (Rect.block (s := S4096x3072) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S2048x2048.size a
  hwx1_3 : ∀ i : grid1.Coords, EltTy.bits .bf16 = 32 ∨ (Rect.block (s := S2048x2048) S512x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S4096x1024.size a
  hwx1_4 : ∀ i : grid1.Coords, EltTy.bits .bf16 = 32 ∨ (Rect.block (s := S4096x1024) S512x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x1024.size a
  hwx2_1 : ∀ i : grid2.Coords, EltTy.bits .bf16 = 32 ∨ (Rect.block (s := S1024x1024) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S4096x1024.size a
  hwx2_2 : ∀ i : grid2.Coords, EltTy.bits .f32 = 32 ∨ (Rect.block (s := S4096x1024) S512x512.size (cc2_transform_2 i) (hinb2_2 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v11) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S512x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S2048x2048 : Shape := ⟨2, ![2048, 2048]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S1x1x2048x2048 : Shape := ⟨4, ![1, 1, 2048, 2048]⟩
abbrev S2x16x2048 : Shape := ⟨3, ![2, 16, 2048]⟩
abbrev S2x16x2048x1 : Shape := ⟨4, ![2, 16, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2048x2048, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x16x2048x2048, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S1x1x2048x2048, .f32⟩
  | .hbm, ⟨20, _⟩ => ⟨S2x16x2048x2048, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S2x16x2048x1, .f32⟩
  | .hbm, ⟨26, _⟩ => ⟨S_, .f32⟩
  | .hbm, ⟨27, _⟩ => ⟨S2x16x2048x1, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | .hbm, ⟨34, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S2048x2048_S1x1x2048x2048_2_3 : S2048x2048.BroadcastsInDim S1x1x2048x2048 (![2, 3] : Fin 2 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.BitsRegion0.lean ====
/-
  Region 0 of the program: one tile of a matrix product per grid point.

  The body reads its two input blocks whole, multiplies them into a zero accumulator and stores the product over the
  whole output block.  This module states, for buffer contents `V` at the region's entry, what each window's staging
  buffer holds when the body is called at a grid point (the window's block of its array, fetched there or not) and
  what the body leaves (the inputs as found, the output at the product of the two input blocks), and proves the body's
  Hoare triple and the pipeline's obligation from it.
-/
import proofs.«175731_j51161650430216_2_alg».proof.Proof.Gen.Kernel.Launch
import proofs.«175731_j51161650430216_2_alg».proof.Proof.Gen.Kernel.Skeleton
import proofs.«175731_j51161650430216_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where the
    pipeline does not fetch, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each a whole block. -/
abbrev rA0 : Rect S512x1024 := Rect.unit (s := S512x1024) ![0, 0] S512x1024.size inb_S512x1024_S512x1024_0_0
abbrev rB0 : Rect S1024x512 := Rect.unit (s := S1024x512) ![0, 0] S1024x512.size inb_S1024x512_S1024x512_0_0
abbrev rO0 : Rect S512x512 := Rect.unit (s := S512x512) ![0, 0] S512x512.size inb_S512x512_S512x512_0_0

/-- What the body leaves in the output block: its one store, of the product of the two input blocks. -/
def out0_2 (x0 : Vec F S512x1024 .bf16) (x1 : Vec F S1024x512 .bf16) : Vec F S512x512 .bf16 :=
  View.canon [⟨rO0, k0_pay1 (View.ld x0 rA0) (View.ld x1 rB0)⟩]

/-- The store covers the block. -/
theorem cover0_2 (p0 : Vec F S512x512 .bf16) (y : S512x512.Idx) :
    ∃ pc ∈ ([⟨rO0, p0⟩] : List (View.Piece (Elt F) S512x512 .bf16)), y ∈ pc.1.set :=
  View.cover_of_tiled [⟨rO0, p0⟩] S512x512.size (by rfl) y

set_option maxHeartbeats 1000000 in
/-- The body on whole staging buffers — the inputs' at contents `x0`, `x1`, the output's at anything — runs to its
    end holding the inputs as they were and the output at `out0_2 x0 x1`. -/
theorem sound_kernel0 (c : Dev nD) (E : Set ℕ) (i : grid0.Coords) (arg0 : Memref sig .tc .vmem S512x1024 .bf16) (harg0 : arg0.IsWhole)
    (arg1 : Memref sig .tc .vmem S1024x512 .bf16) (harg1 : arg1.IsWhole) (arg2 : Memref sig .tc .vmem S512x512 .bf16) (harg2 : arg2.IsWhole)
    (x0 : Vec F S512x1024 .bf16) (x1 : Vec F S1024x512 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the output's at the product of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BitsRegion1.lean ====
/-
  Region 1 of the program: two heads of attention per grid point.

  The body reads a block of queries, a block of keys, a block of values (three blocks of ONE array, the fused
  projections) and a block of the mask, whole; computes the two heads' context vectors; and stores them, side by
  side, over the whole output block.  This module states, for buffer contents `V` at the region's entry, what each
  window's staging buffer holds when the body is called at a grid point and what the body leaves, and proves the
  body's Hoare triple and the pipeline's obligation from it.  The array the three windows share is held in three
  parts of the full share, one per window.
-/
import proofs.«175731_j51161650430216_2_alg».proof.Proof.Gen.Kernel.Launch
import proofs.«175731_j51161650430216_2_alg».proof.Proof.Gen.Kernel.Skeleton
import proofs.«175731_j51161650430216_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the
    pipeline does not fetch, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each a whole block. -/
abbrev rQ1 : Rect S512x128 := Rect.unit (s := S512x128) ![0, 0] S512x128.size inb_S512x128_S512x128_0_0
abbrev rK1 : Rect S2048x128 := Rect.unit (s := S2048x128) ![0, 0] S2048x128.size inb_S2048x128_S2048x128_0_0
abbrev rM1 : Rect S512x2048 := Rect.unit (s := S512x2048) ![0, 0] S512x2048.size inb_S512x2048_S512x2048_0_0

/-- What the body leaves in the output block: its one store, of the two heads' context vectors side by side. -/
def out1_4 (x0 : Vec F S512x128 .bf16) (x1 x2 : Vec F S2048x128 .bf16) (x3 : Vec F S512x2048 .bf16) : Vec F S512x128 .bf16 :=
  View.canon [⟨rQ1, k1_pay1 (k1_pay6 (View.ld x0 rQ1) (View.ld x1 rK1) (View.ld x2 rK1) (View.ld x3 rM1)) (k1_pay7 (View.ld x2 rK1))
    (k1_pay8 (View.ld x0 rQ1) (View.ld x1 rK1) (View.ld x3 rM1))⟩]

/-- The store covers the block. -/
theorem cover1_4 (p0 : Vec F S512x128 .bf16) (y : S512x128.Idx) :
    ∃ pc ∈ ([⟨rQ1, p0⟩] : List (View.Piece (Elt F) S512x128 .bf16)), y ∈ pc.1.set :=
  View.cover_of_tiled [⟨rQ1, p0⟩] S512x128.size (by rfl) y

set_option maxHeartbeats 1000000 in
/-- The body on whole staging buffers — the inputs' at contents `x0 … x3`, the output's at anything — runs to its end
    holding the inputs as they were and the output at `out1_4 x0 x1 x2 x3`. -/
theorem sound_kernel1 (c : Dev nD) (E : Set ℕ) (i : grid1.Coords) (arg0 : Memref sig .tc .vmem S512x128 .bf16) (harg0 : arg0.IsWhole)
    (arg1 : Memref sig .tc .vmem S2048x128 .bf16) (harg1 : arg1.IsWhole) (arg2 : Memref sig .tc .vmem S2048x128 .bf16) (harg2 : arg2.IsWhole)
    (arg3 : Memref sig .tc .vmem S512x2048 .bf16) (harg3 : arg3.IsWhole) (arg4 : Memref sig .tc .vmem S512x128 .bf16) (harg4 : arg4.IsWhole)
    (x0 : Vec F S512x128 .bf16) (x1 x2 : Vec F S2048x128 .bf16) (x3 : Vec F S512x2048 .bf16) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__attn_kernel i arg0 harg0 arg1 harg1 arg2 harg2 arg3 harg3 arg4 harg4) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The pipeline's proof data on core `c`: the arrays as the region finds them; after the body at point `t` each
    input's buffer at its block and the output's at the two heads' context vectors; the invariant the scoped rest and
    the generator register, untouched; nothing owed; the array the first three windows read held in three parts of
    the full share, the mask's at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.BitsRegion2.lean ====
/-
  Region 2 of the program: one tile of a matrix product per grid point.

  The body reads its two input blocks whole, multiplies them into a zero accumulator and stores the product over the
  whole output block.  This module states, for buffer contents `V` at the region's entry, what each window's staging
  buffer holds when the body is called at a grid point (the window's block of its array, fetched there or not) and
  what the body leaves (the inputs as found, the output at the product of the two input blocks), and proves the body's
  Hoare triple and the pipeline's obligation from it.
-/
import proofs.«175731_j51161650430216_2_alg».proof.Proof.Gen.Kernel.Launch
import proofs.«175731_j51161650430216_2_alg».proof.Proof.Gen.Kernel.Skeleton
import proofs.«175731_j51161650430216_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where the
    pipeline does not fetch, the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each a whole block. -/
abbrev rA2 : Rect S512x1024 := Rect.unit (s := S512x1024) ![0, 0] S512x1024.size inb_S512x1024_S512x1024_0_0
abbrev rB2 : Rect S1024x512 := Rect.unit (s := S1024x512) ![0, 0] S1024x512.size inb_S1024x512_S1024x512_0_0
abbrev rO2 : Rect S512x512 := Rect.unit (s := S512x512) ![0, 0] S512x512.size inb_S512x512_S512x512_0_0

/-- What the body leaves in the output block: its one store, of the product of the two input blocks. -/
def out2_2 (x0 : Vec F S512x1024 .bf16) (x1 : Vec F S1024x512 .bf16) : Vec F S512x512 .f32 :=
  View.canon [⟨rO2, k2_pay1 (View.ld x0 rA2) (View.ld x1 rB2)⟩]

/-- The store covers the block. -/
theorem cover2_2 (p0 : Vec F S512x512 .f32) (y : S512x512.Idx) :
    ∃ pc ∈ ([⟨rO2, p0⟩] : List (View.Piece (Elt F) S512x512 .f32)), y ∈ pc.1.set :=
  View.cover_of_tiled [⟨rO2, p0⟩] S512x512.size (by rfl) y

set_option maxHeartbeats 1000000 in
/-- The body on whole staging buffers — the inputs' at contents `x0`, `x1`, the output's at anything — runs to its
    end holding the inputs as they were and the output at `out2_2 x0 x1`. -/
theorem sound_kernel2 (c : Dev nD) (E : Set ℕ) (i : grid2.Coords) (arg0 : Memref sig .tc .vmem S512x1024 .bf16) (harg0 : arg0.IsWhole)
    (arg1 : Memref sig .tc .vmem S1024x512 .bf16) (harg1 : arg1.IsWhole) (arg2 : Memref sig .tc .vmem S512x512 .f32) (harg2 : arg2.IsWhole)
    (x0 : Vec F S512x1024 .bf16) (x1 : Vec F S1024x512 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each
    input's buffer at its block and the output's at the product of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.BitsRun.lean ====
/-
  The whole run of the program: host operations, the first product, the mask's conversion, attention, the output
  weight's transposition, the second product, the final reshape.

  Between two items every buffer that outlives a kernel is held at named contents: the launch memory, folded through
  each stretch of host operations, and updated after each kernel at the one array it writes with what the kernel's
  write-backs leave there.  Each kernel is entered from that state — its windows' arrays split out of the buffers,
  the array that attention reads through three windows dealt to them in three parts of its full share — and left at
  the next one.  The run's conclusion names every such buffer's final contents, the result's among them.
-/
import proofs.«175731_j51161650430216_2_alg».proof.Proof.BitsRegion0
import proofs.«175731_j51161650430216_2_alg».proof.Proof.BitsRegion1
import proofs.«175731_j51161650430216_2_alg».proof.Proof.BitsRegion2
import proofs.«175731_j51161650430216_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 (c : Dev nD) : Valuation τ sig (Elt F) := fun b => m (c, b)
/-- After the first stretch of host operations (the first product's entry). -/
abbrev W1 (c : Dev nD) : Valuation τ sig (Elt F) := StableHlo.after hostOps0 (W0 m c)
abbrev V1r : (c : Dev nD) → (b : Ref sig .tc) → Buf (Elt F) ((c : Thread nD τ).loc b) := fun c b => W1 m c b
/-- What the first product leaves in the fused projections' array. -/
def o0 (c : Dev nD) : Buf (Elt F) ((c : Thread nD τ).loc main_v9) := (dat0 (V1r m) c).arrAt 2 cfg0.N
/-- After the first product. -/
abbrev W2 (c : Dev nD) : Valuation τ sig (Elt F) := Function.update (W1 m c) main_v9 (o0 m c)
/-- After the mask's conversion (attention's entry). -/
abbrev W3 (c : Dev nD) : Valuation τ sig (Elt F) := StableHlo.after hostOps1 (W2 m c)
abbrev V3r : (c : Dev nD) → (b : Ref sig .tc) → Buf (Elt F) ((c : Thread nD τ).loc b) := fun c b => W3 m c b
/-- What attention leaves in the context array. -/
def o1 (c : Dev nD) : Buf (Elt F) ((c : Thread nD τ).loc main_v11) := (dat1 (V3r m) c).arrAt 4 cfg1.N
/-- After attention. -/
abbrev W4 (c : Dev nD) : Valuation τ sig (Elt F) := Function.update (W3 m c) main_v11 (o1 m c)
/-- After the output weight's conversion and transposition (the second product's entry). -/
abbrev W5 (c : Dev nD) : Valuation τ sig (Elt F) := StableHlo.after hostOps2 (W4 m c)
abbrev V5r : (c : Dev nD) → (b : Ref sig .tc) → Buf (Elt F) ((c : Thread nD τ).loc b) := fun c b => W5 m c b
/-- What the second product leaves in its result array. -/
def o2 (c : Dev nD) : Buf (Elt F) ((c : Thread nD τ).loc main_v14) := (dat2 (V5r m) c).arrAt 2 cfg2.N
/-- After the second product. -/
abbrev W6 (c : Dev nD) : Valuation τ sig (Elt F) := Function.update (W5 m c) main_v14 (o2 m c)
/-- After the final reshape: the end. -/
abbrev W7 (c : Dev nD) : Valuation τ sig (Elt F) := StableHlo.after hostOps3 (W6 m c)
abbrev V2r : (c : Dev nD) → (b : Ref sig .tc) → Buf (Elt F) ((c : Thread nD τ).loc b) := fun c b => W2 m c b
abbrev V4r : (c : Dev nD) → (b : Ref sig .tc) → Buf (Elt F) ((c : Thread nD τ).loc b) := fun c b => W4 m c b
abbrev V6r : (c : Dev nD) → (b : Ref sig .tc) → Buf (Elt F) ((c : Thread nD τ).loc b) := fun c b => W6 m c b

/-- A kernel's update leaves every other buffer alone. -/
theorem W2_of (c : Dev nD) (r : Ref sig .tc) (h : r ≠ main_v9) : W2 m c r = W1 m c r :=
  Function.update_of_ne (StableHlo.devRef_ne_of_ne h : (Proc.devRef .tc r : DevRef τ sig) ≠ Proc.devRef .tc main_v9) _ _
theorem W4_of (c : Dev nD) (r : Ref sig .tc) (h : r ≠ main_v11) : W4 m c r = W3 m c r :=
  Function.update_of_ne (StableHlo.devRef_ne_of_ne h : (Proc.devRef .tc r : DevRef τ sig) ≠ Proc.devRef .tc main_v11) _ _
theorem W6_of (c : Dev nD) (r : Ref sig .tc) (h : r ≠ main_v14) : W6 m c r = W5 m c r :=
  Function.update_of_ne (StableHlo.devRef_ne_of_ne h : (Proc.devRef .tc r : DevRef τ sig) ≠ Proc.devRef .tc main_v14) _ _
theorem W2_self (c : Dev nD) : W2 m c main_v9 = o0 m c := Function.update_self _ _ _
theorem W4_self (c : Dev nD) : W4 m c main_v11 = o1 m c := Function.update_self _ _ _
theorem W6_self (c : Dev nD) : W6 m c main_v14 = o2 m c := Function.update_self _ _ _
/-- A host stretch leaves alone what it does not write. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h

/-- No item writes an argument: it ends as launched. -/
theorem W7_arg (c : Dev nD) (r : Ref sig .tc) (h0 : r ∉ hostOps0_W) (h1 : r ∉ hostOps1_W) (h2 : r ∉ hostOps2_W) (h3 : r ∉ hostOps3_W)
    (h9 : r ≠ main_v9) (h11 : r ≠ main_v11) (h14 : r ≠ main_v14) : W7 m c r = m ((c : Thread nD τ).loc r) :=
  (W7_of m c r h3).trans <| (W6_of m c r h14).trans <| (W5_of m c r h2).trans <| (W4_of m c r h11).trans <|
    (W3_of m c r h1).trans <| (W2_of m c r h9).trans <| (W1_of m c r h0).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1r m) c
  | ⟨1, _⟩ => fun c => dat1 (V3r m) c
  | ⟨2, _⟩ => fun c => dat2 (V5r m) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The first product as a segment -/

theorem hF0 (c : Dev nD) : ∀ w : Fin cfg0.W, (dat0 (V1r m) c).arrAt w cfg0.N = V2r m c (Pipeline.arrRef spec0 w)
  | ⟨0, _⟩ => ((dat0 (V1r m) c).arrAt_in 0 rfl _).trans ((A_eq0 (V1r m) c 0).trans (W2_of m c main_v1 (by decide)).symm)
  | ⟨1, _⟩ => ((dat0 (V1r m) c).arrAt_in 1 rfl _).trans ((A_eq0 (V1r m) c 1).trans (W2_of m c main_v8 (by decide)).symm)
  | ⟨2, _⟩ => (W2_self m c).symm
theorem hrest0 (c : Dev nD) : ∀ b, b ∉ Finset.univ.image (Pipeline.arrRef spec0) → V2r m c b = V1r m c b :=
  fun b hb => W2_of m c b fun e => hb (Finset.mem_image.mpr ⟨2, Finset.mem_univ _, e.symm⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1r m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1r m c) (V2r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second product as a segment -/

theorem hF2 (c : Dev nD) : ∀ w : Fin cfg2.W, (dat2 (V5r m) c).arrAt w cfg2.N = V6r m c (Pipeline.arrRef spec2 w)
  | ⟨0, _⟩ => ((dat2 (V5r m) c).arrAt_in 0 rfl _).trans ((A_eq2 (V5r m) c 0).trans (W6_of m c main_v11 (by decide)).symm)
  | ⟨1, _⟩ => ((dat2 (V5r m) c).arrAt_in 1 rfl _).trans ((A_eq2 (V5r m) c 1).trans (W6_of m c main_v13 (by decide)).symm)
  | ⟨2, _⟩ => (W6_self m c).symm
theorem hrest2 (c : Dev nD) : ∀ b, b ∉ Finset.univ.image (Pipeline.arrRef spec2) → V6r m c b = V5r m c b :=
  fun b hb => W6_of m c b fun e => hb (Finset.mem_image.mpr ⟨2, Finset.mem_univ _, e.symm⟩)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5r m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5r m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5r m c) (V6r m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Attention as a segment: one array read through three windows -/

/-- Attention's arrays, window by window: each a whole buffer, held at the window's share. -/
theorem arrays1_eq (c : Dev nD) (G : (w : Fin cfg1.W) → Buf (Elt F) ((cfg1.win w).arr.view.loc (c.tc : Thread nD τ))) :
    ((pdats m 1 c).arrays G : sProp 𝕄)
      = iprop((((c : Thread nD τ).loc main_v9) ↦{fullShare.left} G 0) ∗ (((c : Thread nD τ).loc main_v9) ↦{fullShare.right.left} G 1)
        ∗ (((c : Thread nD τ).loc main_v9) ↦{fullShare.right.right} G 2) ∗ (((c : Thread nD τ).loc main_v10) ↦{fullShare} G 3)
        ∗ (((c : Thread nD τ).loc main_v11) ↦{fullShare} G 4)) := by
  unfold Dat.arrays
  rw [bigSep_W1]
  have h0 : ((Pipeline.pin (pcfgs (F := F)) adm 1).win (0 : Fin 5)).arr.view.set = Finset.univ := (arr_whole1 0).set_eq_univ
  have h1 : ((Pipeline.pin (pcfgs (F := F)) adm 1).win (1 : Fin 5)).arr.view.set = Finset.univ := (arr_whole1 1).set_eq_univ
  have h2 : ((Pipeline.pin (pcfgs (F := F)) adm 1).win (2 : Fin 5)).arr.view.set = Finset.univ := (arr_whole1 2).set_eq_univ
  have h3 : ((Pipeline.pin (pcfgs (F := F)) adm 1).win (3 : Fin 5)).arr.view.set = Finset.univ := (arr_whole1 3).set_eq_univ
  have h4 : ((Pipeline.pin (pcfgs (F := F)) adm 1).win (4 : Fin 5)).arr.view.set = Finset.univ := (arr_whole1 4).set_eq_univ
  rw [h0, h1, h2, h3, h4]
  rfl

/-- The three distinct buffers behind attention's five windows. -/
theorem arrBufs1_eq (c : Dev nD) (V : (b : Ref sig .tc) → Buf (Elt F) ((c.tc : Thread nD τ).loc b)) :
    (Pipeline.arrBufs (Ix := Unit) (Name := ℕ) (U := UR sig nD τ) (Lvl := ℕ) (Pipeline.pin (pcfgs (F := F)) adm 1).spec c V : sProp 𝕄)
      = iprop((((c : Thread nD τ).loc main_v9) ↦{fullShare} V main_v9) ∗ (((c : Thread nD τ).loc main_v10) ↦{fullShare} V main_v10)
        ∗ (((c : Thread nD τ).loc main_v11) ↦{fullShare} V main_v11)) := by
  unfold Pipeline.arrBufs
  have himg : Finset.univ.image (Pipeline.arrRef (Pipeline.pin (pcfgs (F := F)) adm 1).spec) = [main_v9, main_v10, main_v11].toFinset :=
    (show Finset.univ.image (Pipeline.arrRef spec1) = [main_v9, main_v10, main_v11].toFinset by decide)
  rw [bigSep_eq_bigSepL_of_eq [main_v9, main_v10, main_v11] himg (by decide)]
  rfl

/-- ENTRY: the fused projections' buffer is dealt to the three windows that read it, in three parts of its full share. -/
theorem entry1 (c : Dev nD) :
    (unscopedBufs (Ix := Unit) (Name := ℕ) (U := UR sig nD τ) (Lvl := ℕ) c (V3r m c) : sProp 𝕄)
      ⊢ iprop((pdats m 1 c).arrays ((pdats m 1 c).arrAt · 0) ∗ Pipeline.unscopedRest spec1 c (V3r m c)) := by
  rw [Pipeline.unscopedBufs_split₀ (Pipeline.pin (pcfgs (F := F)) adm) 1 winFacts₀1.arr_unscoped c (V3r m c), arrays1_eq, arrBufs1_eq]
  refine sep_mono ?_ .rfl
  rw [show (pdats m 1 c).arrAt 0 0 = V3r m c main_v9 from A_eq1 (V3r m) c 0, show (pdats m 1 c).arrAt 1 0 = V3r m c main_v9 from A_eq1 (V3r m) c 1,
    show (pdats m 1 c).arrAt 2 0 = V3r m c main_v9 from A_eq1 (V3r m) c 2, show (pdats m 1 c).arrAt 3 0 = V3r m c main_v10 from A_eq1 (V3r m) c 3,
    show (pdats m 1 c).arrAt 4 0 = V3r m c main_v11 from A_eq1 (V3r m) c 4]
  iintro ⟨H9, H10, H11⟩
  ihave H9s := (pointsTo_share (PosShare.mem_left_op_right fullShare)).1 $$ H9
  icases H9s with ⟨H9a, H9r⟩
  ihave H9t := (pointsTo_share (PosShare.mem_left_op_right fullShare.right)).1 $$ H9r
  icases H9t with ⟨H9b, H9c⟩
  isplitl [H9a]; · iexact H9a
  isplitl [H9b]; · iexact H9b
  isplitl [H9c]; · iexact H9c
  isplitl [H10]; · iexact H10
  iexact H11

/-- What attention's arrays hold at its exit: the inputs as entered, the context array at what the write-backs leave. -/
theorem hF1 (c : Dev nD) :
    (pdats m 1 c).arrAt 0 cfg1.N = V4r m c main_v9 ∧ (pdats m 1 c).arrAt 1 cfg1.N = V4r m c main_v9 ∧ (pdats m 1 c).arrAt 2 cfg1.N = V4r m c main_v9
      ∧ (pdats m 1 c).arrAt 3 cfg1.N = V4r m c main_v10 ∧ (pdats m 1 c).arrAt 4 cfg1.N = V4r m c main_v11 :=
  ⟨((dat1 (V3r m) c).arrAt_in 0 rfl _).trans ((A_eq1 (V3r m) c 0).trans (W4_of m c main_v9 (by decide)).symm),
   ((dat1 (V3r m) c).arrAt_in 1 rfl _).trans ((A_eq1 (V3r m) c 1).trans (W4_of m c main_v9 (by decide)).symm),
   ((dat1 (V3r m) c).arrAt_in 2 rfl _).trans ((A_eq1 (V3r m) c 2).trans (W4_of m c main_v9 (by decide)).symm),
   ((dat1 (V3r m) c).arrAt_in 3 rfl _).trans ((A_eq1 (V3r m) c 3).trans (W4_of m c main_v10 (by decide)).symm),
   (W4_self m c).symm⟩

/-- EXIT: the three parts of the fused projections' buffer are joined again; every buffer attention does not write is as
    it was. -/
theorem exit1 (c : Dev nD) :
    iprop((pdats m 1 c).arrays ((pdats m 1 c).arrAt · cfg1.N) ∗ Pipeline.unscopedRest (Ix := Unit) (Name := ℕ) (U := UR sig nD τ) (Lvl := ℕ) spec1 c (V3r m c))
      ⊢ (unscopedBufs c (V4r m c) : sProp 𝕄) := by
  rw [Pipeline.unscopedBufs_split₀ (Pipeline.pin (pcfgs (F := F)) adm) 1 winFacts₀1.arr_unscoped c (V4r m c), arrays1_eq, arrBufs1_eq]
  refine sep_mono ?_ (Entails.of_eq ?_)
  · rw [(hF1 m c).1, (hF1 m c).2.1, (hF1 m c).2.2.1, (hF1 m c).2.2.2.1, (hF1 m c).2.2.2.2]
    iintro ⟨Ha, Hb, Hc, H10, H11⟩
    ihave Hr := (pointsTo_share (PosShare.mem_left_op_right fullShare.right)).2 $$ [Hb Hc]
    · isplitl [Hb] <;> iassumption
    ihave H9 := (pointsTo_share (PosShare.mem_left_op_right fullShare)).2 $$ [Ha Hr]
    · isplitl [Ha] <;> iassumption
    isplitl [H9]; · iexact H9
    isplitl [H10]; · iexact H10
    iexact H11
  · unfold Pipeline.unscopedRest
    exact bigSep_congr fun b hb => by
      rw [show V4r m c b = V3r m c b from W4_of m c b fun e => (Finset.mem_sdiff.mp hb).2 (Finset.mem_image.mpr ⟨4, Finset.mem_univ _, e.symm⟩)]

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3r m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3r m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- THE RUN: from any memory with zero counters every weakly fair execution terminates, nothing faulting, and every
    final state holds each buffer that outlives the kernels at its named final contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_arg0 (by decide))).trans (W7_arg m c main_arg0 (by decide) (by decide) (by decide) (by decide) (by decide) (by decide) (by decide)),
    (h c _ (mem_uc main_arg1 (by decide))).trans (W7_arg m c main_arg1 (by decide) (by decide) (by decide) (by decide) (by decide) (by decide) (by decide)),
    (h c _ (mem_uc main_arg2 (by decide))).trans (W7_arg m c main_arg2 (by decide) (by decide) (by decide) (by decide) (by decide) (by decide) (by decide)),
    (h c _ (mem_uc main_arg3 (by decide))).trans (W7_arg m c main_arg3 (by decide) (by decide) (by decide) (by decide) (by decide) (by decide) (by decide)),
    (h c _ (mem_uc main_arg4 (by decide))).trans (W7_arg m c main_arg4 (by decide) (by decide) (by decide) (by decide) (by decide) (by decide) (by decide)),
    (h c _ (mem_uc main_arg5 (by decide))).trans (W7_arg m c main_arg5 (by decide) (by decide) (by decide) (by decide) (by decide) (by decide) (by decide))⟩)
    (run_all m ρ)

end Cert.Kernel.Fr

end
-- ==== Proof.IdealRegion0.lean ====
/-
  Region 0 of the program: one tile of a matrix product per grid point.

  The body reads its two input blocks whole, multiplies them into a zero accumulator and stores the product over the
  whole output block.  This module states, for buffer contents `V` at the region's entry, what each window's staging
  buffer holds when the body is called at a grid point (the window's block of its array, fetched there or not) and
  what the body leaves (the inputs as found, the output at the product of the two input blocks), and proves the body's
  Hoare triple and the pipeline's obligation from it.
-/
import proofs.«175731_j51161650430216_2_alg».proof.Proof.Gen.KernelIdeal.Launch
import proofs.«175731_j51161650430216_2_alg».proof.Proof.Gen.KernelIdeal.Skeleton
import proofs.«175731_j51161650430216_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where the
    pipeline does not fetch, the block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each a whole block. -/
abbrev rA0 : Rect S512x1024 := Rect.unit (s := S512x1024) ![0, 0] S512x1024.size inb_S512x1024_S512x1024_0_0
abbrev rB0 : Rect S1024x512 := Rect.unit (s := S1024x512) ![0, 0] S1024x512.size inb_S1024x512_S1024x512_0_0
abbrev rO0 : Rect S512x512 := Rect.unit (s := S512x512) ![0, 0] S512x512.size inb_S512x512_S512x512_0_0

/-- What the body leaves in the output block: its one store, of the product of the two input blocks. -/
def out0_2 (x0 : Vec F S512x1024 .bf16) (x1 : Vec F S1024x512 .bf16) : Vec F S512x512 .bf16 :=
  View.canon [⟨rO0, k0_pay1 (View.ld x0 rA0) (View.ld x1 rB0)⟩]

/-- The store covers the block. -/
theorem cover0_2 (p0 : Vec F S512x512 .bf16) (y : S512x512.Idx) :
    ∃ pc ∈ ([⟨rO0, p0⟩] : List (View.Piece (Elt F) S512x512 .bf16)), y ∈ pc.1.set :=
  View.cover_of_tiled [⟨rO0, p0⟩] S512x512.size (by rfl) y

set_option maxHeartbeats 1000000 in
/-- The body on whole staging buffers — the inputs' at contents `x0`, `x1`, the output's at anything — runs to its
    end holding the inputs as they were and the output at `out0_2 x0 x1`. -/
theorem sound_kernel0 (c : Dev nD) (E : Set ℕ) (i : grid0.Coords) (arg0 : Memref sig .tc .vmem S512x1024 .bf16) (harg0 : arg0.IsWhole)
    (arg1 : Memref sig .tc .vmem S1024x512 .bf16) (harg1 : arg1.IsWhole) (arg2 : Memref sig .tc .vmem S512x512 .bf16) (harg2 : arg2.IsWhole)
    (x0 : Vec F S512x1024 .bf16) (x1 : Vec F S1024x512 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the output's at the product of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.IdealRegion1.lean ====
/-
  Region 1 of the program: two heads of attention per grid point.

  The body reads a block of queries, a block of keys, a block of values (three blocks of ONE array, the fused
  projections) and a block of the mask, whole; computes the two heads' context vectors; and stores them, side by
  side, over the whole output block.  This module states, for buffer contents `V` at the region's entry, what each
  window's staging buffer holds when the body is called at a grid point and what the body leaves, and proves the
  body's Hoare triple and the pipeline's obligation from it.  The array the three windows share is held in three
  parts of the full share, one per window.
-/
import proofs.«175731_j51161650430216_2_alg».proof.Proof.Gen.KernelIdeal.Launch
import proofs.«175731_j51161650430216_2_alg».proof.Proof.Gen.KernelIdeal.Skeleton
import proofs.«175731_j51161650430216_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the
    pipeline does not fetch, the block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body reads and writes: each a whole block. -/
abbrev rQ1 : Rect S512x128 := Rect.unit (s := S512x128) ![0, 0] S512x128.size inb_S512x128_S512x128_0_0
abbrev rK1 : Rect S2048x128 := Rect.unit (s := S2048x128) ![0, 0] S2048x128.size inb_S2048x128_S2048x128_0_0
abbrev rM1 : Rect S512x2048 := Rect.unit (s := S512x2048) ![0, 0] S512x2048.size inb_S512x2048_S512x2048_0_0

/-- What the body leaves in the output block: its one store, of the two heads' context vectors side by side. -/
def out1_4 (x0 : Vec F S512x128 .bf16) (x1 x2 : Vec F S2048x128 .bf16) (x3 : Vec F S512x2048 .bf16) : Vec F S512x128 .bf16 :=
  View.canon [⟨rQ1, k1_pay1 (k1_pay6 (View.ld x0 rQ1) (View.ld x1 rK1) (View.ld x2 rK1) (View.ld x3 rM1)) (k1_pay7 (View.ld x2 rK1))
    (k1_pay8 (View.ld x0 rQ1) (View.ld x1 rK1) (View.ld x3 rM1))⟩]

/-- The store covers the block. -/
theorem cover1_4 (p0 : Vec F S512x128 .bf16) (y : S512x128.Idx) :
    ∃ pc ∈ ([⟨rQ1, p0⟩] : List (View.Piece (Elt F) S512x128 .bf16)), y ∈ pc.1.set :=
  View.cover_of_tiled [⟨rQ1, p0⟩] S512x128.size (by rfl) y

set_option maxHeartbeats 1000000 in
/-- The body on whole staging buffers — the inputs' at contents `x0 … x3`, the output's at anything — runs to its end
    holding the inputs as they were and the output at `out1_4 x0 x1 x2 x3`. -/
theorem sound_kernel1 (c : Dev nD) (E : Set ℕ) (i : grid1.Coords) (arg0 : Memref sig .tc .vmem S512x128 .bf16) (harg0 : arg0.IsWhole)
    (arg1 : Memref sig .tc .vmem S2048x128 .bf16) (harg1 : arg1.IsWhole) (arg2 : Memref sig .tc .vmem S2048x128 .bf16) (harg2 : arg2.IsWhole)
    (arg3 : Memref sig .tc .vmem S512x2048 .bf16) (harg3 : arg3.IsWhole) (arg4 : Memref sig .tc .vmem S512x128 .bf16) (harg4 : arg4.IsWhole)
    (x0 : Vec F S512x128 .bf16) (x1 x2 : Vec F S2048x128 .bf16) (x3 : Vec F S512x2048 .bf16) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__attn_kernel i arg0 harg0 arg1 harg1 arg2 harg2 arg3 harg3 arg4 harg4) K := by
  simp only [cc1__attn_kernel_eq_skeleton]; unfold cc1__attn_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The pipeline's proof data on core `c`: the arrays as the region finds them; after the body at point `t` each
    input's buffer at its block and the output's at the two heads' context vectors; the invariant the scoped rest and
    the generator register, untouched; nothing owed; the array the first three windows read held in three parts of
    the full share, the mask's at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's obligation on the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.IdealRegion2.lean ====
/-
  Region 2 of the program: one tile of a matrix product per grid point.

  The body reads its two input blocks whole, multiplies them into a zero accumulator and stores the product over the
  whole output block.  This module states, for buffer contents `V` at the region's entry, what each window's staging
  buffer holds when the body is called at a grid point (the window's block of its array, fetched there or not) and
  what the body leaves (the inputs as found, the output at the product of the two input blocks), and proves the body's
  Hoare triple and the pipeline's obligation from it.
-/
import proofs.«175731_j51161650430216_2_alg».proof.Proof.Gen.KernelIdeal.Launch
import proofs.«175731_j51161650430216_2_alg».proof.Proof.Gen.KernelIdeal.Skeleton
import proofs.«175731_j51161650430216_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where the
    pipeline does not fetch, the block index has not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body reads and writes: each a whole block. -/
abbrev rA2 : Rect S512x1024 := Rect.unit (s := S512x1024) ![0, 0] S512x1024.size inb_S512x1024_S512x1024_0_0
abbrev rB2 : Rect S1024x512 := Rect.unit (s := S1024x512) ![0, 0] S1024x512.size inb_S1024x512_S1024x512_0_0
abbrev rO2 : Rect S512x512 := Rect.unit (s := S512x512) ![0, 0] S512x512.size inb_S512x512_S512x512_0_0

/-- What the body leaves in the output block: its one store, of the product of the two input blocks. -/
def out2_2 (x0 : Vec F S512x1024 .bf16) (x1 : Vec F S1024x512 .bf16) : Vec F S512x512 .f32 :=
  View.canon [⟨rO2, k2_pay1 (View.ld x0 rA2) (View.ld x1 rB2)⟩]

/-- The store covers the block. -/
theorem cover2_2 (p0 : Vec F S512x512 .f32) (y : S512x512.Idx) :
    ∃ pc ∈ ([⟨rO2, p0⟩] : List (View.Piece (Elt F) S512x512 .f32)), y ∈ pc.1.set :=
  View.cover_of_tiled [⟨rO2, p0⟩] S512x512.size (by rfl) y

set_option maxHeartbeats 1000000 in
/-- The body on whole staging buffers — the inputs' at contents `x0`, `x1`, the output's at anything — runs to its
    end holding the inputs as they were and the output at `out2_2 x0 x1`. -/
theorem sound_kernel2 (c : Dev nD) (E : Set ℕ) (i : grid2.Coords) (arg0 : Memref sig .tc .vmem S512x1024 .bf16) (harg0 : arg0.IsWhole)
    (arg1 : Memref sig .tc .vmem S1024x512 .bf16) (harg1 : arg1.IsWhole) (arg2 : Memref sig .tc .vmem S512x512 .f32) (harg2 : arg2.IsWhole)
    (x0 : Vec F S512x1024 .bf16) (x1 : Vec F S1024x512 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__matmul_kernel i arg0 harg0 arg1 harg1 arg2 harg2) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each
    input's buffer at its block and the output's at the product of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.IdealRun.lean ====
/-
  The whole run of the program: host operations, the first product, the mask's conversion, attention, the output
  weight's transposition, the second product, the final reshape.

  Between two items every buffer that outlives a kernel is held at named contents: the launch memory, folded through
  each stretch of host operations, and updated after each kernel at the one array it writes with what the kernel's
  write-backs leave there.  Each kernel is entered from that state — its windows' arrays split out of the buffers,
  the array that attention reads through three windows dealt to them in three parts of its full share — and left at
  the next one.  The run's conclusion names every such buffer's final contents, the result's among them.
-/
import proofs.«175731_j51161650430216_2_alg».proof.Proof.IdealRegion0
import proofs.«175731_j51161650430216_2_alg».proof.Proof.IdealRegion1
import proofs.«175731_j51161650430216_2_alg».proof.Proof.IdealRegion2
import proofs.«175731_j51161650430216_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 (c : Dev nD) : Valuation τ sig (Elt F) := fun b => m (c, b)
/-- After the first stretch of host operations (the first product's entry). -/
abbrev W1 (c : Dev nD) : Valuation τ sig (Elt F) := StableHlo.after hostOps0 (W0 m c)
abbrev V1r : (c : Dev nD) → (b : Ref sig .tc) → Buf (Elt F) ((c : Thread nD τ).loc b) := fun c b => W1 m c b
/-- What the first product leaves in the fused projections' array. -/
def o0 (c : Dev nD) : Buf (Elt F) ((c : Thread nD τ).loc main_v9) := (dat0 (V1r m) c).arrAt 2 cfg0.N
/-- After the first product. -/
abbrev W2 (c : Dev nD) : Valuation τ sig (Elt F) := Function.update (W1 m c) main_v9 (o0 m c)
/-- After the mask's conversion (attention's entry). -/
abbrev W3 (c : Dev nD) : Valuation τ sig (Elt F) := StableHlo.after hostOps1 (W2 m c)
abbrev V3r : (c : Dev nD) → (b : Ref sig .tc) → Buf (Elt F) ((c : Thread nD τ).loc b) := fun c b => W3 m c b
/-- What attention leaves in the context array. -/
def o1 (c : Dev nD) : Buf (Elt F) ((c : Thread nD τ).loc main_v11) := (dat1 (V3r m) c).arrAt 4 cfg1.N
/-- After attention. -/
abbrev W4 (c : Dev nD) : Valuation τ sig (Elt F) := Function.update (W3 m c) main_v11 (o1 m c)
/-- After the output weight's conversion and transposition (the second product's entry). -/
abbrev W5 (c : Dev nD) : Valuation τ sig (Elt F) := StableHlo.after hostOps2 (W4 m c)
abbrev V5r : (c : Dev nD) → (b : Ref sig .tc) → Buf (Elt F) ((c : Thread nD τ).loc b) := fun c b => W5 m c b
/-- What the second product leaves in its result array. -/
def o2 (c : Dev nD) : Buf (Elt F) ((c : Thread nD τ).loc main_v14) := (dat2 (V5r m) c).arrAt 2 cfg2.N
/-- After the second product. -/
abbrev W6 (c : Dev nD) : Valuation τ sig (Elt F) := Function.update (W5 m c) main_v14 (o2 m c)
/-- After the final reshape: the end. -/
abbrev W7 (c : Dev nD) : Valuation τ sig (Elt F) := StableHlo.after hostOps3 (W6 m c)
abbrev V2r : (c : Dev nD) → (b : Ref sig .tc) → Buf (Elt F) ((c : Thread nD τ).loc b) := fun c b => W2 m c b
abbrev V4r : (c : Dev nD) → (b : Ref sig .tc) → Buf (Elt F) ((c : Thread nD τ).loc b) := fun c b => W4 m c b
abbrev V6r : (c : Dev nD) → (b : Ref sig .tc) → Buf (Elt F) ((c : Thread nD τ).loc b) := fun c b => W6 m c b

/-- A kernel's update leaves every other buffer alone. -/
theorem W2_of (c : Dev nD) (r : Ref sig .tc) (h : r ≠ main_v9) : W2 m c r = W1 m c r :=
  Function.update_of_ne (StableHlo.devRef_ne_of_ne h : (Proc.devRef .tc r : DevRef τ sig) ≠ Proc.devRef .tc main_v9) _ _
theorem W4_of (c : Dev nD) (r : Ref sig .tc) (h : r ≠ main_v11) : W4 m c r = W3 m c r :=
  Function.update_of_ne (StableHlo.devRef_ne_of_ne h : (Proc.devRef .tc r : DevRef τ sig) ≠ Proc.devRef .tc main_v11) _ _
theorem W6_of (c : Dev nD) (r : Ref sig .tc) (h : r ≠ main_v14) : W6 m c r = W5 m c r :=
  Function.update_of_ne (StableHlo.devRef_ne_of_ne h : (Proc.devRef .tc r : DevRef τ sig) ≠ Proc.devRef .tc main_v14) _ _
theorem W2_self (c : Dev nD) : W2 m c main_v9 = o0 m c := Function.update_self _ _ _
theorem W4_self (c : Dev nD) : W4 m c main_v11 = o1 m c := Function.update_self _ _ _
theorem W6_self (c : Dev nD) : W6 m c main_v14 = o2 m c := Function.update_self _ _ _
/-- A host stretch leaves alone what it does not write. -/
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m c r = W6 m c r :=
  StableHlo.after_of_writes_sub hostOps3 _ hostOps3_writes h

/-- No item writes an argument: it ends as launched. -/
theorem W7_arg (c : Dev nD) (r : Ref sig .tc) (h0 : r ∉ hostOps0_W) (h1 : r ∉ hostOps1_W) (h2 : r ∉ hostOps2_W) (h3 : r ∉ hostOps3_W)
    (h9 : r ≠ main_v9) (h11 : r ≠ main_v11) (h14 : r ≠ main_v14) : W7 m c r = m ((c : Thread nD τ).loc r) :=
  (W7_of m c r h3).trans <| (W6_of m c r h14).trans <| (W5_of m c r h2).trans <| (W4_of m c r h11).trans <|
    (W3_of m c r h1).trans <| (W2_of m c r h9).trans <| (W1_of m c r h0).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1r m) c
  | ⟨1, _⟩ => fun c => dat1 (V3r m) c
  | ⟨2, _⟩ => fun c => dat2 (V5r m) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m c) ∗ ∃ r, prngReg c r)

/-! ## The first product as a segment -/

theorem hF0 (c : Dev nD) : ∀ w : Fin cfg0.W, (dat0 (V1r m) c).arrAt w cfg0.N = V2r m c (Pipeline.arrRef spec0 w)
  | ⟨0, _⟩ => ((dat0 (V1r m) c).arrAt_in 0 rfl _).trans ((A_eq0 (V1r m) c 0).trans (W2_of m c main_v1 (by decide)).symm)
  | ⟨1, _⟩ => ((dat0 (V1r m) c).arrAt_in 1 rfl _).trans ((A_eq0 (V1r m) c 1).trans (W2_of m c main_v8 (by decide)).symm)
  | ⟨2, _⟩ => (W2_self m c).symm
theorem hrest0 (c : Dev nD) : ∀ b, b ∉ Finset.univ.image (Pipeline.arrRef spec0) → V2r m c b = V1r m c b :=
  fun b hb => W2_of m c b fun e => hb (Finset.mem_image.mpr ⟨2, Finset.mem_univ _, e.symm⟩)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1r m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1r m c) (V2r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second product as a segment -/

theorem hF2 (c : Dev nD) : ∀ w : Fin cfg2.W, (dat2 (V5r m) c).arrAt w cfg2.N = V6r m c (Pipeline.arrRef spec2 w)
  | ⟨0, _⟩ => ((dat2 (V5r m) c).arrAt_in 0 rfl _).trans ((A_eq2 (V5r m) c 0).trans (W6_of m c main_v11 (by decide)).symm)
  | ⟨1, _⟩ => ((dat2 (V5r m) c).arrAt_in 1 rfl _).trans ((A_eq2 (V5r m) c 1).trans (W6_of m c main_v13 (by decide)).symm)
  | ⟨2, _⟩ => (W6_self m c).symm
theorem hrest2 (c : Dev nD) : ∀ b, b ∉ Finset.univ.image (Pipeline.arrRef spec2) → V6r m c b = V5r m c b :=
  fun b hb => W6_of m c b fun e => hb (Finset.mem_image.mpr ⟨2, Finset.mem_univ _, e.symm⟩)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5r m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5r m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5r m c) (V6r m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Attention as a segment: one array read through three windows -/

/-- Attention's arrays, window by window: each a whole buffer, held at the window's share. -/
theorem arrays1_eq (c : Dev nD) (G : (w : Fin cfg1.W) → Buf (Elt F) ((cfg1.win w).arr.view.loc (c.tc : Thread nD τ))) :
    ((pdats m 1 c).arrays G : sProp 𝕄)
      = iprop((((c : Thread nD τ).loc main_v9) ↦{fullShare.left} G 0) ∗ (((c : Thread nD τ).loc main_v9) ↦{fullShare.right.left} G 1)
        ∗ (((c : Thread nD τ).loc main_v9) ↦{fullShare.right.right} G 2) ∗ (((c : Thread nD τ).loc main_v10) ↦{fullShare} G 3)
        ∗ (((c : Thread nD τ).loc main_v11) ↦{fullShare} G 4)) := by
  unfold Dat.arrays
  rw [bigSep_W1]
  have h0 : ((Pipeline.pin (pcfgs (F := F)) adm 1).win (0 : Fin 5)).arr.view.set = Finset.univ := (arr_whole1 0).set_eq_univ
  have h1 : ((Pipeline.pin (pcfgs (F := F)) adm 1).win (1 : Fin 5)).arr.view.set = Finset.univ := (arr_whole1 1).set_eq_univ
  have h2 : ((Pipeline.pin (pcfgs (F := F)) adm 1).win (2 : Fin 5)).arr.view.set = Finset.univ := (arr_whole1 2).set_eq_univ
  have h3 : ((Pipeline.pin (pcfgs (F := F)) adm 1).win (3 : Fin 5)).arr.view.set = Finset.univ := (arr_whole1 3).set_eq_univ
  have h4 : ((Pipeline.pin (pcfgs (F := F)) adm 1).win (4 : Fin 5)).arr.view.set = Finset.univ := (arr_whole1 4).set_eq_univ
  rw [h0, h1, h2, h3, h4]
  rfl

/-- The three distinct buffers behind attention's five windows. -/
theorem arrBufs1_eq (c : Dev nD) (V : (b : Ref sig .tc) → Buf (Elt F) ((c.tc : Thread nD τ).loc b)) :
    (Pipeline.arrBufs (Ix := Unit) (Name := ℕ) (U := UR sig nD τ) (Lvl := ℕ) (Pipeline.pin (pcfgs (F := F)) adm 1).spec c V : sProp 𝕄)
      = iprop((((c : Thread nD τ).loc main_v9) ↦{fullShare} V main_v9) ∗ (((c : Thread nD τ).loc main_v10) ↦{fullShare} V main_v10)
        ∗ (((c : Thread nD τ).loc main_v11) ↦{fullShare} V main_v11)) := by
  unfold Pipeline.arrBufs
  have himg : Finset.univ.image (Pipeline.arrRef (Pipeline.pin (pcfgs (F := F)) adm 1).spec) = [main_v9, main_v10, main_v11].toFinset :=
    (show Finset.univ.image (Pipeline.arrRef spec1) = [main_v9, main_v10, main_v11].toFinset by decide)
  rw [bigSep_eq_bigSepL_of_eq [main_v9, main_v10, main_v11] himg (by decide)]
  rfl

/-- ENTRY: the fused projections' buffer is dealt to the three windows that read it, in three parts of its full share. -/
theorem entry1 (c : Dev nD) :
    (unscopedBufs (Ix := Unit) (Name := ℕ) (U := UR sig nD τ) (Lvl := ℕ) c (V3r m c) : sProp 𝕄)
      ⊢ iprop((pdats m 1 c).arrays ((pdats m 1 c).arrAt · 0) ∗ Pipeline.unscopedRest spec1 c (V3r m c)) := by
  rw [Pipeline.unscopedBufs_split₀ (Pipeline.pin (pcfgs (F := F)) adm) 1 winFacts₀1.arr_unscoped c (V3r m c), arrays1_eq, arrBufs1_eq]
  refine sep_mono ?_ .rfl
  rw [show (pdats m 1 c).arrAt 0 0 = V3r m c main_v9 from A_eq1 (V3r m) c 0, show (pdats m 1 c).arrAt 1 0 = V3r m c main_v9 from A_eq1 (V3r m) c 1,
    show (pdats m 1 c).arrAt 2 0 = V3r m c main_v9 from A_eq1 (V3r m) c 2, show (pdats m 1 c).arrAt 3 0 = V3r m c main_v10 from A_eq1 (V3r m) c 3,
    show (pdats m 1 c).arrAt 4 0 = V3r m c main_v11 from A_eq1 (V3r m) c 4]
  iintro ⟨H9, H10, H11⟩
  ihave H9s := (pointsTo_share (PosShare.mem_left_op_right fullShare)).1 $$ H9
  icases H9s with ⟨H9a, H9r⟩
  ihave H9t := (pointsTo_share (PosShare.mem_left_op_right fullShare.right)).1 $$ H9r
  icases H9t with ⟨H9b, H9c⟩
  isplitl [H9a]; · iexact H9a
  isplitl [H9b]; · iexact H9b
  isplitl [H9c]; · iexact H9c
  isplitl [H10]; · iexact H10
  iexact H11

/-- What attention's arrays hold at its exit: the inputs as entered, the context array at what the write-backs leave. -/
theorem hF1 (c : Dev nD) :
    (pdats m 1 c).arrAt 0 cfg1.N = V4r m c main_v9 ∧ (pdats m 1 c).arrAt 1 cfg1.N = V4r m c main_v9 ∧ (pdats m 1 c).arrAt 2 cfg1.N = V4r m c main_v9
      ∧ (pdats m 1 c).arrAt 3 cfg1.N = V4r m c main_v10 ∧ (pdats m 1 c).arrAt 4 cfg1.N = V4r m c main_v11 :=
  ⟨((dat1 (V3r m) c).arrAt_in 0 rfl _).trans ((A_eq1 (V3r m) c 0).trans (W4_of m c main_v9 (by decide)).symm),
   ((dat1 (V3r m) c).arrAt_in 1 rfl _).trans ((A_eq1 (V3r m) c 1).trans (W4_of m c main_v9 (by decide)).symm),
   ((dat1 (V3r m) c).arrAt_in 2 rfl _).trans ((A_eq1 (V3r m) c 2).trans (W4_of m c main_v9 (by decide)).symm),
   ((dat1 (V3r m) c).arrAt_in 3 rfl _).trans ((A_eq1 (V3r m) c 3).trans (W4_of m c main_v10 (by decide)).symm),
   (W4_self m c).symm⟩

/-- EXIT: the three parts of the fused projections' buffer are joined again; every buffer attention does not write is as
    it was. -/
theorem exit1 (c : Dev nD) :
    iprop((pdats m 1 c).arrays ((pdats m 1 c).arrAt · cfg1.N) ∗ Pipeline.unscopedRest (Ix := Unit) (Name := ℕ) (U := UR sig nD τ) (Lvl := ℕ) spec1 c (V3r m c))
      ⊢ (unscopedBufs c (V4r m c) : sProp 𝕄) := by
  rw [Pipeline.unscopedBufs_split₀ (Pipeline.pin (pcfgs (F := F)) adm) 1 winFacts₀1.arr_unscoped c (V4r m c), arrays1_eq, arrBufs1_eq]
  refine sep_mono ?_ (Entails.of_eq ?_)
  · rw [(hF1 m c).1, (hF1 m c).2.1, (hF1 m c).2.2.1, (hF1 m c).2.2.2.1, (hF1 m c).2.2.2.2]
    iintro ⟨Ha, Hb, Hc, H10, H11⟩
    ihave Hr := (pointsTo_share (PosShare.mem_left_op_right fullShare.right)).2 $$ [Hb Hc]
    · isplitl [Hb] <;> iassumption
    ihave H9 := (pointsTo_share (PosShare.mem_left_op_right fullShare)).2 $$ [Ha Hr]
    · isplitl [Ha] <;> iassumption
    isplitl [H9]; · iexact H9
    isplitl [H10]; · iexact H10
    iexact H11
  · unfold Pipeline.unscopedRest
    exact bigSep_congr fun b hb => by
      rw [show V4r m c b = V3r m c b from W4_of m c b fun e => (Finset.mem_sdiff.mp hb).2 (Finset.mem_image.mpr ⟨4, Finset.mem_univ _, e.symm⟩)]

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3r m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3r m c)
  hentry c := by
    rw [Pipeline.ownSems0_none]
    have hsplit := entry1 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- THE RUN: from any memory with zero counters every weakly fair execution terminates, nothing faulting, and every
    final state holds each buffer that outlives the kernels at its named final contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
    (h c _ (mem_uc main_arg0 (by decide))).trans (W7_arg m c main_arg0 (by decide) (by decide) (by decide) (by decide) (by decide) (by decide) (by decide)),
    (h c _ (mem_uc main_arg1 (by decide))).trans (W7_arg m c main_arg1 (by decide) (by decide) (by decide) (by decide) (by decide) (by decide) (by decide)),
    (h c _ (mem_uc main_arg2 (by decide))).trans (W7_arg m c main_arg2 (by decide) (by decide) (by decide) (by decide) (by decide) (by decide) (by decide)),
    (h c _ (mem_uc main_arg3 (by decide))).trans (W7_arg m c main_arg3 (by decide) (by decide) (by decide) (by decide) (by decide) (by decide) (by decide)),
    (h c _ (mem_uc main_arg4 (by decide))).trans (W7_arg m c main_arg4 (by decide) (by decide) (by decide) (by decide) (by decide) (by decide) (by decide)),
    (h c _ (mem_uc main_arg5 (by decide))).trans (W7_arg m c main_arg5 (by decide) (by decide) (by decide) (by decide) (by decide) (by decide) (by decide))⟩)
    (run_all m ρ)

end Cert.KernelIdeal.Fr

end
-- ==== Proof.Spec.lean ====
/-
  Multi-head self-attention on the extended reals, entry by entry.

  For an input x : [2, 2048, 1024], an additive mask : [2048, 2048] and four weight matrices W : [1024, 1024]
  (rows = output features), with 16 heads of width 64:
    proj W (b, s, e)      = ∑ d, x(b, s, d) · W(e, d)                      (a linear layer, x · Wᵀ)
    score (b, h, s, t)    = (∑ d, q(b, s, h·64+d) · k(b, t, h·64+d)) · (1/8) + mask(s, t)
    weight (b, h, s, t)   = exp(score) / ((∑ t', exp(score(b, h, s, t'))) + ε)     (no maximum is subtracted)
    ctx (b, s, h·64+d)    = ∑ t, weight(b, h, s, t) · v(b, t, h·64+d)
    out (b, s, o)         = ∑ e, ctx(b, s, e) · Wo(o, e)
  The scale 1/8 and ε are kept as the binary words both programs print.  Every sum is a finite sum over the natural
  index type of its axis; no property of the entries is used anywhere in this file.
-/
import Idealize.ShloMosaic.PureOps.Ideal
import Idealize.ShloMosaic.Lib.ValueIdx

noncomputable section

namespace Cert.Mha

open Idealize.ShloMosaic Idealize.ShloMosaic.ValueIdx
open scoped BigOperators

/-- The input, the mask and a weight matrix as functions of their indices. -/
abbrev Inp : Type := (⟨3, ![2, 2048, 1024]⟩ : Shape).Idx → EReal
abbrev Msk : Type := (⟨2, ![2048, 2048]⟩ : Shape).Idx → EReal
abbrev Wt : Type := (⟨2, ![1024, 1024]⟩ : Shape).Idx → EReal

/-- Feature `h·64 + d`: lane `d` of head `h`. -/
def feat (h : Fin 16) (d : Fin 64) : Fin 1024 := ⟨h.val * 64 + d.val, by have := h.isLt; have := d.isLt; omega⟩

/-- The head and the lane of a feature. -/
def headOf (e : Fin 1024) : Fin 16 := ⟨e.val / 64, by have := e.isLt; omega⟩
def laneOf (e : Fin 1024) : Fin 64 := ⟨e.val % 64, Nat.mod_lt _ (by decide)⟩

theorem feat_head_lane (e : Fin 1024) : feat (headOf e) (laneOf e) = e :=
  Fin.ext (by show e.val / 64 * 64 + e.val % 64 = e.val; omega)

/-- The scale 1/8 and the ε of the normaliser, as the printed words denote them. -/
def scale : EReal := Ideal.ofBits .f32 0x3E000000#32
def eps : EReal := Ideal.ofBits .f32 0x2EDBE6FF#32

/-- A linear layer: entry `(b, s, e)` of `x · Wᵀ`. -/
def proj (x : Inp) (W : Wt) (b : Fin 2) (s : Fin 2048) (e : Fin 1024) : EReal :=
  ∑ d : Fin 1024, x (ix3 b s d) * W (ix2 e d)

section
variable (x : Inp) (mask : Msk) (Wq Wk Wv Wo : Wt)

/-- The masked, scaled score of query position `s` against key position `t` in head `h` of batch `b`. -/
def score (b : Fin 2) (h : Fin 16) (s t : Fin 2048) : EReal :=
  (∑ d : Fin 64, proj x Wq b s (feat h d) * proj x Wk b t (feat h d)) * scale + mask (ix2 s t)

/-- Its exponential, and the normaliser of row `s`. -/
def expScore (b : Fin 2) (h : Fin 16) (s t : Fin 2048) : EReal := Ideal.exp (score x mask Wq Wk b h s t)
def norm (b : Fin 2) (h : Fin 16) (s : Fin 2048) : EReal := (∑ t : Fin 2048, expScore x mask Wq Wk b h s t) + eps

/-- The attention weight. -/
def weight (b : Fin 2) (h : Fin 16) (s t : Fin 2048) : EReal :=
  Ideal.div (expScore x mask Wq Wk b h s t) (norm x mask Wq Wk b h s)

/-- The context vector: the values of head `h` averaged by row `s`'s weights, at lane `d`. -/
def ctx (b : Fin 2) (s : Fin 2048) (h : Fin 16) (d : Fin 64) : EReal :=
  ∑ t : Fin 2048, weight x mask Wq Wk b h s t * proj x Wv b t (feat h d)

/-- The same addressed by feature. -/
def ctxFeat (b : Fin 2) (s : Fin 2048) (e : Fin 1024) : EReal := ctx x mask Wq Wk Wv b s (headOf e) (laneOf e)

/-- The layer's output: the output projection of the context. -/
def out : (⟨3, ![2, 2048, 1024]⟩ : Shape).Idx → EReal :=
  fun i => ∑ e : Fin 1024, ctxFeat x mask Wq Wk Wv (i 0) (i 1) e * Wo (ix2 (i 2) e)

theorem out_ix3 (b : Fin 2) (s : Fin 2048) (o : Fin 1024) :
    out x mask Wq Wk Wv Wo (ix3 b s o) = ∑ e : Fin 1024, ctxFeat x mask Wq Wk Wv b s e * Wo (ix2 o e) := rfl

end

end Cert.Mha

end
-- ==== Proof.BlockSpec.lean ====
/-
  The three kernels of the attention layer, each as one function of the blocks it is handed.

  * A tile of a matrix product: a [512, 1024] row block against a [1024, 512] column block; entry (p, q) is the
    sum over k of a(p, k) · w(k, q).
  * Two heads of attention on one [512, 128] query block (lanes 0–63 the first head, 64–127 the second), against
    [2048, 128] key and value blocks and a [512, 2048] block of the additive mask: at (r, c), with g = c / 64 the head,
      sc(r, t)  = (∑ d < 64, Q(r, g·64+d) · K(t, g·64+d)) · (1/8) + M(r, t)
      out(r, c) = ∑ t, (exp sc(r, t) / ((∑ t', exp sc(r, t')) + ε)) · V(t, c).
-/
import proofs.«175731_j51161650430216_2_alg».proof.Proof.Spec

noncomputable section

namespace Cert.Mha

open Idealize.ShloMosaic Idealize.ShloMosaic.ValueIdx
open scoped BigOperators

/-- One tile of a matrix product. -/
def tileDot (a : (⟨2, ![512, 1024]⟩ : Shape).Idx → EReal) (w : (⟨2, ![1024, 512]⟩ : Shape).Idx → EReal) :
    (⟨2, ![512, 512]⟩ : Shape).Idx → EReal :=
  fun i => ∑ k : Fin 1024, a (ix2 (i 0) k) * w (ix2 k (i 1))

theorem tileDot_ix2 (a : (⟨2, ![512, 1024]⟩ : Shape).Idx → EReal) (w : (⟨2, ![1024, 512]⟩ : Shape).Idx → EReal)
    (p q : Fin 512) : tileDot a w (ix2 p q) = ∑ k : Fin 1024, a (ix2 p k) * w (ix2 k q) := rfl

/-- Lane `g·64 + d` of a two-head block. -/
def lane2 (g : Fin 2) (d : Fin 64) : Fin 128 := ⟨g.val * 64 + d.val, by have := g.isLt; have := d.isLt; omega⟩
/-- The head a lane of a two-head block belongs to. -/
def half (c : Fin 128) : Fin 2 := ⟨c.val / 64, by have := c.isLt; omega⟩

section
variable (Q : (⟨2, ![512, 128]⟩ : Shape).Idx → EReal) (K V : (⟨2, ![2048, 128]⟩ : Shape).Idx → EReal)
  (M : (⟨2, ![512, 2048]⟩ : Shape).Idx → EReal)

/-- The score of query row `r` against key row `t` in head `g` of the block. -/
def blkScore (g : Fin 2) (r : Fin 512) (t : Fin 2048) : EReal :=
  (∑ d : Fin 64, Q (ix2 r (lane2 g d)) * K (ix2 t (lane2 g d))) * scale + M (ix2 r t)

/-- The normaliser of row `r` in head `g`. -/
def blkNorm (g : Fin 2) (r : Fin 512) : EReal := (∑ t : Fin 2048, Ideal.exp (blkScore Q K M g r t)) + eps

/-- The attention weight of row `r` on key `t` in head `g`. -/
def blkWeight (g : Fin 2) (r : Fin 512) (t : Fin 2048) : EReal :=
  Ideal.div (Ideal.exp (blkScore Q K M g r t)) (blkNorm Q K M g r)

/-- What the attention kernel leaves in its output block. -/
def blkOut : (⟨2, ![512, 128]⟩ : Shape).Idx → EReal :=
  fun i => ∑ t : Fin 2048, blkWeight Q K M (half (i 1)) (i 0) t * V (ix2 t (i 1))

theorem blkOut_ix2 (r : Fin 512) (c : Fin 128) :
    blkOut Q K V M (ix2 r c) = ∑ t : Fin 2048, blkWeight Q K M (half c) r t * V (ix2 t c) := rfl

end

end Cert.Mha

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.PayloadMatmul.lean ====
/-
  The two matrix-product kernels at the extended reals, as one function of the blocks they are handed.

  Each kernel multiplies a [512, 1024] row block by a [1024, 512] column block on the matrix unit into a zero
  accumulator (one of them then changes the float format of the result, which is the identity at the extended reals).
  At entry (p, q) the result is the sum over k of a(p, k) · w(k, q): the tile of the matrix product.
-/
import proofs.«175731_j51161650430216_2_alg».proof.Proof.Gen.KernelIdeal.Skeleton
import proofs.«175731_j51161650430216_2_alg».proof.Proof.BlockSpec
import proofs.«175731_j51161650430216_2_alg».proof.Proof.LibDense

noncomputable section

namespace Cert.KernelIdeal.PayloadValue

open Idealize.ShloMosaic Idealize.ShloMosaic.ValueIdx Cert.KernelIdeal
open scoped BigOperators

/-- The matrix unit's product of a [512, 1024] block by a [1024, 512] block into zero, at entry (p, q). -/
theorem tile_matmul_at (a : FVec Ideal S512x1024 .bf16) (w : FVec Ideal S1024x512 .bf16) (p q : Fin 512) :
    matmul dot_S512x1024_S1024x512_S512x512_1_0_0_1_n_n none a w (constant (F := Ideal) S512x512 .f32 0x00000000#32) (ix2 p q)
      = ∑ k : Fin 1024, a (ix2 p k) * w (ix2 k q) :=
  Cert.Lib.Dense.matmul_zero_at (M := 512) (K := 1024) (N := 512) dot_S512x1024_S1024x512_S512x512_1_0_0_1_n_n
    rfl rfl rfl rfl rfl rfl a w p q

/-- The product kernel that stores its tile in the narrow format computes the tile of the matrix product. -/
theorem pay0_eq (v0 : Vec Ideal S512x1024 .bf16) (v2 : Vec Ideal S1024x512 .bf16) :
    Cert.KernelIdeal.Gen.k0_pay1 (F := Ideal) v0 v2 = Cert.Mha.tileDot v0 v2 := by
  funext i
  obtain ⟨p, q, rfl⟩ : ∃ (p : Fin 512) (q : Fin 512), i = ix2 p q := ⟨i 0, i 1, eq_ix2 i⟩
  unfold Cert.KernelIdeal.Gen.k0_pay1
  rw [Cert.Mha.tileDot_ix2, truncf_apply, shapeCast_self, shapeCast_self]
  exact tile_matmul_at v0 v2 p q

/-- The product kernel that stores its tile in the wide format computes the tile of the matrix product. -/
theorem pay2_eq (v0 : Vec Ideal S512x1024 .bf16) (v2 : Vec Ideal S1024x512 .bf16) :
    Cert.KernelIdeal.Gen.k2_pay1 (F := Ideal) v0 v2 = Cert.Mha.tileDot v0 v2 := by
  funext i
  obtain ⟨p, q, rfl⟩ : ∃ (p : Fin 512) (q : Fin 512), i = ix2 p q := ⟨i 0, i 1, eq_ix2 i⟩
  unfold Cert.KernelIdeal.Gen.k2_pay1
  rw [Cert.Mha.tileDot_ix2, shapeCast_self, shapeCast_self]
  exact tile_matmul_at v0 v2 p q

end Cert.KernelIdeal.PayloadValue

end
-- ==== Proof.MatmulArrays.lean ====
/-
  From tiles to whole arrays, for the two matrix-product kernels.

  Each grid point of a product kernel writes one 512 × 512 tile of its output: the product of a 512-row block of the left
  array by a 512-column block of the right array.  The row block is the tile's row range of the left array, the column
  block the tile's column range of the right array, so the tile is the corresponding tile of the whole product; the tiles
  cover the output, so after the region the output array is the whole product.
-/
import proofs.«175731_j51161650430216_2_alg».proof.Proof.IdealRegion0
import proofs.«175731_j51161650430216_2_alg».proof.Proof.IdealRegion2
import proofs.«175731_j51161650430216_2_alg».proof.Proof.PayloadMatmul
import Idealize.ShloMosaic.Lib.Pipeline.Value
import Idealize.ShloMosaic.Lib.ValueIdx

noncomputable section

namespace Cert.KernelIdeal.KValue

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

/-- The zero offsets of a whole-block rectangle, as the library's lemmas spell them. -/
theorem hz : (![0, 0] : Fin 2 → Nat) = fun _ => 0 := funext fun a => by fin_cases a <;> rfl

/-! ## The product kernel of region 0: [4096, 1024] × [1024, 3072] in 512 × 512 tiles -/

/-- The printed index maps over the grid: the row block moves with the tile's row index and never along its columns, the
    column block moves with the tile's column index and never along its rows, and the tile indices stay in their ranges. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7 ∧ win0_2.index t (1 : Fin 2) ≤ 5 :=
  (by decide +kernel : ∀ t : Fin grid0.N, _)

/-- Every tile is some grid point's. -/
theorem idx_onto0 : ∀ (q0 : Fin 8) (q1 : Fin 6), ∃ t : Fin cfg0.N, win0_2.index t = ![q0.val, q1.val] :=
  (by decide +kernel : ∀ (q0 : Fin 8) (q1 : Fin 6), ∃ t : Fin grid0.N, win0_2.index t = ![q0.val, q1.val])

/-- The whole product, entry by entry. -/
def prod0 (A : S4096x1024.Idx → EReal) (B : S1024x3072.Idx → EReal) : S4096x3072.Idx → EReal :=
  fun i => ∑ k : Fin 1024, A (ix2 (i 0) k) * B (ix2 k (i 1))

/-- The product at an entry given by its coordinates. -/
theorem prod0_ix2 (A : S4096x1024.Idx → EReal) (B : S1024x3072.Idx → EReal) (r : Fin 4096) (s : Fin 3072) :
    prod0 A B (ix2 r s) = ∑ k : Fin 1024, A (ix2 r k) * B (ix2 k s) := rfl

section
variable (V : (c : Dev nD) → (b : Ref sig .tc) → Buf (Elt Ideal) ((c : Thread nD τ).loc b))

/-- Row `p` of the row block at point `t` is row `r` of the left array when `r` is `p` past the block's first row. -/
theorem rowblk0 (c : Dev nD) (t : Fin cfg0.N) (p : Fin 512) (k : Fin 1024) (r : Fin 4096)
    (hr : r.val = win0_0.index t (0 : Fin 2) * 512 + p.val) (h1 : win0_0.index t (1 : Fin 2) = 0) :
    (iblk0 V c 0 t : S512x1024.Idx → EReal) (ix2 p k) = (V c main_v1 : S4096x1024.Idx → EReal) (ix2 r k) := by
  unfold iblk0
  rw [View.read_apply]
  show (V c main_v1 : S4096x1024.Idx → EReal) _ = _
  congr 1
  funext a
  apply Fin.ext
  match a with
  | ⟨0, _⟩ => show win0_0.index t (0 : Fin 2) * 512 + 1 * p.val = r.val; omega
  | ⟨1, _⟩ => show win0_0.index t (1 : Fin 2) * 1024 + 1 * k.val = k.val; omega

/-- Column `q` of the column block at point `t` is column `s` of the right array when `s` is `q` past the block's first column. -/
theorem colblk0 (c : Dev nD) (t : Fin cfg0.N) (k : Fin 1024) (q : Fin 512) (s : Fin 3072)
    (hs : s.val = win0_1.index t (1 : Fin 2) * 512 + q.val) (h0 : win0_1.index t (0 : Fin 2) = 0) :
    (iblk0 V c 1 t : S1024x512.Idx → EReal) (ix2 k q) = (V c main_v8 : S1024x3072.Idx → EReal) (ix2 k s) := by
  unfold iblk0
  rw [View.read_apply]
  show (V c main_v8 : S1024x3072.Idx → EReal) _ = _
  congr 1
  funext a
  apply Fin.ext
  match a with
  | ⟨0, _⟩ => show win0_1.index t (0 : Fin 2) * 1024 + 1 * k.val = k.val; omega
  | ⟨1, _⟩ => show win0_1.index t (1 : Fin 2) * 512 + 1 * q.val = s.val; omega

/-- What point `t` writes back is its tile of the whole product. -/
theorem flushed0_eq (c : Dev nD) (t : Fin cfg0.N) :
    (dat0 (F := Ideal) V c).flushed 2 t = ((cfg0.win 2).blk t).view.read (Elt Ideal) (prod0 (V c main_v1) (V c main_v8)) := by
  show (cfg0.win 2).cut (grid0.coords t) ((dat0 V c).after 2 t) = _
  rw [after0_2]
  unfold out0_2
  rw [View.canon_unit_zero hz]
  simp only [View.ld_unit_zero (S := S512x1024) hz, View.ld_unit_zero (S := S1024x512) hz]
  rw [PayloadValue.pay0_eq]
  obtain ⟨e0, e1, e2, e3, e4, e5⟩ := idx_facts0 t
  funext j
  obtain ⟨p, q, rfl⟩ : ∃ (p q : Fin 512), j = ix2 p q := ⟨j 0, j 1, eq_ix2 j⟩
  rw [View.read_apply]
  show Cert.Mha.tileDot _ _ (ix2 p q) = prod0 _ _ (((cfg0.win 2).blk t).view.emb (ix2 p q))
  rw [Cert.Mha.tileDot_ix2]
  unfold prod0
  refine Finset.sum_congr rfl fun k _ => ?_
  rw [rowblk0 V c t p k ((((cfg0.win 2).blk t).view.emb (ix2 p q)) 0)
      (by show win0_2.index t (0 : Fin 2) * 512 + 1 * p.val = _; omega) e1,
    colblk0 V c t k q ((((cfg0.win 2).blk t).view.emb (ix2 p q)) 1)
      (by show win0_2.index t (1 : Fin 2) * 512 + 1 * q.val = _; omega) e2]

/-- An index of the output is in point `t`'s tile iff each coordinate is in the tile's range on its axis. -/
theorem mem_blk0 (t : Fin cfg0.N) (i : S4096x3072.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v9).slice (win0_2.rect t)).set ↔ _
  rw [View.set_slice_whole, Rect.mem_set_unit]
  exact Iff.rfl

/-- Every entry of the output is in some point's tile: the tile at (row / 512, column / 512). -/
theorem cover0 (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := idx_onto0 ⟨(i 0).val / 512, by omega⟩ ⟨(i 1).val / 512, by omega⟩
  have q0 : win0_2.index t (0 : Fin 2) = (i 0).val / 512 := congrFun ht 0
  have q1 : win0_2.index t (1 : Fin 2) = (i 1).val / 512 := congrFun ht 1
  refine ⟨t, flush0_2 t, ?_⟩
  rw [mem_blk0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 512 ≤ (i 1).val ∧ (i 1).val < win0_2.index t (1 : Fin 2) * 512 + 512; omega

/-- The output array after the region: the whole matrix product of the two input arrays as the region finds them. -/
theorem final0 (c : Dev nD) : (dat0 (F := Ideal) V c).arrAt 2 cfg0.N
    = prod0 (V c main_v1) (V c main_v8) :=
  (dat0 (F := Ideal) V c).arrAt_eq_of_cover 2 (prod0 (V c main_v1) (V c main_v8)) (fun t _ => flushed0_eq V c t) cover0

end

/-! ## The product kernel of region 2: [4096, 1024] × [1024, 1024] in 512 × 512 tiles -/

/-- The printed index maps over the grid: the row block moves with the tile's row index and never along its columns, the
    column block moves with the tile's column index and never along its rows, and the tile indices stay in their ranges. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = win2_2.index t (1 : Fin 2)
    ∧ win2_2.index t (0 : Fin 2) ≤ 7 ∧ win2_2.index t (1 : Fin 2) ≤ 1 :=
  (by decide +kernel : ∀ t : Fin grid2.N, _)

/-- Every tile is some grid point's. -/
theorem idx_onto2 : ∀ (q0 : Fin 8) (q1 : Fin 2), ∃ t : Fin cfg2.N, win2_2.index t = ![q0.val, q1.val] :=
  (by decide +kernel : ∀ (q0 : Fin 8) (q1 : Fin 2), ∃ t : Fin grid2.N, win2_2.index t = ![q0.val, q1.val])

/-- The whole product, entry by entry. -/
def prod2 (A : S4096x1024.Idx → EReal) (B : S1024x1024.Idx → EReal) : S4096x1024.Idx → EReal :=
  fun i => ∑ k : Fin 1024, A (ix2 (i 0) k) * B (ix2 k (i 1))

/-- The product at an entry given by its coordinates. -/
theorem prod2_ix2 (A : S4096x1024.Idx → EReal) (B : S1024x1024.Idx → EReal) (r : Fin 4096) (s : Fin 1024) :
    prod2 A B (ix2 r s) = ∑ k : Fin 1024, A (ix2 r k) * B (ix2 k s) := rfl

section
variable (V : (c : Dev nD) → (b : Ref sig .tc) → Buf (Elt Ideal) ((c : Thread nD τ).loc b))

/-- Row `p` of the row block at point `t` is row `r` of the left array when `r` is `p` past the block's first row. -/
theorem rowblk2 (c : Dev nD) (t : Fin cfg2.N) (p : Fin 512) (k : Fin 1024) (r : Fin 4096)
    (hr : r.val = win2_0.index t (0 : Fin 2) * 512 + p.val) (h1 : win2_0.index t (1 : Fin 2) = 0) :
    (iblk2 V c 0 t : S512x1024.Idx → EReal) (ix2 p k) = (V c main_v11 : S4096x1024.Idx → EReal) (ix2 r k) := by
  unfold iblk2
  rw [View.read_apply]
  show (V c main_v11 : S4096x1024.Idx → EReal) _ = _
  congr 1
  funext a
  apply Fin.ext
  match a with
  | ⟨0, _⟩ => show win2_0.index t (0 : Fin 2) * 512 + 1 * p.val = r.val; omega
  | ⟨1, _⟩ => show win2_0.index t (1 : Fin 2) * 1024 + 1 * k.val = k.val; omega

/-- Column `q` of the column block at point `t` is column `s` of the right array when `s` is `q` past the block's first column. -/
theorem colblk2 (c : Dev nD) (t : Fin cfg2.N) (k : Fin 1024) (q : Fin 512) (s : Fin 1024)
    (hs : s.val = win2_1.index t (1 : Fin 2) * 512 + q.val) (h0 : win2_1.index t (0 : Fin 2) = 0) :
    (iblk2 V c 1 t : S1024x512.Idx → EReal) (ix2 k q) = (V c main_v13 : S1024x1024.Idx → EReal) (ix2 k s) := by
  unfold iblk2
  rw [View.read_apply]
  show (V c main_v13 : S1024x1024.Idx → EReal) _ = _
  congr 1
  funext a
  apply Fin.ext
  match a with
  | ⟨0, _⟩ => show win2_1.index t (0 : Fin 2) * 1024 + 1 * k.val = k.val; omega
  | ⟨1, _⟩ => show win2_1.index t (1 : Fin 2) * 512 + 1 * q.val = s.val; omega

/-- What point `t` writes back is its tile of the whole product. -/
theorem flushed2_eq (c : Dev nD) (t : Fin cfg2.N) :
    (dat2 (F := Ideal) V c).flushed 2 t = ((cfg2.win 2).blk t).view.read (Elt Ideal) (prod2 (V c main_v11) (V c main_v13)) := by
  show (cfg2.win 2).cut (grid2.coords t) ((dat2 V c).after 2 t) = _
  rw [after2_2]
  unfold out2_2
  rw [View.canon_unit_zero hz]
  simp only [View.ld_unit_zero (S := S512x1024) hz, View.ld_unit_zero (S := S1024x512) hz]
  rw [PayloadValue.pay2_eq]
  obtain ⟨e0, e1, e2, e3, e4, e5⟩ := idx_facts2 t
  funext j
  obtain ⟨p, q, rfl⟩ : ∃ (p q : Fin 512), j = ix2 p q := ⟨j 0, j 1, eq_ix2 j⟩
  rw [View.read_apply]
  show Cert.Mha.tileDot _ _ (ix2 p q) = prod2 _ _ (((cfg2.win 2).blk t).view.emb (ix2 p q))
  rw [Cert.Mha.tileDot_ix2]
  unfold prod2
  refine Finset.sum_congr rfl fun k _ => ?_
  rw [rowblk2 V c t p k ((((cfg2.win 2).blk t).view.emb (ix2 p q)) 0)
      (by show win2_2.index t (0 : Fin 2) * 512 + 1 * p.val = _; omega) e1,
    colblk2 V c t k q ((((cfg2.win 2).blk t).view.emb (ix2 p q)) 1)
      (by show win2_2.index t (1 : Fin 2) * 512 + 1 * q.val = _; omega) e2]

/-- An index of the output is in point `t`'s tile iff each coordinate is in the tile's range on its axis. -/
theorem mem_blk2 (t : Fin cfg2.N) (i : S4096x1024.Idx) :
    i ∈ ((cfg2.win 2).blk t).view.set ↔ ∀ a : Fin 2, win2_2.index t a * S512x512.size a ≤ (i a).val ∧ (i a).val < win2_2.index t a * S512x512.size a + S512x512.size a := by
  show i ∈ ((View.whole main_v14).slice (win2_2.rect t)).set ↔ _
  rw [View.set_slice_whole, Rect.mem_set_unit]
  exact Iff.rfl

/-- Every entry of the output is in some point's tile: the tile at (row / 512, column / 512). -/
theorem cover2 (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ := idx_onto2 ⟨(i 0).val / 512, by omega⟩ ⟨(i 1).val / 512, by omega⟩
  have q0 : win2_2.index t (0 : Fin 2) = (i 0).val / 512 := congrFun ht 0
  have q1 : win2_2.index t (1 : Fin 2) = (i 1).val / 512 := congrFun ht 1
  refine ⟨t, flush2_2 t, ?_⟩
  rw [mem_blk2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 512 ≤ (i 1).val ∧ (i 1).val < win2_2.index t (1 : Fin 2) * 512 + 512; omega

/-- The output array after the region: the whole matrix product of the two input arrays as the region finds them. -/
theorem final2 (c : Dev nD) : (dat2 (F := Ideal) V c).arrAt 2 cfg2.N
    = prod2 (V c main_v11) (V c main_v13) :=
  (dat2 (F := Ideal) V c).arrAt_eq_of_cover 2 (prod2 (V c main_v11) (V c main_v13)) (fun t _ => flushed2_eq V c t) cover2

end

end Cert.KernelIdeal.KValue

end
-- ==== Proof.LibDenseNT.lean ====
/-
  A matrix product against a transposed right operand, on the extended reals, index by index.

  `[M, K] × [N, K] → [M, N]`, both operands contracted along their second axis (the `q · kᵀ` of attention scores, written
  without materialising the transpose): entry `(p, q)` is `∑ k, x(p, k) · w(q, k)`.  Stated for the matrix unit's product into
  a zero accumulator, at any contraction precision, and for the host's general dot product.  No finiteness is needed: only
  the definitions of the operations and a re-indexing of the sum.
-/
import Idealize.ShloMosaic.PureOps.Ideal
import Idealize.ShloMosaic.PureOps.Ideal.Laws
import Idealize.ShloMosaic.Lib.ValueIdx

noncomputable section

namespace Cert.Lib.DenseNT

open Idealize.ShloMosaic Idealize.ShloMosaic.ValueIdx
open scoped BigOperators

/-- Row `p` of `x` against row `q` of `w`. -/
def rowRowDot {M K N : ℕ} (x : (⟨2, ![M, K]⟩ : Shape).Idx → EReal) (w : (⟨2, ![N, K]⟩ : Shape).Idx → EReal)
    (p : Fin M) (q : Fin N) : EReal :=
  ∑ k : Fin K, x (ix2 p k) * w (ix2 q k)

variable {M K N : ℕ} (D : DotDims ⟨2, ![M, K]⟩ ⟨2, ![N, K]⟩ ⟨2, ![M, N]⟩)
  (hlc : D.lhsContracting = [1]) (hrc : D.rhsContracting = [1])
  (hln : D.lhsNonContracting = [0]) (hrn : D.rhsNonContracting = [0])
  (hlb : D.lhsBatch = []) (hrb : D.rhsBatch = [])

include hlc in
theorem nt_rank : D.contr.rank = 1 := by rw [D.rank_contr, hlc]; rfl

include hlc in
theorem nt_size : D.contr.size ⟨0, by rw [nt_rank D hlc]; exact Nat.one_pos⟩ = K := by
  have := D.size_contr 0 (by rw [hlc]; exact Nat.one_pos)
  rw [this]
  simp [hlc]

include hln hlb in
/-- The left operand's free coordinate is the result's row. -/
theorem nt_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate, its first, is the result's column. -/
theorem nt_rhs0 (j : (⟨2, ![M, N]⟩ : Shape).Idx) (k : D.contr.Idx) : (D.rhsIdx j k 0).val = (j 1).val := by
  have hb : (0 : Fin 2) ∉ D.rhsBatch := by rw [hrb]; simp
  have hn : (0 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction at entry `(p, q)` is row `p` of `x` against row `q` of `w`. -/
theorem nt_sum (f : (⟨2, ![M, K]⟩ : Shape).Idx → EReal) (g : (⟨2, ![N, K]⟩ : Shape).Idx → EReal) (p : Fin M) (q : Fin N) :
    ∑ k : D.contr.Idx, f (D.lhsIdx (ix2 p q) k) * g (D.rhsIdx (ix2 p q) k) = rowRowDot f g p q := by
  unfold rowRowDot
  rw [← Equiv.sum_comp (contrEquiv1 D K (nt_rank D hlc) (nt_size D hlc)).symm]
  refine Finset.sum_congr rfl fun k _ => ?_
  have hk := contrEquiv1_symm_val D K (nt_rank D hlc) (nt_size D hlc) k
  have el : D.lhsIdx (ix2 p q) ((contrEquiv1 D K (nt_rank D hlc) (nt_size D hlc)).symm k) = ix2 p k := by
    funext a; apply Fin.ext
    match a with
    | ⟨0, _⟩ => exact nt_lhs0 D hln hlb (ix2 p q) _
    | ⟨1, _⟩ => exact (D.lhsIdx_val_of_single hlc (ix2 p q) _).trans hk
  have er : D.rhsIdx (ix2 p q) ((contrEquiv1 D K (nt_rank D hlc) (nt_size D hlc)).symm k) = ix2 q k := by
    funext a; apply Fin.ext
    match a with
    | ⟨0, _⟩ => exact nt_rhs0 D hln hrn hlb hrb (ix2 p q) _
    | ⟨1, _⟩ => exact (D.rhsIdx_val_of_single hrc (ix2 p q) _).trans hk
  rw [el, er]

include hlc hrc hln hrn hlb hrb in
/-- The matrix unit's product into a zero accumulator, at entry `(p, q)`, whatever the contraction precision. -/
theorem matmul_zero_at {φ₁ φ₂ : FTy} (prec : Option ContractPrecision) (x : FVec Ideal ⟨2, ![M, K]⟩ φ₁) (w : FVec Ideal ⟨2, ![N, K]⟩ φ₂)
    (p : Fin M) (q : Fin N) :
    matmul D prec x w (constant ⟨2, ![M, N]⟩ .f32 0x00000000#32) (ix2 p q) = rowRowDot x w p q :=
  (Ideal.matmul_constant_zero_apply D prec x w (ix2 p q)).trans (nt_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![N, K]⟩ φ₂) (p : Fin M) (q : Fin N) :
    Host.dotGeneral D none x w (ix2 p q) = rowRowDot x w p q :=
  (Ideal.dotGeneral_apply D none .single x w (ix2 p q)).trans (nt_sum D hlc hrc hln hrn hlb hrb x w p q)

end Cert.Lib.DenseNT

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.PayloadAttnHead.lean ====
/-
  One head of attention on a block, at the extended reals, entry by entry.

  From a [512, 64] slice q of the queries, a [2048, 64] slice k of the keys and the [512, 2048] mask block m the
  kernel forms, with every float operation exact,
    e(r, t) = exp((∑ d, q(r, d) · k(t, d)) · (1/8) + m(r, t)),
    w(r, t) = e(r, t) / ((∑ t', e(r, t')) + ε),
  and multiplies w by a [2048, 64] slice of the values: o(r, d) = ∑ t, w(r, t) · v(t, d).
  This file reads each of these arrays at an index; the normalisation is stated for any array e, so that the
  row sum, its kept unit axis and its broadcast are read once, on a variable.
-/
import proofs.«175731_j51161650430216_2_alg».proof.Proof.Gen.KernelIdeal.Skeleton
import proofs.«175731_j51161650430216_2_alg».proof.Proof.BlockSpec
import proofs.«175731_j51161650430216_2_alg».proof.Proof.LibDense
import proofs.«175731_j51161650430216_2_alg».proof.Proof.LibDenseNT
import proofs.«175731_j51161650430216_2_alg».proof.Proof.LibKeepdims

noncomputable section

namespace Cert.KernelIdeal.PayloadValue

open Idealize.ShloMosaic Idealize.ShloMosaic.ValueIdx Cert.KernelIdeal Cert.KernelIdeal.Facts₀
open scoped BigOperators

/-- The exponentials of the scaled, masked scores of one head, as the kernel forms them. -/
def expScores (q : FVec Ideal S512x64 .bf16) (k : FVec Ideal S2048x64 .bf16) (m : FVec Ideal S512x2048 .f32) :
    FVec Ideal S512x2048 .f32 :=
  exp (addf (mulf (matmul dot_S512x64_S2048x64_S512x2048_1_1_0_0_n_n none q k (constant S512x2048 .f32 0x00000000#32))
    (broadcast S512x2048 (Scalar.ofBits .f32 0x3E000000#32))) m)

/-- An array divided, row by row, by its row sum plus ε, as the kernel forms it: the row sum along axis 1, its kept
    unit axis, ε added, the column broadcast back along the row, the quotient, then a change of float format. -/
def rowNormalize (e : FVec Ideal S512x2048 .f32) : FVec Ideal S512x2048 .bf16 :=
  truncf .bf16 (divf e (broadcastTo S512x2048
    (addf (shapeCast S512x1 (multiReduction .add [1] S512 e 0x00000000#32 reduces_S512x2048_S512 (.inl rfl) rfl) shapeCasts_S512_S512x1)
      (broadcast S512x1 (Scalar.ofBits .f32 0x2EDBE6FF#32))) broadcasts_S512x1_S512x2048)) bitsLt_bf16_f32

/-- The score of query row r against key row t, from the slices. -/
def sliceScore (q : FVec Ideal S512x64 .bf16) (k : FVec Ideal S2048x64 .bf16) (m : FVec Ideal S512x2048 .f32)
    (r : Fin 512) (t : Fin 2048) : EReal :=
  (∑ d : Fin 64, q (ix2 r d) * k (ix2 t d)) * Cert.Mha.scale + m (ix2 r t)

theorem expScores_at (q : FVec Ideal S512x64 .bf16) (k : FVec Ideal S2048x64 .bf16) (m : FVec Ideal S512x2048 .f32)
    (r : Fin 512) (t : Fin 2048) : expScores q k m (ix2 r t) = Ideal.exp (sliceScore q k m r t) := by
  unfold expScores sliceScore
  show Ideal.exp (_ * _ + _) = _
  refine congrArg Ideal.exp (congrArg₂ (· + ·) (congrArg₂ (· * ·) ?_ rfl) rfl)
  exact Cert.Lib.DenseNT.matmul_zero_at (M := 512) (K := 64) (N := 2048) dot_S512x64_S2048x64_S512x2048_1_1_0_0_n_n
    rfl rfl rfl rfl rfl rfl none q k r t

theorem rowNormalize_at (e : FVec Ideal S512x2048 .f32) (r : Fin 512) (t : Fin 2048) :
    rowNormalize e (ix2 r t) = Ideal.div (e (ix2 r t)) ((∑ t' : Fin 2048, e (ix2 r t')) + Cert.Mha.eps) := by
  unfold rowNormalize
  rw [truncf_apply, divf_apply]
  refine congrArg (Ideal.div (e (ix2 r t))) ?_
  refine (Cert.Lib.Keepdims.broadcastTo_a1_ab_apply (a := 512) (b := 2048) _ broadcasts_S512x1_S512x2048 r t).trans ?_
  rw [addf_apply]
  refine congrArg₂ (· + ·) ?_ rfl
  refine (Cert.Lib.Keepdims.shapeCast_a_a1_apply (a := 512) _ shapeCasts_S512_S512x1 r (0 : Fin 1)).trans ?_
  exact Cert.Lib.Keepdims.rowSum_apply (a := 512) (b := 2048) e 0x00000000#32 reduces_S512x2048_S512 (.inl rfl) rfl r

/-- The matrix unit's product of the weights by a slice of the values into zero, at entry (r, d). -/
theorem context_at (w : FVec Ideal S512x2048 .bf16) (v : FVec Ideal S2048x64 .bf16) (r : Fin 512) (d : Fin 64) :
    matmul dot_S512x2048_S2048x64_S512x64_1_0_0_1_n_n none w v (constant (F := Ideal) S512x64 .f32 0x00000000#32) (ix2 r d)
      = ∑ t : Fin 2048, w (ix2 r t) * v (ix2 t d) :=
  Cert.Lib.Dense.matmul_zero_at (M := 512) (K := 2048) (N := 64) dot_S512x2048_S2048x64_S512x64_1_0_0_1_n_n
    rfl rfl rfl rfl rfl rfl w v r d

/-- The low 64 lanes of a two-head block: lane d of the slice is lane d of head 0. -/
theorem slice_lo_at {A : ℕ} (x : (⟨2, ![A, 128]⟩ : Shape).Idx → EReal)
    (h : (⟨2, ![A, 128]⟩ : Shape).Slices ![0, 0] ⟨2, ![A, 64]⟩) (r : Fin A) (d : Fin 64) :
    extractStridedSlice ⟨2, ![A, 64]⟩ ![0, 0] x h (ix2 r d) = x (ix2 r (Cert.Mha.lane2 0 d)) :=
  extractStridedSlice_apply ![0, 0] x h (ix2 r d) (ix2 r (Cert.Mha.lane2 0 d)) (fun a => by
    match a with
    | ⟨0, _⟩ => exact (Nat.zero_add _).symm
    | ⟨1, _⟩ => show 0 * 64 + d.val = 0 + d.val; omega)

/-- The high 64 lanes of a two-head block: lane d of the slice is lane d of head 1. -/
theorem slice_hi_at {A : ℕ} (x : (⟨2, ![A, 128]⟩ : Shape).Idx → EReal)
    (h : (⟨2, ![A, 128]⟩ : Shape).Slices ![0, 64] ⟨2, ![A, 64]⟩) (r : Fin A) (d : Fin 64) :
    extractStridedSlice ⟨2, ![A, 64]⟩ ![0, 64] x h (ix2 r d) = x (ix2 r (Cert.Mha.lane2 1 d)) :=
  extractStridedSlice_apply ![0, 64] x h (ix2 r d) (ix2 r (Cert.Mha.lane2 1 d)) (fun a => by
    match a with
    | ⟨0, _⟩ => exact (Nat.zero_add _).symm
    | ⟨1, _⟩ => show 1 * 64 + d.val = 64 + d.val; omega)

/-- One head of the kernel against the block specification: when the slices q, k, v read head g's lanes of the blocks
    Q, K, V and m reads the mask block M, the product of the normalised weights by v is, at (r, d), the sum over
    the keys of head g's attention weight times the value at lane g·64 + d. -/
theorem head_at (Q : (⟨2, ![512, 128]⟩ : Shape).Idx → EReal) (K V : (⟨2, ![2048, 128]⟩ : Shape).Idx → EReal)
    (M : (⟨2, ![512, 2048]⟩ : Shape).Idx → EReal) (g : Fin 2)
    (q : FVec Ideal S512x64 .bf16) (k v : FVec Ideal S2048x64 .bf16) (m : FVec Ideal S512x2048 .f32)
    (hq : ∀ r d, q (ix2 r d) = Q (ix2 r (Cert.Mha.lane2 g d)))
    (hk : ∀ t d, k (ix2 t d) = K (ix2 t (Cert.Mha.lane2 g d)))
    (hv : ∀ t d, v (ix2 t d) = V (ix2 t (Cert.Mha.lane2 g d)))
    (hm : ∀ r t, m (ix2 r t) = M (ix2 r t)) (r : Fin 512) (d : Fin 64) :
    (∑ t : Fin 2048, rowNormalize (expScores q k m) (ix2 r t) * v (ix2 t d))
      = ∑ t : Fin 2048, Cert.Mha.blkWeight Q K M g r t * V (ix2 t (Cert.Mha.lane2 g d)) := by
  have hs : ∀ t, sliceScore q k m r t = Cert.Mha.blkScore Q K M g r t := fun t => by
    unfold sliceScore Cert.Mha.blkScore
    rw [hm]
    refine congrArg (· * Cert.Mha.scale + M (ix2 r t)) (Finset.sum_congr rfl fun d _ => ?_)
    rw [hq, hk]
  refine Finset.sum_congr rfl fun t _ => ?_
  rw [hv, rowNormalize_at]
  unfold Cert.Mha.blkWeight Cert.Mha.blkNorm
  simp only [expScores_at, hs]

end Cert.KernelIdeal.PayloadValue

end
-- ==== Proof.PayloadValue.lean ====
/-
  The attention kernel at the extended reals, as one function of the blocks it is handed.

  The kernel treats the two heads of a [512, 128] query block separately: lanes 0–63 (head 0) and lanes 64–127
  (head 1) of the queries, keys and values are cut out, each head's normalised weights are multiplied by its slice
  of the values, and the two [512, 64] results are joined along the lanes.  At (r, c), with g = c / 64 the head, the
  result is the sum over the keys t of head g's attention weight of row r on t times V(t, c).
-/
import proofs.«175731_j51161650430216_2_alg».proof.Proof.PayloadMatmul
import proofs.«175731_j51161650430216_2_alg».proof.Proof.PayloadAttnHead

noncomputable section

namespace Cert.KernelIdeal.PayloadValue

open Idealize.ShloMosaic Idealize.ShloMosaic.ValueIdx Cert.KernelIdeal Cert.KernelIdeal.Facts₀
open scoped BigOperators

/-- The joined result at a lane of head 0 is the first piece at that lane. -/
theorem join_lo_at (a : FVec Ideal S512x64 .f32) (v : FVec Ideal S2048x64 .bf16) (w : FVec Ideal S512x2048 .bf16)
    (r : Fin 512) (d : Fin 64) :
    Cert.KernelIdeal.Gen.k1_pay1 (F := Ideal) a v w (ix2 r (Cert.Mha.lane2 0 d)) = a (ix2 r d) := by
  unfold Cert.KernelIdeal.Gen.k1_pay1
  rw [truncf_apply]
  exact concatenate_pair_apply_left (t := S512x128) (s₁ := S512x64) (s₂ := S512x64) (1 : Fin 2) _ _
    concatenates_S512x64_S512x64_S512x128_d1 (ix2 r (Cert.Mha.lane2 0 d)) rfl (ix2 r d) (fun b => by
      match b with
      | ⟨0, _⟩ => rfl
      | ⟨1, _⟩ => show d.val = 0 * 64 + d.val; omega)

/-- The joined result at a lane of head 1 is the second piece, the product of the weights by the value slice. -/
theorem join_hi_at (a : FVec Ideal S512x64 .f32) (v : FVec Ideal S2048x64 .bf16) (w : FVec Ideal S512x2048 .bf16)
    (r : Fin 512) (d : Fin 64) :
    Cert.KernelIdeal.Gen.k1_pay1 (F := Ideal) a v w (ix2 r (Cert.Mha.lane2 1 d))
      = ∑ t : Fin 2048, w (ix2 r t) * v (ix2 t d) := by
  unfold Cert.KernelIdeal.Gen.k1_pay1
  rw [truncf_apply]
  refine (concatenate_pair_apply_right (t := S512x128) (s₁ := S512x64) (s₂ := S512x64) (1 : Fin 2) _ _
    concatenates_S512x64_S512x64_S512x128_d1 (ix2 r (Cert.Mha.lane2 1 d)) rfl rfl (ix2 r d) (fun b hb => by
      match b, hb with
      | ⟨0, _⟩, _ => rfl
      | ⟨1, _⟩, hb => exact absurd rfl hb) (by show d.val + 64 = 1 * 64 + d.val; omega)).trans ?_
  exact context_at w v r d

/-- The mask block as the kernel widens it. -/
theorem mask_at (v6 : Vec Ideal S512x2048 .bf16) (r : Fin 512) (t : Fin 2048) :
    Cert.KernelIdeal.Gen.k1_pay5 (F := Ideal) v6 (ix2 r t) = v6 (ix2 r t) := by
  unfold Cert.KernelIdeal.Gen.k1_pay5
  rw [extf_apply, shapeCast_self]

/-- Head 0's context, in the kernel's own terms. -/
theorem ctx0_eq (v0 : Vec Ideal S512x128 .bf16) (v2 v4 : Vec Ideal S2048x128 .bf16) (v6 : Vec Ideal S512x2048 .bf16) :
    Cert.KernelIdeal.Gen.k1_pay6 (F := Ideal) v0 v2 v4 v6
      = matmul dot_S512x2048_S2048x64_S512x64_1_0_0_1_n_n none
          (rowNormalize (expScores (extractStridedSlice S512x64 ![0, 0] (Cert.KernelIdeal.Gen.k1_pay2 v0) slices_S512x128_o0_0_S512x64)
            (extractStridedSlice S2048x64 ![0, 0] (Cert.KernelIdeal.Gen.k1_pay3 v2) slices_S2048x128_o0_0_S2048x64)
            (Cert.KernelIdeal.Gen.k1_pay5 v6)))
          (extractStridedSlice S2048x64 ![0, 0] (Cert.KernelIdeal.Gen.k1_pay4 v4) slices_S2048x128_o0_0_S2048x64)
          (constant (F := Ideal) S512x64 .f32 0x00000000#32) := rfl

/-- Head 1's weights, in the kernel's own terms. -/
theorem wts1_eq (v0 : Vec Ideal S512x128 .bf16) (v2 : Vec Ideal S2048x128 .bf16) (v6 : Vec Ideal S512x2048 .bf16) :
    Cert.KernelIdeal.Gen.k1_pay8 (F := Ideal) v0 v2 v6
      = rowNormalize (expScores (extractStridedSlice S512x64 ![0, 64] (Cert.KernelIdeal.Gen.k1_pay2 v0) slices_S512x128_o0_64_S512x64)
            (extractStridedSlice S2048x64 ![0, 64] (Cert.KernelIdeal.Gen.k1_pay3 v2) slices_S2048x128_o0_64_S2048x64)
            (Cert.KernelIdeal.Gen.k1_pay5 v6)) := rfl

theorem q_eq (v0 : Vec Ideal S512x128 .bf16) : Cert.KernelIdeal.Gen.k1_pay2 (F := Ideal) v0 = v0 := shapeCast_self _ _
theorem k_eq (v2 : Vec Ideal S2048x128 .bf16) : Cert.KernelIdeal.Gen.k1_pay3 (F := Ideal) v2 = v2 := shapeCast_self _ _
theorem v_eq (v4 : Vec Ideal S2048x128 .bf16) : Cert.KernelIdeal.Gen.k1_pay4 (F := Ideal) v4 = v4 := shapeCast_self _ _

/-- Every lane of a two-head block is lane d of head 0 or of head 1. -/
theorem lane_cases (c : Fin 128) : ∃ (g : Fin 2) (d : Fin 64), c = Cert.Mha.lane2 g d := by
  by_cases hc : c.val < 64
  · exact ⟨0, ⟨c.val, hc⟩, Fin.ext (by show c.val = 0 * 64 + c.val; omega)⟩
  · exact ⟨1, ⟨c.val - 64, by have := c.isLt; omega⟩, Fin.ext (by show c.val = 1 * 64 + (c.val - 64); omega)⟩

theorem half_lane2 (g : Fin 2) (d : Fin 64) : Cert.Mha.half (Cert.Mha.lane2 g d) = g :=
  Fin.ext (by show (g.val * 64 + d.val) / 64 = g.val; have := d.isLt; omega)

/-- The attention kernel computes the block specification. -/
theorem pay1_eq (v0 : Vec Ideal S512x128 .bf16) (v2 v4 : Vec Ideal S2048x128 .bf16) (v6 : Vec Ideal S512x2048 .bf16) :
    Cert.KernelIdeal.Gen.k1_pay1 (F := Ideal) (Cert.KernelIdeal.Gen.k1_pay6 v0 v2 v4 v6) (Cert.KernelIdeal.Gen.k1_pay7 v4)
      (Cert.KernelIdeal.Gen.k1_pay8 v0 v2 v6) = Cert.Mha.blkOut v0 v2 v4 v6 := by
  funext i
  obtain ⟨r, c, rfl⟩ : ∃ (r : Fin 512) (c : Fin 128), i = ix2 r c := ⟨i 0, i 1, eq_ix2 i⟩
  obtain ⟨g, d, rfl⟩ := lane_cases c
  rw [Cert.Mha.blkOut_ix2, half_lane2]
  match g with
  | ⟨0, _⟩ =>
    refine (join_lo_at _ _ _ r d).trans ?_
    rw [ctx0_eq, context_at, q_eq, k_eq, v_eq]
    exact head_at v0 v2 v4 v6 0 _ _ _ _ (fun r d => slice_lo_at (A := 512) v0 _ r d) (fun t d => slice_lo_at (A := 2048) v2 _ t d)
      (fun t d => slice_lo_at (A := 2048) v4 _ t d) (fun r t => mask_at v6 r t) r d
  | ⟨1, _⟩ =>
    refine (join_hi_at _ _ _ r d).trans ?_
    rw [wts1_eq, q_eq, k_eq]
    unfold Cert.KernelIdeal.Gen.k1_pay7
    rw [v_eq]
    exact head_at v0 v2 v4 v6 1 _ _ _ _ (fun r d => slice_hi_at (A := 512) v0 _ r d) (fun t d => slice_hi_at (A := 2048) v2 _ t d)
      (fun t d => slice_hi_at (A := 2048) v4 _ t d) (fun r t => mask_at v6 r t) r d

end Cert.KernelIdeal.PayloadValue

end
-- ==== Proof.LayerMath.lean ====
/-
  From the three kernels' blocks to the whole layer: the arrays the kernel program passes between its kernels, each as a
  function of its index, and the equations joining them to the layer's entries.

  * X2 : [4096, 1024] is the input with batch and position merged: row R = b·2048 + s is x(b, s, ·).
  * Wcat : [1024, 3072] holds the three projection matrices transposed, side by side: column C is row C % 1024 of the
    matrix number C / 1024 (query, key, value).
  * QKV = X2 · Wcat : [4096, 3072]; its columns e, 1024 + e, 2048 + e at row b·2048 + s are the three projections at
    (b, s, e).
  * CTX : [4096, 1024] is the context with batch and position merged; Z = CTX · Woᵀ is the output, rows merged the same way.
  A 512 × 512 tile of a product is the product of a row block and a column block.  Only re-indexing of finite sums is used.
-/
import proofs.«175731_j51161650430216_2_alg».proof.Proof.BlockSpec

noncomputable section

namespace Cert.Mha

open Idealize.ShloMosaic Idealize.ShloMosaic.ValueIdx
open scoped BigOperators

/-- The input with its two leading axes merged: row b·2048 + s is x(b, s, ·). -/
def X2 (x : Inp) : (⟨2, ![4096, 1024]⟩ : Shape).Idx → EReal :=
  fun i => x (ix3 (⟨(i 0).val / 2048, by have := idx2_lt0 i; omega⟩ : Fin 2)
    (⟨(i 0).val % 2048, Nat.mod_lt _ (by decide)⟩ : Fin 2048) (i 1))

theorem X2_ix2 (x : Inp) (R : Fin 4096) (k : Fin 1024) :
    X2 x (ix2 R k) = x (ix3 (⟨R.val / 2048, by have := R.isLt; omega⟩ : Fin 2)
      (⟨R.val % 2048, Nat.mod_lt _ (by decide)⟩ : Fin 2048) k) := rfl

/-- Row b·2048 + s of the merged input. -/
theorem X2_row (x : Inp) (R : Fin 4096) (b : Fin 2) (s : Fin 2048) (hR : R.val = b.val * 2048 + s.val) (k : Fin 1024) :
    X2 x (ix2 R k) = x (ix3 b s k) := by
  rw [X2_ix2]
  have hb : (⟨R.val / 2048, by have := R.isLt; omega⟩ : Fin 2) = b := Fin.ext (by
    show R.val / 2048 = b.val
    have := s.isLt; omega)
  have hs : (⟨R.val % 2048, Nat.mod_lt _ (by decide)⟩ : Fin 2048) = s := Fin.ext (by
    show R.val % 2048 = s.val
    have := s.isLt; omega)
  rw [hb, hs]

/-- The three projection matrices, numbered. -/
def Wsel (Wq Wk Wv : Wt) : Fin 3 → Wt := ![Wq, Wk, Wv]

/-- The three projection matrices transposed and joined along the columns. -/
def Wcat (Wq Wk Wv : Wt) : (⟨2, ![1024, 3072]⟩ : Shape).Idx → EReal :=
  fun i => Wsel Wq Wk Wv (⟨(i 1).val / 1024, by have := idx2_lt1 i; omega⟩ : Fin 3)
    (ix2 (⟨(i 1).val % 1024, Nat.mod_lt _ (by decide)⟩ : Fin 1024) (i 0))

theorem Wcat_ix2 (Wq Wk Wv : Wt) (k : Fin 1024) (C : Fin 3072) :
    Wcat Wq Wk Wv (ix2 k C) = Wsel Wq Wk Wv (⟨C.val / 1024, by have := C.isLt; omega⟩ : Fin 3)
      (ix2 (⟨C.val % 1024, Nat.mod_lt _ (by decide)⟩ : Fin 1024) k) := rfl

/-- Column n·1024 + e of the joined matrix is row e of matrix n. -/
theorem Wcat_col (Wq Wk Wv : Wt) (k : Fin 1024) (C : Fin 3072) (n : Fin 3) (e : Fin 1024)
    (hC : C.val = n.val * 1024 + e.val) : Wcat Wq Wk Wv (ix2 k C) = Wsel Wq Wk Wv n (ix2 e k) := by
  rw [Wcat_ix2]
  have hn : (⟨C.val / 1024, by have := C.isLt; omega⟩ : Fin 3) = n := Fin.ext (by
    show C.val / 1024 = n.val
    have := e.isLt; omega)
  have he : (⟨C.val % 1024, Nat.mod_lt _ (by decide)⟩ : Fin 1024) = e := Fin.ext (by
    show C.val % 1024 = e.val
    have := e.isLt; omega)
  rw [hn, he]

/-- The first kernel's result: the merged input times the joined matrix. -/
def QKV (x : Inp) (Wq Wk Wv : Wt) : (⟨2, ![4096, 3072]⟩ : Shape).Idx → EReal :=
  fun i => ∑ k : Fin 1024, X2 x (ix2 (i 0) k) * Wcat Wq Wk Wv (ix2 k (i 1))

theorem QKV_ix2 (x : Inp) (Wq Wk Wv : Wt) (R : Fin 4096) (C : Fin 3072) :
    QKV x Wq Wk Wv (ix2 R C) = ∑ k : Fin 1024, X2 x (ix2 R k) * Wcat Wq Wk Wv (ix2 k C) := rfl

/-- Row b·2048 + s, column n·1024 + e of the product is projection number n at (b, s, e). -/
theorem QKV_sel (x : Inp) (Wq Wk Wv : Wt) (R : Fin 4096) (C : Fin 3072) (b : Fin 2) (s : Fin 2048) (n : Fin 3)
    (e : Fin 1024) (hR : R.val = b.val * 2048 + s.val) (hC : C.val = n.val * 1024 + e.val) :
    QKV x Wq Wk Wv (ix2 R C) = proj x (Wsel Wq Wk Wv n) b s e := by
  rw [QKV_ix2]
  unfold proj
  exact Finset.sum_congr rfl fun k _ => by rw [X2_row x R b s hR k, Wcat_col Wq Wk Wv k C n e hC]

section
variable (x : Inp) (Wq Wk Wv : Wt)

theorem QKV_q' (R : Fin 4096) (C : Fin 3072) (b : Fin 2) (s : Fin 2048) (e : Fin 1024)
    (hR : R.val = b.val * 2048 + s.val) (hC : C.val = e.val) : QKV x Wq Wk Wv (ix2 R C) = proj x Wq b s e :=
  QKV_sel x Wq Wk Wv R C b s 0 e hR (by show C.val = 0 * 1024 + e.val; omega)

theorem QKV_k' (R : Fin 4096) (C : Fin 3072) (b : Fin 2) (s : Fin 2048) (e : Fin 1024)
    (hR : R.val = b.val * 2048 + s.val) (hC : C.val = 1024 + e.val) : QKV x Wq Wk Wv (ix2 R C) = proj x Wk b s e :=
  QKV_sel x Wq Wk Wv R C b s 1 e hR (by show C.val = 1 * 1024 + e.val; omega)

theorem QKV_v' (R : Fin 4096) (C : Fin 3072) (b : Fin 2) (s : Fin 2048) (e : Fin 1024)
    (hR : R.val = b.val * 2048 + s.val) (hC : C.val = 2048 + e.val) : QKV x Wq Wk Wv (ix2 R C) = proj x Wv b s e :=
  QKV_sel x Wq Wk Wv R C b s 2 e hR (by show C.val = 2 * 1024 + e.val; omega)

/-- The three column bands of the product are the three projections. -/
theorem QKV_q (b : Fin 2) (s : Fin 2048) (e : Fin 1024) :
    QKV x Wq Wk Wv (ix2 (⟨b.val * 2048 + s.val, by have := b.isLt; have := s.isLt; omega⟩ : Fin 4096)
      (⟨e.val, by have := e.isLt; omega⟩ : Fin 3072)) = proj x Wq b s e :=
  QKV_q' x Wq Wk Wv _ _ b s e rfl rfl

theorem QKV_k (b : Fin 2) (s : Fin 2048) (e : Fin 1024) :
    QKV x Wq Wk Wv (ix2 (⟨b.val * 2048 + s.val, by have := b.isLt; have := s.isLt; omega⟩ : Fin 4096)
      (⟨1024 + e.val, by have := e.isLt; omega⟩ : Fin 3072)) = proj x Wk b s e :=
  QKV_k' x Wq Wk Wv _ _ b s e rfl rfl

theorem QKV_v (b : Fin 2) (s : Fin 2048) (e : Fin 1024) :
    QKV x Wq Wk Wv (ix2 (⟨b.val * 2048 + s.val, by have := b.isLt; have := s.isLt; omega⟩ : Fin 4096)
      (⟨2048 + e.val, by have := e.isLt; omega⟩ : Fin 3072)) = proj x Wv b s e :=
  QKV_v' x Wq Wk Wv _ _ b s e rfl rfl

/-- Tile (i, j) of the first product, from the row block and the column block the kernel is handed. -/
theorem tile_QKV (i : Fin 8) (j : Fin 6) (a : (⟨2, ![512, 1024]⟩ : Shape).Idx → EReal)
    (w : (⟨2, ![1024, 512]⟩ : Shape).Idx → EReal)
    (ha : ∀ (p : Fin 512) (k : Fin 1024),
      a (ix2 p k) = X2 x (ix2 (⟨i.val * 512 + p.val, by have := i.isLt; have := p.isLt; omega⟩ : Fin 4096) k))
    (hw : ∀ (k : Fin 1024) (q : Fin 512),
      w (ix2 k q) = Wcat Wq Wk Wv (ix2 k (⟨j.val * 512 + q.val, by have := j.isLt; have := q.isLt; omega⟩ : Fin 3072)))
    (p q : Fin 512) :
    tileDot a w (ix2 p q) =
      QKV x Wq Wk Wv (ix2 (⟨i.val * 512 + p.val, by have := i.isLt; have := p.isLt; omega⟩ : Fin 4096)
        (⟨j.val * 512 + q.val, by have := j.isLt; have := q.isLt; omega⟩ : Fin 3072)) := by
  rw [tileDot_ix2, QKV_ix2]
  exact Finset.sum_congr rfl fun k _ => by rw [ha p k, hw k q]

end

section
variable (x : Inp) (mask : Msk) (Wq Wk Wv Wo : Wt)

/-- The context with batch and position merged: row b·2048 + s is the context at (b, s, ·). -/
def CTX : (⟨2, ![4096, 1024]⟩ : Shape).Idx → EReal :=
  fun i => ctxFeat x mask Wq Wk Wv (⟨(i 0).val / 2048, by have := idx2_lt0 i; omega⟩ : Fin 2)
    (⟨(i 0).val % 2048, Nat.mod_lt _ (by decide)⟩ : Fin 2048) (i 1)

theorem CTX_ix2 (R : Fin 4096) (e : Fin 1024) :
    CTX x mask Wq Wk Wv (ix2 R e) = ctxFeat x mask Wq Wk Wv (⟨R.val / 2048, by have := R.isLt; omega⟩ : Fin 2)
      (⟨R.val % 2048, Nat.mod_lt _ (by decide)⟩ : Fin 2048) e := rfl

theorem CTX_row (R : Fin 4096) (b : Fin 2) (s : Fin 2048) (hR : R.val = b.val * 2048 + s.val) (e : Fin 1024) :
    CTX x mask Wq Wk Wv (ix2 R e) = ctxFeat x mask Wq Wk Wv b s e := by
  rw [CTX_ix2]
  have hb : (⟨R.val / 2048, by have := R.isLt; omega⟩ : Fin 2) = b := Fin.ext (by
    show R.val / 2048 = b.val
    have := s.isLt; omega)
  have hs : (⟨R.val % 2048, Nat.mod_lt _ (by decide)⟩ : Fin 2048) = s := Fin.ext (by
    show R.val % 2048 = s.val
    have := s.isLt; omega)
  rw [hb, hs]

/-- The output projection's matrix transposed. -/
def WoT : (⟨2, ![1024, 1024]⟩ : Shape).Idx → EReal := fun i => Wo (ix2 (i 1) (i 0))

theorem WoT_ix2 (k o : Fin 1024) : WoT Wo (ix2 k o) = Wo (ix2 o k) := rfl

/-- The last kernel's result: the merged context times the transposed output matrix. -/
def Z : (⟨2, ![4096, 1024]⟩ : Shape).Idx → EReal :=
  fun i => ∑ k : Fin 1024, CTX x mask Wq Wk Wv (ix2 (i 0) k) * WoT Wo (ix2 k (i 1))

theorem Z_ix2 (R : Fin 4096) (o : Fin 1024) :
    Z x mask Wq Wk Wv Wo (ix2 R o) = ∑ k : Fin 1024, CTX x mask Wq Wk Wv (ix2 R k) * WoT Wo (ix2 k o) := rfl

/-- Row b·2048 + s of the last product is the layer's output at (b, s, ·). -/
theorem Z_out' (R : Fin 4096) (b : Fin 2) (s : Fin 2048) (hR : R.val = b.val * 2048 + s.val) (o : Fin 1024) :
    Z x mask Wq Wk Wv Wo (ix2 R o) = out x mask Wq Wk Wv Wo (ix3 b s o) := by
  rw [Z_ix2, out_ix3]
  exact Finset.sum_congr rfl fun k _ => by rw [CTX_row x mask Wq Wk Wv R b s hR k, WoT_ix2]

theorem Z_out (b : Fin 2) (s : Fin 2048) (o : Fin 1024) :
    Z x mask Wq Wk Wv Wo (ix2 (⟨b.val * 2048 + s.val, by have := b.isLt; have := s.isLt; omega⟩ : Fin 4096) o) =
      out x mask Wq Wk Wv Wo (ix3 b s o) :=
  Z_out' x mask Wq Wk Wv Wo _ b s rfl o

/-- Tile (i, j) of the last product, from the row block and the column block the kernel is handed. -/
theorem tile_Z (i : Fin 8) (j : Fin 2) (a : (⟨2, ![512, 1024]⟩ : Shape).Idx → EReal)
    (w : (⟨2, ![1024, 512]⟩ : Shape).Idx → EReal)
    (ha : ∀ (p : Fin 512) (k : Fin 1024),
      a (ix2 p k) = CTX x mask Wq Wk Wv (ix2 (⟨i.val * 512 + p.val, by have := i.isLt; have := p.isLt; omega⟩ : Fin 4096) k))
    (hw : ∀ (k : Fin 1024) (q : Fin 512),
      w (ix2 k q) = WoT Wo (ix2 k (⟨j.val * 512 + q.val, by have := j.isLt; have := q.isLt; omega⟩ : Fin 1024)))
    (p q : Fin 512) :
    tileDot a w (ix2 p q) =
      Z x mask Wq Wk Wv Wo (ix2 (⟨i.val * 512 + p.val, by have := i.isLt; have := p.isLt; omega⟩ : Fin 4096)
        (⟨j.val * 512 + q.val, by have := j.isLt; have := q.isLt; omega⟩ : Fin 1024)) := by
  rw [tileDot_ix2, Z_ix2]
  exact Finset.sum_congr rfl fun k _ => by rw [ha p k, hw k q]

end

end Cert.Mha

end
-- ==== Proof.LayerMathAttn.lean ====
/-
  The attention kernel's block against the layer.  At grid point (qi, b, hp) the kernel is handed the query rows
  (b·4 + qi)·512 … of the product QKV in columns hp·128 …, the key and value rows b·2048 … in columns (8 + hp)·128 … and
  (16 + hp)·128 …, and rows qi·512 … of the mask.  Lane g·64 + d of the block is lane d of head 2·hp + g, which is feature
  hp·128 + g·64 + d; so the block's score, normaliser and weight in its head g are the layer's in head 2·hp + g at position
  qi·512 + r, and what the kernel leaves at (r, c) is the context of row (b·4 + qi)·512 + r at feature hp·128 + c.
-/
import proofs.«175731_j51161650430216_2_alg».proof.Proof.LayerMath

noncomputable section

namespace Cert.Mha

open Idealize.ShloMosaic Idealize.ShloMosaic.ValueIdx
open scoped BigOperators

section
variable (x : Inp) (mask : Msk) (Wq Wk Wv : Wt) (qi : Fin 4) (b : Fin 2) (hp : Fin 8)
  (Q : (⟨2, ![512, 128]⟩ : Shape).Idx → EReal) (K V : (⟨2, ![2048, 128]⟩ : Shape).Idx → EReal)
  (M : (⟨2, ![512, 2048]⟩ : Shape).Idx → EReal)

/-- The block's score in its head g is the layer's score in head 2·hp + g, query position qi·512 + r. -/
theorem blkScore_eq
    (hQ : ∀ (r : Fin 512) (c : Fin 128), Q (ix2 r c) = QKV x Wq Wk Wv
      (ix2 (⟨(b.val * 4 + qi.val) * 512 + r.val, by have := b.isLt; have := qi.isLt; have := r.isLt; omega⟩ : Fin 4096)
        (⟨hp.val * 128 + c.val, by have := hp.isLt; have := c.isLt; omega⟩ : Fin 3072)))
    (hK : ∀ (t : Fin 2048) (c : Fin 128), K (ix2 t c) = QKV x Wq Wk Wv
      (ix2 (⟨b.val * 2048 + t.val, by have := b.isLt; have := t.isLt; omega⟩ : Fin 4096)
        (⟨(8 + hp.val) * 128 + c.val, by have := hp.isLt; have := c.isLt; omega⟩ : Fin 3072)))
    (hM : ∀ (r : Fin 512) (t : Fin 2048), M (ix2 r t) =
      mask (ix2 (⟨qi.val * 512 + r.val, by have := qi.isLt; have := r.isLt; omega⟩ : Fin 2048) t))
    (g : Fin 2) (h : Fin 16) (hh : h.val = 2 * hp.val + g.val) (r : Fin 512) (s : Fin 2048)
    (hs : s.val = qi.val * 512 + r.val) (t : Fin 2048) :
    blkScore Q K M g r t = score x mask Wq Wk b h s t := by
  unfold blkScore score
  have hsum : ∀ d : Fin 64, Q (ix2 r (lane2 g d)) * K (ix2 t (lane2 g d)) =
      proj x Wq b s (feat h d) * proj x Wk b t (feat h d) := fun d => by
    rw [hQ r (lane2 g d), hK t (lane2 g d),
      QKV_q' x Wq Wk Wv _ _ b s (feat h d)
        (by show (b.val * 4 + qi.val) * 512 + r.val = b.val * 2048 + s.val; omega)
        (by show hp.val * 128 + (g.val * 64 + d.val) = h.val * 64 + d.val; omega),
      QKV_k' x Wq Wk Wv _ _ b t (feat h d) rfl
        (by show (8 + hp.val) * 128 + (g.val * 64 + d.val) = 1024 + (h.val * 64 + d.val); omega)]
  have hm : M (ix2 r t) = mask (ix2 s t) :=
    (hM r t).trans (congrArg (fun a => mask (ix2 a t)) (Fin.ext hs.symm))
  rw [Finset.sum_congr rfl fun d _ => hsum d, hm]

/-- … hence its normaliser … -/
theorem blkNorm_eq
    (hQ : ∀ (r : Fin 512) (c : Fin 128), Q (ix2 r c) = QKV x Wq Wk Wv
      (ix2 (⟨(b.val * 4 + qi.val) * 512 + r.val, by have := b.isLt; have := qi.isLt; have := r.isLt; omega⟩ : Fin 4096)
        (⟨hp.val * 128 + c.val, by have := hp.isLt; have := c.isLt; omega⟩ : Fin 3072)))
    (hK : ∀ (t : Fin 2048) (c : Fin 128), K (ix2 t c) = QKV x Wq Wk Wv
      (ix2 (⟨b.val * 2048 + t.val, by have := b.isLt; have := t.isLt; omega⟩ : Fin 4096)
        (⟨(8 + hp.val) * 128 + c.val, by have := hp.isLt; have := c.isLt; omega⟩ : Fin 3072)))
    (hM : ∀ (r : Fin 512) (t : Fin 2048), M (ix2 r t) =
      mask (ix2 (⟨qi.val * 512 + r.val, by have := qi.isLt; have := r.isLt; omega⟩ : Fin 2048) t))
    (g : Fin 2) (h : Fin 16) (hh : h.val = 2 * hp.val + g.val) (r : Fin 512) (s : Fin 2048)
    (hs : s.val = qi.val * 512 + r.val) :
    blkNorm Q K M g r = norm x mask Wq Wk b h s := by
  unfold blkNorm norm expScore
  rw [Finset.sum_congr rfl fun t _ =>
    congrArg Ideal.exp (blkScore_eq x mask Wq Wk Wv qi b hp Q K M hQ hK hM g h hh r s hs t)]

/-- … and its weight. -/
theorem blkWeight_eq
    (hQ : ∀ (r : Fin 512) (c : Fin 128), Q (ix2 r c) = QKV x Wq Wk Wv
      (ix2 (⟨(b.val * 4 + qi.val) * 512 + r.val, by have := b.isLt; have := qi.isLt; have := r.isLt; omega⟩ : Fin 4096)
        (⟨hp.val * 128 + c.val, by have := hp.isLt; have := c.isLt; omega⟩ : Fin 3072)))
    (hK : ∀ (t : Fin 2048) (c : Fin 128), K (ix2 t c) = QKV x Wq Wk Wv
      (ix2 (⟨b.val * 2048 + t.val, by have := b.isLt; have := t.isLt; omega⟩ : Fin 4096)
        (⟨(8 + hp.val) * 128 + c.val, by have := hp.isLt; have := c.isLt; omega⟩ : Fin 3072)))
    (hM : ∀ (r : Fin 512) (t : Fin 2048), M (ix2 r t) =
      mask (ix2 (⟨qi.val * 512 + r.val, by have := qi.isLt; have := r.isLt; omega⟩ : Fin 2048) t))
    (g : Fin 2) (h : Fin 16) (hh : h.val = 2 * hp.val + g.val) (r : Fin 512) (s : Fin 2048)
    (hs : s.val = qi.val * 512 + r.val) (t : Fin 2048) :
    blkWeight Q K M g r t = weight x mask Wq Wk b h s t := by
  unfold blkWeight weight expScore
  rw [blkScore_eq x mask Wq Wk Wv qi b hp Q K M hQ hK hM g h hh r s hs t,
    blkNorm_eq x mask Wq Wk Wv qi b hp Q K M hQ hK hM g h hh r s hs]

/-- What the kernel leaves at (r, c) of its block is the merged context at row R = (b·4 + qi)·512 + r, feature
    E = hp·128 + c. -/
theorem attn_block'
    (hQ : ∀ (r : Fin 512) (c : Fin 128), Q (ix2 r c) = QKV x Wq Wk Wv
      (ix2 (⟨(b.val * 4 + qi.val) * 512 + r.val, by have := b.isLt; have := qi.isLt; have := r.isLt; omega⟩ : Fin 4096)
        (⟨hp.val * 128 + c.val, by have := hp.isLt; have := c.isLt; omega⟩ : Fin 3072)))
    (hK : ∀ (t : Fin 2048) (c : Fin 128), K (ix2 t c) = QKV x Wq Wk Wv
      (ix2 (⟨b.val * 2048 + t.val, by have := b.isLt; have := t.isLt; omega⟩ : Fin 4096)
        (⟨(8 + hp.val) * 128 + c.val, by have := hp.isLt; have := c.isLt; omega⟩ : Fin 3072)))
    (hV : ∀ (t : Fin 2048) (c : Fin 128), V (ix2 t c) = QKV x Wq Wk Wv
      (ix2 (⟨b.val * 2048 + t.val, by have := b.isLt; have := t.isLt; omega⟩ : Fin 4096)
        (⟨(16 + hp.val) * 128 + c.val, by have := hp.isLt; have := c.isLt; omega⟩ : Fin 3072)))
    (hM : ∀ (r : Fin 512) (t : Fin 2048), M (ix2 r t) =
      mask (ix2 (⟨qi.val * 512 + r.val, by have := qi.isLt; have := r.isLt; omega⟩ : Fin 2048) t))
    (r : Fin 512) (c : Fin 128) (R : Fin 4096) (E : Fin 1024)
    (hR : R.val = (b.val * 4 + qi.val) * 512 + r.val) (hE : E.val = hp.val * 128 + c.val) :
    blkOut Q K V M (ix2 r c) = CTX x mask Wq Wk Wv (ix2 R E) := by
  have hs : (⟨qi.val * 512 + r.val, by have := qi.isLt; have := r.isLt; omega⟩ : Fin 2048).val
      = qi.val * 512 + r.val := rfl
  have hh : (headOf E).val = 2 * hp.val + (half c).val := by
    show E.val / 64 = 2 * hp.val + c.val / 64
    omega
  rw [blkOut_ix2, CTX_row x mask Wq Wk Wv R b
    (⟨qi.val * 512 + r.val, by have := qi.isLt; have := r.isLt; omega⟩ : Fin 2048)
    (by show R.val = b.val * 2048 + (qi.val * 512 + r.val); omega) E]
  unfold ctxFeat ctx
  refine Finset.sum_congr rfl fun t _ => ?_
  rw [blkWeight_eq x mask Wq Wk Wv qi b hp Q K M hQ hK hM (half c) (headOf E) hh r _ hs t, hV t c,
    QKV_v' x Wq Wk Wv _ _ b t (feat (headOf E) (laneOf E)) rfl
      (by rw [feat_head_lane]; show (16 + hp.val) * 128 + c.val = 2048 + E.val; omega)]

/-- The same at the literal coordinates of the block's place in the merged context. -/
theorem attn_block
    (hQ : ∀ (r : Fin 512) (c : Fin 128), Q (ix2 r c) = QKV x Wq Wk Wv
      (ix2 (⟨(b.val * 4 + qi.val) * 512 + r.val, by have := b.isLt; have := qi.isLt; have := r.isLt; omega⟩ : Fin 4096)
        (⟨hp.val * 128 + c.val, by have := hp.isLt; have := c.isLt; omega⟩ : Fin 3072)))
    (hK : ∀ (t : Fin 2048) (c : Fin 128), K (ix2 t c) = QKV x Wq Wk Wv
      (ix2 (⟨b.val * 2048 + t.val, by have := b.isLt; have := t.isLt; omega⟩ : Fin 4096)
        (⟨(8 + hp.val) * 128 + c.val, by have := hp.isLt; have := c.isLt; omega⟩ : Fin 3072)))
    (hV : ∀ (t : Fin 2048) (c : Fin 128), V (ix2 t c) = QKV x Wq Wk Wv
      (ix2 (⟨b.val * 2048 + t.val, by have := b.isLt; have := t.isLt; omega⟩ : Fin 4096)
        (⟨(16 + hp.val) * 128 + c.val, by have := hp.isLt; have := c.isLt; omega⟩ : Fin 3072)))
    (hM : ∀ (r : Fin 512) (t : Fin 2048), M (ix2 r t) =
      mask (ix2 (⟨qi.val * 512 + r.val, by have := qi.isLt; have := r.isLt; omega⟩ : Fin 2048) t))
    (r : Fin 512) (c : Fin 128) :
    blkOut Q K V M (ix2 r c) = CTX x mask Wq Wk Wv
      (ix2 (⟨(b.val * 4 + qi.val) * 512 + r.val, by have := b.isLt; have := qi.isLt; have := r.isLt; omega⟩ : Fin 4096)
        (⟨hp.val * 128 + c.val, by have := hp.isLt; have := c.isLt; omega⟩ : Fin 1024)) :=
  attn_block' x mask Wq Wk Wv qi b hp Q K V M hQ hK hV hM r c _ _ rfl rfl

end

end Cert.Mha

end
-- ==== Proof.AttnArray.lean ====
/-
  The attention kernel's output array as one function of the arrays it reads.

  The grid has 4 · 2 · 8 = 64 points t, with coordinates qi = t / 16 (the block of 512 query positions), b = (t / 8) % 2
  (the batch) and hp = t % 8 (the pair of heads).  At t the kernel is handed rows (b·4 + qi)·512 … and columns hp·128 … of
  the fused projections as queries, rows b·2048 … and columns (8 + hp)·128 …, (16 + hp)·128 … as keys and values, rows
  qi·512 … of the mask, and writes rows (b·4 + qi)·512 … and columns hp·128 … of the output.  The 64 output blocks tile the
  [4096, 1024] array, and each is that block of the merged context; so the array ends holding the merged context.
-/
import proofs.«175731_j51161650430216_2_alg».proof.Proof.IdealRegion1
import proofs.«175731_j51161650430216_2_alg».proof.Proof.PayloadValue
import proofs.«175731_j51161650430216_2_alg».proof.Proof.LayerMathAttn
import Idealize.ShloMosaic.Lib.Pipeline.Value

noncomputable section

namespace Cert.KernelIdeal.KValue

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

theorem hz1 : (![0, 0] : Fin 2 → Nat) = fun _ => 0 := funext fun a => by fin_cases a <;> rfl

/-- What the body leaves in the output block is the block specification of the four input blocks. -/
theorem out1_4_eq (x0 : Vec Ideal S512x128 .bf16) (x1 x2 : Vec Ideal S2048x128 .bf16) (x3 : Vec Ideal S512x2048 .bf16) :
    out1_4 (F := Ideal) x0 x1 x2 x3 = Cert.Mha.blkOut x0 x1 x2 x3 := by
  unfold out1_4
  rw [View.canon_unit_zero hz1]
  simp only [View.ld_unit_zero (S := S512x128) hz1, View.ld_unit_zero (S := S2048x128) hz1, View.ld_unit_zero (S := S512x2048) hz1]
  exact Cert.KernelIdeal.PayloadValue.pay1_eq x0 x1 x2 x3

/-- The five windows' block indices as functions of the grid point, in closed form, decided over the 64 grid points. -/
theorem idx_facts1 : ∀ t : Fin cfg1.N,
    win1_0.index t (0 : Fin 2) = (t.val / 8 % 2) * 4 + t.val / 16 ∧ win1_0.index t (1 : Fin 2) = t.val % 8
    ∧ win1_1.index t (0 : Fin 2) = t.val / 8 % 2 ∧ win1_1.index t (1 : Fin 2) = 8 + t.val % 8
    ∧ win1_2.index t (0 : Fin 2) = t.val / 8 % 2 ∧ win1_2.index t (1 : Fin 2) = 16 + t.val % 8
    ∧ win1_3.index t (0 : Fin 2) = t.val / 16 ∧ win1_3.index t (1 : Fin 2) = 0
    ∧ win1_4.index t (0 : Fin 2) = (t.val / 8 % 2) * 4 + t.val / 16 ∧ win1_4.index t (1 : Fin 2) = t.val % 8 :=
  (by decide +kernel : ∀ t : Fin grid1.N, _)

section
variable (V : (c : Dev nD) → (b : Ref sig .tc) → Buf (Elt Ideal) ((c : Thread nD τ).loc b))

/-- The query block at point t: rows (b·4 + qi)·512 …, columns hp·128 … of the fused projections. -/
theorem iblk1_0_apply (c : Dev nD) (t : Fin cfg1.N) (r : Fin 512) (l : Fin 128) (k : S4096x3072.Idx)
    (hk0 : (k 0).val = ((t.val / 8 % 2) * 4 + t.val / 16) * 512 + r.val) (hk1 : (k 1).val = (t.val % 8) * 128 + l.val) :
    (iblk1 V c 0 t : Vec Ideal S512x128 .bf16) (ix2 r l) = (V c main_v9 : S4096x3072.Idx → EReal) k := by
  obtain ⟨e0, e1, -⟩ := idx_facts1 t
  unfold iblk1
  rw [View.read_apply]
  show (V c main_v9 : S4096x3072.Idx → EReal) _ = _
  refine congrArg (V c main_v9 : S4096x3072.Idx → EReal) (funext fun a => Fin.ext ?_)
  match a with
  | ⟨0, _⟩ => show win1_0.index t (0 : Fin 2) * 512 + 1 * r.val = (k 0).val; rw [e0, hk0]; omega
  | ⟨1, _⟩ => show win1_0.index t (1 : Fin 2) * 128 + 1 * l.val = (k 1).val; rw [e1, hk1]; omega

/-- The key block at point t: rows b·2048 …, columns (8 + hp)·128 … of the fused projections. -/
theorem iblk1_1_apply (c : Dev nD) (t : Fin cfg1.N) (r : Fin 2048) (l : Fin 128) (k : S4096x3072.Idx)
    (hk0 : (k 0).val = (t.val / 8 % 2) * 2048 + r.val) (hk1 : (k 1).val = (8 + t.val % 8) * 128 + l.val) :
    (iblk1 V c 1 t : Vec Ideal S2048x128 .bf16) (ix2 r l) = (V c main_v9 : S4096x3072.Idx → EReal) k := by
  obtain ⟨-, -, e0, e1, -⟩ := idx_facts1 t
  unfold iblk1
  rw [View.read_apply]
  show (V c main_v9 : S4096x3072.Idx → EReal) _ = _
  refine congrArg (V c main_v9 : S4096x3072.Idx → EReal) (funext fun a => Fin.ext ?_)
  match a with
  | ⟨0, _⟩ => show win1_1.index t (0 : Fin 2) * 2048 + 1 * r.val = (k 0).val; rw [e0, hk0]; omega
  | ⟨1, _⟩ => show win1_1.index t (1 : Fin 2) * 128 + 1 * l.val = (k 1).val; rw [e1, hk1]; omega

/-- The value block at point t: rows b·2048 …, columns (16 + hp)·128 … of the fused projections. -/
theorem iblk1_2_apply (c : Dev nD) (t : Fin cfg1.N) (r : Fin 2048) (l : Fin 128) (k : S4096x3072.Idx)
    (hk0 : (k 0).val = (t.val / 8 % 2) * 2048 + r.val) (hk1 : (k 1).val = (16 + t.val % 8) * 128 + l.val) :
    (iblk1 V c 2 t : Vec Ideal S2048x128 .bf16) (ix2 r l) = (V c main_v9 : S4096x3072.Idx → EReal) k := by
  obtain ⟨-, -, -, -, e0, e1, -⟩ := idx_facts1 t
  unfold iblk1
  rw [View.read_apply]
  show (V c main_v9 : S4096x3072.Idx → EReal) _ = _
  refine congrArg (V c main_v9 : S4096x3072.Idx → EReal) (funext fun a => Fin.ext ?_)
  match a with
  | ⟨0, _⟩ => show win1_2.index t (0 : Fin 2) * 2048 + 1 * r.val = (k 0).val; rw [e0, hk0]; omega
  | ⟨1, _⟩ => show win1_2.index t (1 : Fin 2) * 128 + 1 * l.val = (k 1).val; rw [e1, hk1]; omega

/-- The mask block at point t: rows qi·512 … of the mask, every column. -/
theorem iblk1_3_apply (c : Dev nD) (t : Fin cfg1.N) (r : Fin 512) (l : Fin 2048) (k : S2048x2048.Idx)
    (hk0 : (k 0).val = (t.val / 16) * 512 + r.val) (hk1 : (k 1).val = l.val) :
    (iblk1 V c 3 t : Vec Ideal S512x2048 .bf16) (ix2 r l) = (V c main_v10 : S2048x2048.Idx → EReal) k := by
  obtain ⟨-, -, -, -, -, -, e0, e1, -⟩ := idx_facts1 t
  unfold iblk1
  rw [View.read_apply]
  show (V c main_v10 : S2048x2048.Idx → EReal) _ = _
  refine congrArg (V c main_v10 : S2048x2048.Idx → EReal) (funext fun a => Fin.ext ?_)
  match a with
  | ⟨0, _⟩ => show win1_3.index t (0 : Fin 2) * 512 + 1 * r.val = (k 0).val; rw [e0, hk0]; omega
  | ⟨1, _⟩ => show win1_3.index t (1 : Fin 2) * 2048 + 1 * l.val = (k 1).val; rw [e1, hk1]; omega

end

section
variable (V : (c : Dev nD) → (b : Ref sig .tc) → Buf (Elt Ideal) ((c : Thread nD τ).loc b))
variable (c : Dev nD) (x : Cert.Mha.Inp) (mask : Cert.Mha.Msk) (Wq Wk Wv : Cert.Mha.Wt)

theorem lt_N1 (t : Fin cfg1.N) : t.val < 64 := lt_of_lt_of_eq t.isLt N_1

/-- The block specification of the four blocks at point t is the merged context at the output block's place. -/
theorem point1_4 (h9 : (V c main_v9 : S4096x3072.Idx → EReal) = Cert.Mha.QKV x Wq Wk Wv)
    (h10 : (V c main_v10 : S2048x2048.Idx → EReal) = mask) (t : Fin cfg1.N) (r : Fin 512) (l : Fin 128)
    (R : Fin 4096) (E : Fin 1024) (hR : R.val = ((t.val / 8 % 2) * 4 + t.val / 16) * 512 + r.val)
    (hE : E.val = (t.val % 8) * 128 + l.val) :
    Cert.Mha.blkOut (iblk1 V c 0 t : Vec Ideal S512x128 .bf16) (iblk1 V c 1 t : Vec Ideal S2048x128 .bf16)
        (iblk1 V c 2 t : Vec Ideal S2048x128 .bf16) (iblk1 V c 3 t : Vec Ideal S512x2048 .bf16) (ix2 r l)
      = Cert.Mha.CTX x mask Wq Wk Wv (ix2 R E) := by
  have ht := lt_N1 t
  exact Cert.Mha.attn_block' x mask Wq Wk Wv (⟨t.val / 16, by omega⟩ : Fin 4) (⟨t.val / 8 % 2, by omega⟩ : Fin 2)
    (⟨t.val % 8, by omega⟩ : Fin 8) _ _ _ _
    (fun r l => (iblk1_0_apply V c t r l _ rfl rfl).trans (congrFun h9 _))
    (fun r l => (iblk1_1_apply V c t r l _ rfl rfl).trans (congrFun h9 _))
    (fun r l => (iblk1_2_apply V c t r l _ rfl rfl).trans (congrFun h9 _))
    (fun r l => (iblk1_3_apply V c t r l _ rfl rfl).trans (congrFun h10 _))
    r l R E hR hE

/-- What point t writes back is block t of the merged context. -/
theorem flushed1_4_eq (h9 : (V c main_v9 : S4096x3072.Idx → EReal) = Cert.Mha.QKV x Wq Wk Wv)
    (h10 : (V c main_v10 : S2048x2048.Idx → EReal) = mask) (t : Fin cfg1.N) :
    (dat1 (F := Ideal) V c).flushed 4 t
      = ((cfg1.win 4).blk t).view.read (Elt Ideal) (Cert.Mha.CTX x mask Wq Wk Wv : S4096x1024.Idx → EReal) := by
  show (cfg1.win 4).cut (grid1.coords t) ((dat1 (F := Ideal) V c).after 4 t) = _
  rw [after1_4, out1_4_eq]
  obtain ⟨-, -, -, -, -, -, -, -, e0, e1⟩ := idx_facts1 t
  funext j
  show Cert.Mha.blkOut (iblk1 V c 0 t : Vec Ideal S512x128 .bf16) (iblk1 V c 1 t : Vec Ideal S2048x128 .bf16)
        (iblk1 V c 2 t : Vec Ideal S2048x128 .bf16) (iblk1 V c 3 t : Vec Ideal S512x2048 .bf16) j
      = (Cert.Mha.CTX x mask Wq Wk Wv : S4096x1024.Idx → EReal) (((cfg1.win 4).blk t).view.emb j)
  refine (congrArg (Cert.Mha.blkOut _ _ _ _) (eq_ix2 (n0 := 512) (n1 := 128) j)).trans ?_
  refine (point1_4 V c x mask Wq Wk Wv h9 h10 t (j 0) (j 1) ((((cfg1.win 4).blk t).view.emb j) 0) ((((cfg1.win 4).blk t).view.emb j) 1) ?_ ?_).trans ?_
  · show win1_4.index t (0 : Fin 2) * 512 + 1 * (j 0).val = _
    rw [e0]; omega
  · show win1_4.index t (1 : Fin 2) * 128 + 1 * (j 1).val = _
    rw [e1]; omega
  · exact congrArg (Cert.Mha.CTX x mask Wq Wk Wv) (eq_ix2 (n0 := 4096) (n1 := 1024) _).symm

/-- An index of the output array is in point t's block iff each coordinate is in the block's range on its axis. -/
theorem mem_blk1_4 (t : Fin cfg1.N) (i : S4096x1024.Idx) :
    i ∈ ((cfg1.win 4).blk t).view.set ↔ ∀ a : Fin 2, win1_4.index t a * S512x128.size a ≤ (i a).val
      ∧ (i a).val < win1_4.index t a * S512x128.size a + S512x128.size a := by
  show i ∈ ((View.whole main_v11).slice (win1_4.rect t)).set ↔ _
  rw [View.set_slice_whole, Rect.mem_set_unit]
  exact Iff.rfl

/-- The 64 output blocks cover the array: row R, column E is in the block of the point with qi = R / 512 % 4,
    b = R / 2048, hp = E / 128. -/
theorem covered1_4 (i : S4096x1024.Idx) :
    ∃ t : Fin cfg1.N, (cfg1.win 4).flush t = true ∧ i ∈ ((cfg1.win 4).blk t).view.set := by
  have hi0 : (i 0).val < 4096 := (i 0).isLt
  have hi1 : (i 1).val < 1024 := (i 1).isLt
  obtain ⟨q, k, l, hq, hk, hl, hrow, hcol⟩ : ∃ q k l : ℕ, q < 4 ∧ k < 2 ∧ l < 8 ∧ (i 0).val / 512 = k * 4 + q ∧ (i 1).val / 128 = l :=
    ⟨(i 0).val / 512 % 4, (i 0).val / 512 / 4, (i 1).val / 128, by omega, by omega, by omega, by omega, rfl⟩
  obtain ⟨tv, htv, h0, h1⟩ : ∃ tv : ℕ, tv < 64 ∧ (tv / 8 % 2) * 4 + tv / 16 = (i 0).val / 512 ∧ tv % 8 = (i 1).val / 128 := by
    refine ⟨q * 16 + k * 8 + l, by omega, ?_, ?_⟩
    · have a1 : (q * 16 + k * 8 + l) / 16 = q := by omega
      have a2 : (q * 16 + k * 8 + l) / 8 % 2 = k := by omega
      rw [a1, a2, hrow]
    · rw [hcol]; omega
  have htN : tv < cfg1.N := lt_of_lt_of_eq htv N_1.symm
  obtain ⟨-, -, -, -, -, -, -, -, e0, e1⟩ := idx_facts1 ⟨tv, htN⟩
  have e0' : win1_4.index ⟨tv, htN⟩ (0 : Fin 2) = (tv / 8 % 2) * 4 + tv / 16 := e0
  have e1' : win1_4.index ⟨tv, htN⟩ (1 : Fin 2) = tv % 8 := e1
  refine ⟨⟨tv, htN⟩, flush1_4 _, ?_⟩
  rw [mem_blk1_4]
  intro a
  match a with
  | ⟨0, _⟩ =>
    show win1_4.index ⟨tv, htN⟩ (0 : Fin 2) * 512 ≤ (i 0).val ∧ (i 0).val < win1_4.index ⟨tv, htN⟩ (0 : Fin 2) * 512 + 512
    rw [e0', h0]; omega
  | ⟨1, _⟩ =>
    show win1_4.index ⟨tv, htN⟩ (1 : Fin 2) * 128 ≤ (i 1).val ∧ (i 1).val < win1_4.index ⟨tv, htN⟩ (1 : Fin 2) * 128 + 128
    rw [e1', h1]; omega

/-- The output array after the run is the merged context. -/
theorem final1 (h9 : (V c main_v9 : S4096x3072.Idx → EReal) = Cert.Mha.QKV x Wq Wk Wv)
    (h10 : (V c main_v10 : S2048x2048.Idx → EReal) = mask) :
    ((dat1 (F := Ideal) V c).arrAt 4 cfg1.N : S4096x1024.Idx → EReal) = Cert.Mha.CTX x mask Wq Wk Wv :=
  (dat1 (F := Ideal) V c).arrAt_eq_of_cover 4 (Cert.Mha.CTX x mask Wq Wk Wv : S4096x1024.Idx → EReal)
    (fun t _ => flushed1_4_eq V c x mask Wq Wk Wv h9 h10 t) covered1_4

end

end Cert.KernelIdeal.KValue

end
-- ==== Proof.KernelResultCore.lean ====
/-
  The kernel program's result as one function of its arguments, given what the host operations between the kernels do.

  The program is: host operations (the input with batch and position merged, X2; the three projection matrices transposed
  and joined, Wcat), the first product QKV = X2 · Wcat, the mask's conversion, attention (the merged context CTX from QKV
  and the mask), the output matrix transposed (WoT), the second product Z = CTX · WoT, and a reshape of Z to
  [2, 2048, 1024].  Each kernel's output array is the corresponding function of the arrays it reads; chaining the three
  through the buffers that pass unchanged between them gives the layer's output, entry by entry.  The facts about the host
  operations are hypotheses here.
-/
import proofs.«175731_j51161650430216_2_alg».proof.Proof.IdealRun
import proofs.«175731_j51161650430216_2_alg».proof.Proof.MatmulArrays
import proofs.«175731_j51161650430216_2_alg».proof.Proof.AttnArray
import proofs.«175731_j51161650430216_2_alg».proof.Proof.LayerMath

noncomputable section

namespace Cert.KernelIdeal.KValue

open Cert.KernelIdeal Cert.KernelIdeal.Gen Cert.KernelIdeal.Fr
open Idealize.ShloMosaic Idealize.ShloMosaic.TcCoe Idealize.ShloMosaic.ValueIdx Idealize.SL.Sem
open scoped BigOperators

/-- The first product of the merged input and the joined matrices is the fused projections. -/
theorem prod0_X2_Wcat (x : Cert.Mha.Inp) (Wq Wk Wv : Cert.Mha.Wt) :
    prod0 (Cert.Mha.X2 x) (Cert.Mha.Wcat Wq Wk Wv) = Cert.Mha.QKV x Wq Wk Wv := rfl

/-- The second product of the merged context and the transposed output matrix is the merged output. -/
theorem prod2_CTX_WoT (x : Cert.Mha.Inp) (mask : Cert.Mha.Msk) (Wq Wk Wv Wo : Cert.Mha.Wt) :
    prod2 (Cert.Mha.CTX x mask Wq Wk Wv) (Cert.Mha.WoT Wo) = Cert.Mha.Z x mask Wq Wk Wv Wo := rfl

section
variable (m : (ℓ : Loc nD τ sig) → Buf (Elt Ideal) ℓ) (c : Dev nD)
variable (x : Cert.Mha.Inp) (mask : Cert.Mha.Msk) (Wq Wk Wv Wo : Cert.Mha.Wt)

/-- The fused projections' array passes the mask's conversion unchanged. -/
theorem W3_v9 : W3 (F := Ideal) m c main_v9 = o0 m c :=
  (W3_of m c main_v9 (by decide)).trans (W2_self m c)

/-- The context array passes the output matrix's transposition unchanged. -/
theorem W5_v11 : W5 (F := Ideal) m c main_v11 = o1 m c :=
  (W5_of m c main_v11 (by decide)).trans (W4_self m c)

/-- What the first product leaves is the fused projections. -/
theorem o0_eq (g1 : (W1 (F := Ideal) m c main_v1 : S4096x1024.Idx → EReal) = Cert.Mha.X2 x)
    (g8 : (W1 (F := Ideal) m c main_v8 : S1024x3072.Idx → EReal) = Cert.Mha.Wcat Wq Wk Wv) :
    (o0 (F := Ideal) m c : S4096x3072.Idx → EReal) = Cert.Mha.QKV x Wq Wk Wv :=
  (final0 (V1r m) c).trans ((congrArg₂ prod0 g1 g8).trans (prod0_X2_Wcat x Wq Wk Wv))

/-- What attention leaves is the merged context. -/
theorem o1_eq (g1 : (W1 (F := Ideal) m c main_v1 : S4096x1024.Idx → EReal) = Cert.Mha.X2 x)
    (g8 : (W1 (F := Ideal) m c main_v8 : S1024x3072.Idx → EReal) = Cert.Mha.Wcat Wq Wk Wv)
    (g10 : (W3 (F := Ideal) m c main_v10 : S2048x2048.Idx → EReal) = mask) :
    (o1 (F := Ideal) m c : S4096x1024.Idx → EReal) = Cert.Mha.CTX x mask Wq Wk Wv :=
  final1 (V3r m) c x mask Wq Wk Wv ((W3_v9 m c).trans (o0_eq m c x Wq Wk Wv g1 g8)) g10

/-- What the second product leaves is the merged output. -/
theorem o2_eq (g1 : (W1 (F := Ideal) m c main_v1 : S4096x1024.Idx → EReal) = Cert.Mha.X2 x)
    (g8 : (W1 (F := Ideal) m c main_v8 : S1024x3072.Idx → EReal) = Cert.Mha.Wcat Wq Wk Wv)
    (g10 : (W3 (F := Ideal) m c main_v10 : S2048x2048.Idx → EReal) = mask)
    (g13 : (W5 (F := Ideal) m c main_v13 : S1024x1024.Idx → EReal) = Cert.Mha.WoT Wo) :
    (o2 (F := Ideal) m c : S4096x1024.Idx → EReal) = Cert.Mha.Z x mask Wq Wk Wv Wo :=
  (final2 (V5r m) c).trans ((congrArg₂ prod2 ((W5_v11 m c).trans (o1_eq m c x mask Wq Wk Wv g1 g8 g10)) g13).trans
    (prod2_CTX_WoT x mask Wq Wk Wv Wo))

/-- The program's result is the layer's output, given the host operations' facts. -/
theorem result_of_glue (g1 : (W1 (F := Ideal) m c main_v1 : S4096x1024.Idx → EReal) = Cert.Mha.X2 x)
    (g8 : (W1 (F := Ideal) m c main_v8 : S1024x3072.Idx → EReal) = Cert.Mha.Wcat Wq Wk Wv)
    (g10 : (W3 (F := Ideal) m c main_v10 : S2048x2048.Idx → EReal) = mask)
    (g13 : (W5 (F := Ideal) m c main_v13 : S1024x1024.Idx → EReal) = Cert.Mha.WoT Wo)
    (g15 : ∀ (b : Fin 2) (s : Fin 2048) (o : Fin 1024), (W7 (F := Ideal) m c main_v15 : S2x2048x1024.Idx → EReal) (ix3 b s o)
      = (o2 (F := Ideal) m c : S4096x1024.Idx → EReal)
          (ix2 (⟨b.val * 2048 + s.val, by have := b.isLt; have := s.isLt; omega⟩ : Fin 4096) o)) :
    (W7 (F := Ideal) m c main_v15 : S2x2048x1024.Idx → EReal) = Cert.Mha.out x mask Wq Wk Wv Wo := by
  funext i
  obtain ⟨b, s, o, rfl⟩ : ∃ (b : Fin 2) (s : Fin 2048) (o : Fin 1024), i = ix3 b s o := ⟨i 0, i 1, i 2, eq_ix3 i⟩
  rw [g15 b s o, o2_eq m c x mask Wq Wk Wv Wo g1 g8 g10 g13]
  exact Cert.Mha.Z_out x mask Wq Wk Wv Wo b s o

end

end Cert.KernelIdeal.KValue

end
-- ==== Proof.LibFlattenRows.lean ====
/-
  The two leading axes of a rank-3 array merged into one, and split again, read at an index; a vector spread over the
  two leading axes of a rank-3 array; and a matrix product over the last axis of a rank-3 array.

  Row-major order puts entry (i, j, k) of an [a, b, c] array at position (i·b + j)·c + k, which is where entry
  (i·b + j, k) of an [a·b, c] array sits: a reshape between the two shapes moves nothing, it only renames
  (i, j) ↔ i·b + j.  A batched product [a, b, K] × [K, N] → [a, b, N] contracting the last axis of the left operand
  with the first of the right is, at (i, j, q), the sum over k of x(i, j, k) · w(k, q): the same sum as row i·b + j of
  the flattened left operand against column q.  No finiteness is needed: these are re-indexings.
-/
import proofs.«175731_j51161650430216_2_alg».proof.Proof.LibDense
import Idealize.ShloMosaic.Lib.ValueLayout

noncomputable section

namespace Cert.Lib.FlattenRows

open Idealize.ShloMosaic Idealize.ShloMosaic.ValueIdx Cert.Lib.Dense
open scoped BigOperators

variable {α : Type}

/-- An [a, b, c] array reshaped to [n, c] (n = a·b) reads, at (r, k) with r = i·b + j, the operand at (i, j, k). -/
theorem flatten_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An [n, c] array (n = a·b) reshaped to [a, b, c] reads, at (i, j, k), the operand at (i·b + j, k). -/
theorem unflatten_apply {a b c n : ℕ} (z : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ z h (ix3 i j k) = z (ix2 r k) :=
  shapeCast_apply z h _ _ (by
    rw [Shape.rowMajor_val_three, Shape.rowMajor_val_two]
    show r.val * c + k.val = (i.val * b + j.val) * c + k.val
    rw [hr])

/-- A vector of length n placed on the last axis of [1, 1, n] and spread over [a, b, n] reads, at (i, j, q), its entry q. -/
theorem lastAxis_spread_apply {a b n : ℕ} (v : (⟨1, ![n]⟩ : Shape).Idx → α)
    (h1 : (⟨1, ![n]⟩ : Shape).BroadcastsInDim ⟨3, ![1, 1, n]⟩ (![2] : Fin 1 → Fin 3))
    (h2 : (⟨3, ![1, 1, n]⟩ : Shape).BroadcastsInDim ⟨3, ![a, b, n]⟩ (![0, 1, 2] : Fin 3 → Fin 3))
    (i : Fin a) (j : Fin b) (q : Fin n) :
    broadcastInDim ⟨3, ![a, b, n]⟩ ![0, 1, 2] h2 (broadcastInDim ⟨3, ![1, 1, n]⟩ ![2] h1 v) (ix3 i j q) = v (ix1 q) := by
  have hq : (if n = 1 then 0 else q.val) = q.val := by
    split
    · have := q.isLt; omega
    · rfl
  refine (broadcastInDim_apply _ h2 _ (ix3 i j q) (ix3 (0 : Fin 1) (0 : Fin 1) q) fun ax => ?_).trans
    (broadcastInDim_apply _ h1 v (ix3 (0 : Fin 1) (0 : Fin 1) q) (ix1 q) fun ax => ?_)
  · match ax with
    | ⟨0, _⟩ => rfl
    | ⟨1, _⟩ => rfl
    | ⟨2, _⟩ => exact hq.symm
  · match ax with
    | ⟨0, _⟩ => exact hq.symm

section Batched

variable {A B K N : ℕ} (D : DotDims ⟨3, ![A, B, K]⟩ ⟨2, ![K, N]⟩ ⟨3, ![A, B, N]⟩)
  (hlc : D.lhsContracting = [2]) (hrc : D.rhsContracting = [0])
  (hln : D.lhsNonContracting = [0, 1]) (hrn : D.rhsNonContracting = [1])
  (hlb : D.lhsBatch = []) (hrb : D.rhsBatch = [])

include hlc in
theorem batched_rank : D.contr.rank = 1 := by rw [D.rank_contr, hlc]; rfl

include hlc in
theorem batched_size : D.contr.size ⟨0, by rw [batched_rank D hlc]; exact Nat.one_pos⟩ = K := by
  have := D.size_contr 0 (by rw [hlc]; exact Nat.one_pos)
  rw [this]
  simp [hlc]

/-- Equal positions, equal coordinates. -/
private theorem coord_congr {s : Shape} (j : s.Idx) (p q : Nat) (hp : p < s.rank) (hq : q < s.rank) (h : p = q) :
    (j ⟨p, hp⟩).val = (j ⟨q, hq⟩).val := by subst h; rfl

include hln hlb in
/-- The left operand's first free coordinate is the result's first. -/
theorem batched_lhs0 (j : (⟨3, ![A, B, N]⟩ : Shape).Idx) (k : D.contr.Idx) : (D.lhsIdx j k 0).val = (j 0).val := by
  have hb : (0 : Fin 3) ∉ D.lhsBatch := by rw [hlb]; simp
  have hn : (0 : Fin 3) ∈ D.lhsNonContracting := by rw [hln]; simp
  unfold DotDims.lhsIdx
  rw [dif_neg hb, dif_pos hn]
  simp only [Fin.val_cast]
  exact coord_congr j _ _ _ _ (by simp [hlb, hln])

include hln hlb in
/-- The left operand's second free coordinate is the result's second. -/
theorem batched_lhs1 (j : (⟨3, ![A, B, N]⟩ : Shape).Idx) (k : D.contr.Idx) : (D.lhsIdx j k 1).val = (j 1).val := by
  have hb : (1 : Fin 3) ∉ D.lhsBatch := by rw [hlb]; simp
  have hn : (1 : Fin 3) ∈ D.lhsNonContracting := by rw [hln]; simp
  unfold DotDims.lhsIdx
  rw [dif_neg hb, dif_pos hn]
  simp only [Fin.val_cast]
  exact coord_congr j _ _ _ _ (by simp [hlb, hln])

include hrn hrb hln hlb in
/-- The right operand's free coordinate is the result's last. -/
theorem batched_rhs1 (j : (⟨3, ![A, B, N]⟩ : Shape).Idx) (k : D.contr.Idx) : (D.rhsIdx j k 1).val = (j 2).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  exact coord_congr j _ _ _ _ (by simp [hlb, hln, hrn])

include hlc hrc hln hrn hlb hrb in
/-- The contraction of a batched product at entry (i, j, q): the sum over k of x(i, j, k) · w(k, q). -/
theorem batched_sum (f : (⟨3, ![A, B, K]⟩ : Shape).Idx → EReal) (g : (⟨2, ![K, N]⟩ : Shape).Idx → EReal)
    (i : Fin A) (j : Fin B) (q : Fin N) :
    ∑ k : D.contr.Idx, f (D.lhsIdx (ix3 i j q) k) * g (D.rhsIdx (ix3 i j q) k) = ∑ k : Fin K, f (ix3 i j k) * g (ix2 k q) := by
  refine contr_sum D K (batched_rank D hlc) (batched_size D hlc) f g (ix3 i j q) (fun k => ix3 i j k) (fun k => ix2 k q)
    (fun k => ?_) (fun k => ?_)
  · funext a; apply Fin.ext
    match a with
    | ⟨0, _⟩ => exact batched_lhs0 D hln hlb (ix3 i j q) _
    | ⟨1, _⟩ => exact batched_lhs1 D hln hlb (ix3 i j q) _
    | ⟨2, _⟩ => exact (D.lhsIdx_val_of_single hlc (ix3 i j q) _).trans (contrEquiv1_symm_val D K (batched_rank D hlc) (batched_size D hlc) k)
  · funext a; apply Fin.ext
    match a with
    | ⟨0, _⟩ => exact (D.rhsIdx_val_of_single hrc (ix3 i j q) _).trans (contrEquiv1_symm_val D K (batched_rank D hlc) (batched_size D hlc) k)
    | ⟨1, _⟩ => exact batched_rhs1 D hln hrn hlb hrb (ix3 i j q) _

include hlc hrc hln hrn hlb hrb in
/-- The host's general dot product over the last axis of a rank-3 left operand, at entry (i, j, q). -/
theorem dotGeneral3_at {φ₁ φ₂ : FTy} (x : FVec Ideal ⟨3, ![A, B, K]⟩ φ₁) (w : FVec Ideal ⟨2, ![K, N]⟩ φ₂)
    (i : Fin A) (j : Fin B) (q : Fin N) :
    Host.dotGeneral D none x w (ix3 i j q) = ∑ k : Fin K, x (ix3 i j k) * w (ix2 k q) :=
  (Ideal.dotGeneral_apply D none .single x w (ix3 i j q)).trans (batched_sum D hlc hrc hln hrn hlb hrb x w i j q)

end Batched

/-- Flattening the two leading axes does not change a row's product with a column: row i·b + j of the flattened array
    against column q is the sum over k of x(i, j, k) · w(k, q). -/
theorem rowDot_flatten {a b K N n : ℕ} (x : (⟨3, ![a, b, K]⟩ : Shape).Idx → EReal) (w : (⟨2, ![K, N]⟩ : Shape).Idx → EReal)
    (h : (⟨3, ![a, b, K]⟩ : Shape).ShapeCasts ⟨2, ![n, K]⟩) (i : Fin a) (j : Fin b) (q : Fin N) (r : Fin n)
    (hr : r.val = i.val * b + j.val) :
    rowDot (shapeCast ⟨2, ![n, K]⟩ x h) w r q = ∑ k : Fin K, x (ix3 i j k) * w (ix2 k q) :=
  Finset.sum_congr rfl fun k _ => by rw [flatten_apply x h i j k r hr]

end Cert.Lib.FlattenRows

end
-- ==== Proof.LibConcat3.lean ====
/-
  A general fact about joining arrays: three pieces of one shape joined along an axis.
-/
import Idealize.ShloMosaic.Lib.Pipeline.Value

noncomputable section

namespace Cert.Lib

open Idealize.ShloMosaic

variable {α : Type}

/-- Three arrays of one shape `s₁`, of extent `K` along axis `a`, joined along that axis and read at an index `j`:
    the piece `n = j[a] / K` read at the index that has `j[a] % K` on the axis and `j`'s coordinates off it. -/
theorem concatenate_three_apply {t s₁ : Shape} (a : Fin t.rank) (p : Fin 3 → (s₁.Idx → α))
    (h : Shape.Concatenates [s₁, s₁, s₁] t a) (hr : s₁.rank = t.rank) (K : Nat) (hK : s₁.size (a.cast hr.symm) = K)
    (j : t.Idx) (n : Fin 3) (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, p 0⟩, ⟨s₁, p 1⟩, ⟨s₁, p 2⟩] h j = p n i :=
  concatenate_ofFn_apply a p h hr K hK j n hn i hia hi

end Cert.Lib

end
-- ==== Proof.LibNary3.lean ====
/-
  A host operation over a LITERAL family of three references (a concatenation of three operands): its result with each
  operand's contents at its own reference, so that the results of the operations before it go on being read off one by one.
  The same for four operands is in the library; this is the three-operand form, with the one-pass reading of a straight line
  of host operations that uses it.
-/
import Idealize.ShloMosaic.Lib.StableHlo.Run

namespace Idealize.ShloMosaic.StableHlo

variable {τ : Topo} {sig : RefSig} {Val : EltTy → Type}
variable {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- `after_results_simp` with the three-operand form in place of the general one. -/
macro "after_results_simp3" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.HostGlue.lean ====
/-
  The host operations between the kernels, read at an index.

  Before the first product the program merges the input's two leading axes, transposes the three projection matrices and
  joins them along the columns; before attention it converts the mask; before the last product it transposes the output
  matrix; at the end it splits the merged rows again.  On the extended reals a conversion changes nothing, so each of the
  arrays the kernels read is one of the layer's arrays: the merged input, the joined transposed matrices, the mask, the
  transposed output matrix; and the final array at (b, s, o) is the last product at row b·2048 + s.
-/
import proofs.«175731_j51161650430216_2_alg».proof.Proof.IdealRun
import proofs.«175731_j51161650430216_2_alg».proof.Proof.LayerMath
import proofs.«175731_j51161650430216_2_alg».proof.Proof.LibFlattenRows
import proofs.«175731_j51161650430216_2_alg».proof.Proof.LibConcat3
import proofs.«175731_j51161650430216_2_alg».proof.Proof.LibNary3
import Idealize.ShloMosaic.Lib.ValueLayout
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Fr
open Idealize.ShloMosaic Idealize.ShloMosaic.TcCoe Idealize.ShloMosaic.ValueIdx Idealize.SL.Sem
open Idealize.ShloMosaic.StableHlo Cert.Lib Cert.Lib.FlattenRows
open scoped BigOperators

/-- A three-operand operation's result, each operand's contents given by an equation. -/
theorem nary3_result_of {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) (vx : x.ty.Contents Val) (va : a.ty.Contents Val) (vb : b.ty.Contents Val)
    (hx : F (Proc.devRef .tc x) = vx) (ha : F (Proc.devRef .tc a) = va) (hb : F (Proc.devRef .tc b) = vb) :
    (nary (τ := τ) ![x, a, b] y f hxs hy).result F (Proc.devRef .tc y)
      = f (Fin.cons vx (Fin.cons va (Fin.cons vb (fun i => i.elim0)))) := by
  subst hx ha hb
  exact nary3_result f hxs hy F

/-- A converted and transposed matrix at (k, e) is the matrix at (e, k). -/
theorem truncT_apply (w : S1024x1024.Idx → EReal) (k e : Fin 1024) :
    transpose S1024x1024 [1, 0] (truncf (F := Ideal) .bf16 w bitsLt_bf16_f32) transposes_S1024x1024_S1024x1024_1_0 (ix2 k e)
      = w (ix2 e k) :=
  (transpose_ix2_apply _ transposes_S1024x1024_S1024x1024_1_0 k e).trans (truncf_apply _ _ _)

variable (m : (ℓ : Loc nD τ sig) → Buf (Elt Ideal) ℓ) (c : Dev nD)

/-! ## Before the first product -/

theorem e_v1 : (W1 (F := Ideal) m c main_v1 : S4096x1024.Idx → EReal) =
    truncf (F := Ideal) .bf16 (shapeCast S4096x1024 (m ((c : Thread nD τ).loc main_arg0)) shapeCasts_S2x2048x1024_S4096x1024)
      bitsLt_bf16_f32 := by
  dsimp only [W1, hostOps0]
  after_results
  rfl

/-- The first product's left operand is the merged input. -/
theorem glue_v1 : (W1 (F := Ideal) m c main_v1 : S4096x1024.Idx → EReal) = Cert.Mha.X2 (m ((c : Thread nD τ).loc main_arg0)) := by
  rw [e_v1]
  funext i
  obtain ⟨R, k, rfl⟩ : ∃ (R : Fin 4096) (k : Fin 1024), i = ix2 R k := ⟨i 0, i 1, eq_ix2 i⟩
  rw [truncf_apply, Cert.Mha.X2_ix2]
  exact flatten_apply _ _ _ _ k R (by show R.val = R.val / 2048 * 2048 + R.val % 2048; omega)

theorem e_v8 : (W1 (F := Ideal) m c main_v8 : S1024x3072.Idx → EReal) =
    concatenate S1024x3072 1
      [⟨S1024x1024, transpose S1024x1024 [1, 0] (truncf (F := Ideal) .bf16 (m ((c : Thread nD τ).loc main_arg2)) bitsLt_bf16_f32)
          transposes_S1024x1024_S1024x1024_1_0⟩,
       ⟨S1024x1024, transpose S1024x1024 [1, 0] (truncf (F := Ideal) .bf16 (m ((c : Thread nD τ).loc main_arg3)) bitsLt_bf16_f32)
          transposes_S1024x1024_S1024x1024_1_0⟩,
       ⟨S1024x1024, transpose S1024x1024 [1, 0] (truncf (F := Ideal) .bf16 (m ((c : Thread nD τ).loc main_arg4)) bitsLt_bf16_f32)
          transposes_S1024x1024_S1024x1024_1_0⟩]
      concatenates_S1024x1024_S1024x1024_S1024x1024_S1024x3072_d1 := by
  dsimp only [W1, hostOps0]
  simp only [after_cons, after_nil]
  refine (nary3_result_of _ _ _ _
    (transpose S1024x1024 [1, 0] (truncf (F := Ideal) .bf16 (m ((c : Thread nD τ).loc main_arg2)) bitsLt_bf16_f32)
      transposes_S1024x1024_S1024x1024_1_0)
    (transpose S1024x1024 [1, 0] (truncf (F := Ideal) .bf16 (m ((c : Thread nD τ).loc main_arg3)) bitsLt_bf16_f32)
      transposes_S1024x1024_S1024x1024_1_0)
    (transpose S1024x1024 [1, 0] (truncf (F := Ideal) .bf16 (m ((c : Thread nD τ).loc main_arg4)) bitsLt_bf16_f32)
      transposes_S1024x1024_S1024x1024_1_0) ?_ ?_ ?_).trans ?_
  · after_results_simp
  · after_results_simp
  · after_results_simp
  · rfl

/-- The first product's right operand is the three projection matrices transposed and joined. -/
theorem glue_v8 : (W1 (F := Ideal) m c main_v8 : S1024x3072.Idx → EReal) =
    Cert.Mha.Wcat (m ((c : Thread nD τ).loc main_arg2)) (m ((c : Thread nD τ).loc main_arg3)) (m ((c : Thread nD τ).loc main_arg4)) := by
  rw [e_v8]
  funext i
  obtain ⟨k, C, rfl⟩ : ∃ (k : Fin 1024) (C : Fin 3072), i = ix2 k C := ⟨i 0, i 1, eq_ix2 i⟩
  rw [Cert.Mha.Wcat_ix2]
  refine (concatenate_three_apply (t := S1024x3072) (s₁ := S1024x1024) (1 : Fin 2)
    (fun n => transpose S1024x1024 [1, 0] (truncf (F := Ideal) .bf16
      (Cert.Mha.Wsel (m ((c : Thread nD τ).loc main_arg2)) (m ((c : Thread nD τ).loc main_arg3)) (m ((c : Thread nD τ).loc main_arg4)) n)
      bitsLt_bf16_f32) transposes_S1024x1024_S1024x1024_1_0)
    concatenates_S1024x1024_S1024x1024_S1024x1024_S1024x3072_d1 rfl 1024 rfl (ix2 k C)
    (⟨C.val / 1024, by have := C.isLt; omega⟩ : Fin 3) rfl
    (ix2 k (⟨C.val % 1024, Nat.mod_lt _ (by decide)⟩ : Fin 1024)) rfl (fun b hb => by
      match b, hb with
      | ⟨0, _⟩, _ => rfl
      | ⟨1, _⟩, hb => exact absurd rfl hb)).trans ?_
  exact truncT_apply _ k _

/-! ## Before attention -/

theorem e_v10 : (W3 (F := Ideal) m c main_v10 : S2048x2048.Idx → EReal) =
    truncf (F := Ideal) .bf16 (W2 (F := Ideal) m c main_arg1) bitsLt_bf16_f32 := by
  dsimp only [W3, hostOps1]
  after_results

/-- No item before attention writes the mask's argument. -/
theorem W2_arg1 : W2 (F := Ideal) m c main_arg1 = m ((c : Thread nD τ).loc main_arg1) :=
  (W2_of m c main_arg1 (by decide)).trans ((W1_of m c main_arg1 (by decide)).trans rfl)

/-- Attention's mask operand is the mask. -/
theorem glue_v10 : (W3 (F := Ideal) m c main_v10 : S2048x2048.Idx → EReal) = m ((c : Thread nD τ).loc main_arg1) := by
  rw [e_v10, W2_arg1]
  rfl

/-- The first product's result reaches attention unchanged. -/
theorem glue_v9 : W3 (F := Ideal) m c main_v9 = o0 m c :=
  (W3_of m c main_v9 (by decide)).trans (W2_self m c)

/-! ## Before the last product -/

theorem e_v13 : (W5 (F := Ideal) m c main_v13 : S1024x1024.Idx → EReal) =
    transpose S1024x1024 [1, 0] (truncf (F := Ideal) .bf16 (W4 (F := Ideal) m c main_arg5) bitsLt_bf16_f32)
      transposes_S1024x1024_S1024x1024_1_0 := by
  dsimp only [W5, hostOps2]
  after_results

/-- No item before the last product writes the output matrix's argument. -/
theorem W4_arg5 : W4 (F := Ideal) m c main_arg5 = m ((c : Thread nD τ).loc main_arg5) :=
  (W4_of m c main_arg5 (by decide)).trans ((W3_of m c main_arg5 (by decide)).trans
    ((W2_of m c main_arg5 (by decide)).trans ((W1_of m c main_arg5 (by decide)).trans rfl)))

/-- The last product's right operand is the output matrix transposed. -/
theorem glue_v13 : (W5 (F := Ideal) m c main_v13 : S1024x1024.Idx → EReal) = Cert.Mha.WoT (m ((c : Thread nD τ).loc main_arg5)) := by
  rw [e_v13, W4_arg5]
  funext i
  obtain ⟨k, o, rfl⟩ : ∃ (k o : Fin 1024), i = ix2 k o := ⟨i 0, i 1, eq_ix2 i⟩
  rw [Cert.Mha.WoT_ix2]
  exact truncT_apply _ k o

/-- Attention's result reaches the last product unchanged. -/
theorem glue_v11 : W5 (F := Ideal) m c main_v11 = o1 m c :=
  (W5_of m c main_v11 (by decide)).trans (W4_self m c)

/-! ## At the end -/

theorem e_v15 : (W7 (F := Ideal) m c main_v15 : S2x2048x1024.Idx → EReal) =
    shapeCast S2x2048x1024 (W6 (F := Ideal) m c main_v14 : S4096x1024.Idx → EReal) shapeCasts_S4096x1024_S2x2048x1024 := by
  dsimp only [W7, hostOps3]
  after_results
  rfl

/-- The final array at (b, s, o) is the last product's result at row b·2048 + s. -/
theorem glue_v15 (b : Fin 2) (s : Fin 2048) (o : Fin 1024) :
    (W7 (F := Ideal) m c main_v15 : S2x2048x1024.Idx → EReal) (ix3 b s o) =
      (o2 m c : S4096x1024.Idx → EReal)
        (ix2 (⟨b.val * 2048 + s.val, by have := b.isLt; have := s.isLt; omega⟩ : Fin 4096) o) := by
  rw [e_v15, W6_self]
  exact unflatten_apply _ _ b s o _ rfl

end Cert.KernelIdeal.KValue

end
-- ==== Proof.KernelResult.lean ====
/-
  The kernel program's result is the layer's output.

  The three kernels' output arrays are the fused projections, the merged context and the merged output, each a function of
  the arrays the kernel reads; the host operations between them supply the merged input, the joined transposed matrices,
  the mask and the transposed output matrix, and split the merged rows at the end.
-/
import proofs.«175731_j51161650430216_2_alg».proof.Proof.KernelResultCore
import proofs.«175731_j51161650430216_2_alg».proof.Proof.HostGlue

noncomputable section

namespace Cert.KernelIdeal.KValue

open Cert.KernelIdeal Cert.KernelIdeal.Gen Cert.KernelIdeal.Fr
open Idealize.ShloMosaic Idealize.ShloMosaic.TcCoe Idealize.ShloMosaic.ValueIdx Idealize.SL.Sem

/-- The result array at the end of the kernel program is the layer's output of the program's six arguments. -/
theorem result_eq (m : (ℓ : Loc nD τ sig) → Buf (Elt Ideal) ℓ) (c : Dev nD) :
    (W7 (F := Ideal) m c main_v15 : S2x2048x1024.Idx → EReal)
      = Cert.Mha.out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) :=
  result_of_glue m c _ _ _ _ _ _ (glue_v1 m c) (glue_v8 m c) (glue_v10 m c) (glue_v13 m c) (glue_v15 m c)

end Cert.KernelIdeal.KValue

end
-- ==== Proof.RefValue.lean ====
/-
  The reference program of the attention layer, read entry by entry: each stage of the host program (the three
  projections, the split into 16 heads of 64 lanes, the scaled and masked scores, their exponentials, the row sums with ε,
  the weights, the context vectors, the merge of the heads and the output projection) is identified with the function of
  Proof/Spec.lean that names it, at an index given by its coordinates.
-/
import proofs.«175731_j51161650430216_2_alg».proof.Proof.Gen.ReferenceIdeal.Read
import proofs.«175731_j51161650430216_2_alg».proof.Proof.Spec
import proofs.«175731_j51161650430216_2_alg».proof.Defs
import proofs.«175731_j51161650430216_2_alg».proof.Proof.Gen.Pre_finite_inputs

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe Idealize.SL.Sem
open scoped BigOperators

/-! ## The two scale words -/

/-- The word 0x41000000 is the real 8. -/
theorem ofBits_eight : Ideal.ofBits .f32 0x41000000#32 = ((8 : ℝ) : EReal) := by
  simp [Ideal.ofBits, Ideal.ieee, -EReal.coe_mul]; norm_num

/-- The word 0x3E000000 is the real 1/8. -/
theorem ofBits_eighth : Ideal.ofBits .f32 0x3E000000#32 = ((1 / 8 : ℝ) : EReal) := by
  simp [Ideal.ofBits, Ideal.ieee, -EReal.coe_mul]; norm_num

/-- Dividing by 8 is multiplying by 1/8, on every extended real. -/
theorem div_eight (y : EReal) : Ideal.div y (Ideal.ofBits .f32 0x41000000#32) = y * Mha.scale := by
  rw [Mha.scale, ofBits_eight, ofBits_eighth, Ideal.div_coe (by norm_num : (8 : ℝ) ≠ 0)]

/-- An index equation between two spellings of one coordinate function: decided coordinate by coordinate. -/
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))
local macro "idx4" : tactic => `(tactic| (funext a; match a with | ⟨0, _⟩ => rfl | ⟨1, _⟩ => rfl | ⟨2, _⟩ => rfl | ⟨3, _⟩ => rfl))

/-! ## The projections and the split into heads -/

section
variable (x : FVec Ideal S2x2048x1024 .f32) (mask : FVec Ideal S2048x2048 .f32) (Wq Wk Wv Wo W : FVec Ideal S1024x1024 .f32)

/-- A projection `x · Wᵀ` at `(b, s, e)` (the query's; the key's and the value's are the same operation). -/
theorem proj_q (b : Fin 2) (s : Fin 2048) (e : Fin 1024) :
    val_main_v0 (F := Ideal) x W (ix3 b s e) = Mha.proj x W b s e := by
  rw [val_main_v0_apply]
  refine Finset.sum_congr rfl fun k _ => ?_
  rw [show lidx_main_v0 (ix3 b s e) k = ix3 b s k by idx3, show ridx_main_v0 (ix3 b s e) k = ix2 e k by idx2]

theorem proj_k (b : Fin 2) (s : Fin 2048) (e : Fin 1024) :
    val_main_v3 (F := Ideal) x W (ix3 b s e) = Mha.proj x W b s e := by
  rw [val_main_v3_apply]
  refine Finset.sum_congr rfl fun k _ => ?_
  rw [show lidx_main_v3 (ix3 b s e) k = ix3 b s k by idx3, show ridx_main_v3 (ix3 b s e) k = ix2 e k by idx2]

theorem proj_v (b : Fin 2) (s : Fin 2048) (e : Fin 1024) :
    val_main_v6 (F := Ideal) x W (ix3 b s e) = Mha.proj x W b s e := by
  rw [val_main_v6_apply]
  refine Finset.sum_congr rfl fun k _ => ?_
  rw [show lidx_main_v6 (ix3 b s e) k = ix3 b s k by idx3, show ridx_main_v6 (ix3 b s e) k = ix2 e k by idx2]

/-- Entry `(b, h, s, d)` of the head layout [2, 16, 2048, 64] is entry `(b, s, h·64 + d)` of the [2, 2048, 1024] array:
    the row-major position `((b·2048 + s)·16 + h)·64 + d` read back in three coordinates. -/
theorem head_idx (b : Fin 2) (h : Fin 16) (s : Fin 2048) (d : Fin 64) :
    idx_main_v1 (idx_main_v2 (ix4 b h s d)) = ix3 b s (Mha.feat h d) := by
  have hb := b.isLt; have hh := h.isLt; have hs := s.isLt; have hd := d.isLt
  funext a
  refine Fin.ext ?_
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The query, key and value of head `h` at position `s`, lane `d`. -/
theorem heads_q (b : Fin 2) (h : Fin 16) (s : Fin 2048) (d : Fin 64) :
    val_main_v2 (F := Ideal) x W (ix4 b h s d) = Mha.proj x W b s (Mha.feat h d) := by
  rw [val_main_v2_apply, val_main_v1_apply]
  exact (congrArg _ (head_idx b h s d)).trans (proj_q x W b s _)

theorem heads_k (b : Fin 2) (h : Fin 16) (s : Fin 2048) (d : Fin 64) :
    val_main_v5 (F := Ideal) x W (ix4 b h s d) = Mha.proj x W b s (Mha.feat h d) := by
  rw [val_main_v5_apply, val_main_v4_apply]
  exact (congrArg _ (head_idx b h s d)).trans (proj_k x W b s _)

theorem heads_v (b : Fin 2) (h : Fin 16) (s : Fin 2048) (d : Fin 64) :
    val_main_v8 (F := Ideal) x W (ix4 b h s d) = Mha.proj x W b s (Mha.feat h d) := by
  rw [val_main_v8_apply, val_main_v7_apply]
  exact (congrArg _ (head_idx b h s d)).trans (proj_v x W b s _)

/-! ## Scores, exponentials, normalisers, weights -/

/-- The raw score: the inner product of the query at `s` and the key at `t` over the 64 lanes of head `h`. -/
theorem raw_score (b : Fin 2) (h : Fin 16) (s t : Fin 2048) :
    val_main_v9 (F := Ideal) x Wq Wk (ix4 b h s t)
      = ∑ d : Fin 64, Mha.proj x Wq b s (Mha.feat h d) * Mha.proj x Wk b t (Mha.feat h d) := by
  rw [val_main_v9_apply]
  refine Finset.sum_congr rfl fun k _ => ?_
  rw [show lidx_main_v9 (ix4 b h s t) k = ix4 b h s k by idx4, show ridx_main_v9 (ix4 b h s t) k = ix4 b h t k by idx4,
    heads_q, heads_k]

/-- The mask broadcast over batch and head. -/
theorem mask_bcast (b : Fin 2) (h : Fin 16) (s t : Fin 2048) :
    val_main_v13 (F := Ideal) mask (ix4 b h s t) = mask (ix2 s t) := by
  rw [val_main_v13_apply, val_main_v12_apply]
  exact congrArg mask (by idx2)

/-- The scaled, masked score. -/
theorem score_eq (b : Fin 2) (h : Fin 16) (s t : Fin 2048) :
    val_main_v14 (F := Ideal) x mask Wq Wk (ix4 b h s t) = Mha.score x mask Wq Wk b h s t := by
  rw [val_main_v14_apply, val_main_v11_apply, val_main_v10_apply, val_main_cst_apply, raw_score, mask_bcast,
    Ideal.hostDivf_def, Ideal.ofBits_def, div_eight, Ideal.addf_def]
  rfl

/-- Its exponential. -/
theorem expScore_eq (b : Fin 2) (h : Fin 16) (s t : Fin 2048) :
    val_main_v15 (F := Ideal) x mask Wq Wk (ix4 b h s t) = Mha.expScore x mask Wq Wk b h s t := by
  rw [val_main_v15_apply, score_eq, Ideal.hostUnary_exp_def]
  rfl

/-- The row sum of the exponentials (the reduction starts from the zero word, which is 0). -/
theorem rowsum_eq (b : Fin 2) (h : Fin 16) (s : Fin 2048) :
    val_main_v16 (F := Ideal) x mask Wq Wk (ix3 b h s) = ∑ t : Fin 2048, Mha.expScore x mask Wq Wk b h s t := by
  rw [val_main_v16_apply, val_main_cst_0_apply, Ideal.ofBits_def, Ideal.ofBits_zero_f32, zero_add]
  refine Finset.sum_congr rfl fun k _ => ?_
  rw [show idx_main_v16 (ix3 b h s) k = ix4 b h s k by idx4, expScore_eq]

/-- The normaliser, broadcast along the row. -/
theorem norm_eq (b : Fin 2) (h : Fin 16) (s t : Fin 2048) :
    val_main_v20 (F := Ideal) x mask Wq Wk (ix4 b h s t) = Mha.norm x mask Wq Wk b h s := by
  rw [val_main_v20_apply, val_main_v19_apply, val_main_v17_apply, val_main_v18_apply, val_main_cst_1_apply,
    show idx_main_v17 (idx_main_v20 (ix4 b h s t)) = ix3 b h s by idx3, rowsum_eq, Ideal.addf_def, Ideal.ofBits_def]
  rfl

/-- The attention weight. -/
theorem weight_eq (b : Fin 2) (h : Fin 16) (s t : Fin 2048) :
    val_main_v21 (F := Ideal) x mask Wq Wk (ix4 b h s t) = Mha.weight x mask Wq Wk b h s t := by
  rw [val_main_v21_apply, expScore_eq, norm_eq, Ideal.hostDivf_def]
  rfl

/-! ## Context, merge of the heads, output projection -/

/-- The context vector of head `h` at position `s`, lane `d`. -/
theorem ctx_eq (b : Fin 2) (h : Fin 16) (s : Fin 2048) (d : Fin 64) :
    val_main_v22 (F := Ideal) x mask Wq Wk Wv (ix4 b h s d) = Mha.ctx x mask Wq Wk Wv b s h d := by
  rw [val_main_v22_apply]
  refine Finset.sum_congr rfl fun k _ => ?_
  rw [show lidx_main_v22 (ix4 b h s d) k = ix4 b h s k by idx4, show ridx_main_v22 (ix4 b h s d) k = ix4 b h k d by idx4,
    weight_eq, heads_v]

/-- Entry `(b, s, e)` of the merged [2, 2048, 1024] array is entry `(b, e / 64, s, e % 64)` of the head layout. -/
theorem merge_idx (b : Fin 2) (s : Fin 2048) (e : Fin 1024) :
    idx_main_v23 (idx_main_v24 (ix3 b s e)) = ix4 b (Mha.headOf e) s (Mha.laneOf e) := by
  have hb := b.isLt; have hs := s.isLt; have he := e.isLt
  funext a
  refine Fin.ext ?_
  match a with
  | ⟨0, _⟩ => show ((b.val * 2048 + s.val) * 1024 + e.val) / 2097152 = b.val; omega
  | ⟨1, _⟩ => show ((b.val * 2048 + s.val) * 1024 + e.val) / 64 % 16 = e.val / 64; omega
  | ⟨2, _⟩ => show ((b.val * 2048 + s.val) * 1024 + e.val) / 1024 % 2048 = s.val; omega
  | ⟨3, _⟩ => show ((b.val * 2048 + s.val) * 1024 + e.val) % 64 = e.val % 64; omega

/-- The context addressed by feature. -/
theorem ctxFeat_eq (b : Fin 2) (s : Fin 2048) (e : Fin 1024) :
    val_main_v24 (F := Ideal) x mask Wq Wk Wv (ix3 b s e) = Mha.ctxFeat x mask Wq Wk Wv b s e := by
  rw [val_main_v24_apply, val_main_v23_apply]
  exact (congrArg _ (merge_idx b s e)).trans (ctx_eq x mask Wq Wk Wv b _ s _)

/-- The whole reference, as its last stage, is the specification's function. -/
theorem val_eq : val_main_v25 (F := Ideal) x mask Wq Wk Wv Wo = Mha.out x mask Wq Wk Wv Wo := by
  funext i
  obtain ⟨b, s, o, rfl⟩ : ∃ (b : Fin 2) (s : Fin 2048) (o : Fin 1024), i = ix3 b s o := ⟨i 0, i 1, i 2, eq_ix3 i⟩
  rw [val_main_v25_apply, Mha.out_ix3]
  refine Finset.sum_congr rfl fun k _ => ?_
  rw [show lidx_main_v25 (ix3 b s o) k = ix3 b s k by idx3, show ridx_main_v25 (ix3 b s o) k = ix2 o k by idx2, ctxFeat_eq]

end

/-- The term the reference's run leaves in its result buffer, with the six arguments named, is the specification's
    function of them. -/
theorem ref_eq (x : FVec Ideal S2x2048x1024 .f32) (mask : FVec Ideal S2048x2048 .f32) (Wq Wk Wv Wo : FVec Ideal S1024x1024 .f32) :
    Host.dotGeneral (F := Ideal) dot_S2x2048x1024_S1024x1024_S2x2048x1024_2_1_01_0_n_n none (shapeCast _ (transpose S2x2048x16x64 [0, 2, 1, 3] (Host.dotGeneral (F := Ideal) dot_S2x16x2048x2048_S2x16x2048x64_S2x16x2048x64_3_2_2_3_01_01 none (Host.divf (F := Ideal) (Host.exp (F := Ideal) (addf (F := Ideal) (Host.divf (F := Ideal) (Host.dotGeneral (F := Ideal) dot_S2x16x2048x64_S2x16x2048x64_S2x16x2048x2048_3_3_2_2_01_01 none (transpose S2x16x2048x64 [0, 2, 1, 3] (shapeCast _ (Host.dotGeneral (F := Ideal) dot_S2x2048x1024_S1024x1024_S2x2048x1024_2_1_01_0_n_n none x Wq) shapeCasts_S2x2048x1024_S2x2048x16x64) transposes_S2x2048x16x64_S2x16x2048x64_0_2_1_3) (transpose S2x16x2048x64 [0, 2, 1, 3] (shapeCast _ (Host.dotGeneral (F := Ideal) dot_S2x2048x1024_S1024x1024_S2x2048x1024_2_1_01_0_n_n none x Wk) shapeCasts_S2x2048x1024_S2x2048x16x64) transposes_S2x2048x16x64_S2x16x2048x64_0_2_1_3)) (broadcastInDim S2x16x2048x2048 ![] bcast_S_S2x16x2048x2048 (constant (F := Ideal) S_ .f32 0x41000000#32))) (broadcastInDim S2x16x2048x2048 ![0, 1, 2, 3] bcast_S1x1x2048x2048_S2x16x2048x2048_0_1_2_3 (broadcastInDim S1x1x2048x2048 ![2, 3] bcast_S2048x2048_S1x1x2048x2048_2_3 mask)))) (broadcastInDim S2x16x2048x2048 ![0, 1, 2, 3] bcast_S2x16x2048x1_S2x16x2048x2048_0_1_2_3 (addf (F := Ideal) (broadcastInDim S2x16x2048x1 ![0, 1, 2] bcast_S2x16x2048_S2x16x2048x1_0_1_2 (Host.reduceAdd (F := Ideal) (Host.exp (F := Ideal) (addf (F := Ideal) (Host.divf (F := Ideal) (Host.dotGeneral (F := Ideal) dot_S2x16x2048x64_S2x16x2048x64_S2x16x2048x2048_3_3_2_2_01_01 none (transpose S2x16x2048x64 [0, 2, 1, 3] (shapeCast _ (Host.dotGeneral (F := Ideal) dot_S2x2048x1024_S1024x1024_S2x2048x1024_2_1_01_0_n_n none x Wq) shapeCasts_S2x2048x1024_S2x2048x16x64) transposes_S2x2048x16x64_S2x16x2048x64_0_2_1_3) (transpose S2x16x2048x64 [0, 2, 1, 3] (shapeCast _ (Host.dotGeneral (F := Ideal) dot_S2x2048x1024_S1024x1024_S2x2048x1024_2_1_01_0_n_n none x Wk) shapeCasts_S2x2048x1024_S2x2048x16x64) transposes_S2x2048x16x64_S2x16x2048x64_0_2_1_3)) (broadcastInDim S2x16x2048x2048 ![] bcast_S_S2x16x2048x2048 (constant (F := Ideal) S_ .f32 0x41000000#32))) (broadcastInDim S2x16x2048x2048 ![0, 1, 2, 3] bcast_S1x1x2048x2048_S2x16x2048x2048_0_1_2_3 (broadcastInDim S1x1x2048x2048 ![2, 3] bcast_S2048x2048_S1x1x2048x2048_2_3 mask)))) (constant (F := Ideal) S_ .f32 0x00000000#32) reducesTo_S2x16x2048x2048_S2x16x2048_d3 h_S_)) (broadcastInDim S2x16x2048x1 ![] bcast_S_S2x16x2048x1 (constant (F := Ideal) S_ .f32 0x2EDBE6FF#32))))) (transpose S2x16x2048x64 [0, 2, 1, 3] (shapeCast _ (Host.dotGeneral (F := Ideal) dot_S2x2048x1024_S1024x1024_S2x2048x1024_2_1_01_0_n_n none x Wv) shapeCasts_S2x2048x1024_S2x2048x16x64) transposes_S2x2048x16x64_S2x16x2048x64_0_2_1_3)) transposes_S2x16x2048x64_S2x2048x16x64_0_2_1_3) shapeCasts_S2x2048x16x64_S2x2048x1024) Wo
      = Cert.Mha.out x mask Wq Wk Wv Wo :=
  (val_main_v25_eq (F := Ideal) x mask Wq Wk Wv Wo).trans (val_eq x mask Wq Wk Wv Wo)

/-- The reference leaves its six arguments as it found them: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  Multi-head self-attention as three kernels — the fused query/key/value projection as a tiled matrix product, two heads
  of attention per grid point reading the fused projections in place, and the output projection as a second tiled
  product — against the same layer written with whole-array operations.

  On the extended reals both programs compute one function of the six argument arrays (`Cert.Mha.out`): a change of
  float format is the identity, a matrix unit's product into a zero accumulator and a host contraction are the same
  finite sum, the tiles of a product are restrictions of the whole product, the kernel's scaling by 1/8 is the
  reference's division by 8, and both normalise the exponentials of the scores by their row sum plus ε without
  subtracting a maximum.  No property of the inputs is used: the precondition is never opened.
  The claims:
  * each program runs to its end, faults nowhere and leaves its arguments unchanged — for the kernel program at either
    instance from the run of its seven items (host operations and kernels in turn), for the reference from its run;
  * the idealized kernel program is the kernel program's own text read at the ideal instance (nothing was rewritten);
  * from memories that agree on the arguments both idealized programs end with the same result array.
-/
import proofs.«175731_j51161650430216_2_alg».proof.Defs
import proofs.«175731_j51161650430216_2_alg».proof.Proof.Gen.Kernel
import proofs.«175731_j51161650430216_2_alg».proof.Proof.Gen.KernelIdeal
import proofs.«175731_j51161650430216_2_alg».proof.Proof.Gen.ReferenceIdeal
import proofs.«175731_j51161650430216_2_alg».proof.Proof.Gen.ReferenceIdeal.Run
import proofs.«175731_j51161650430216_2_alg».proof.Proof.Gen.Pre_finite_inputs
import proofs.«175731_j51161650430216_2_alg».proof.Proof.BitsRun
import proofs.«175731_j51161650430216_2_alg».proof.Proof.IdealRun
import proofs.«175731_j51161650430216_2_alg».proof.Proof.KernelResult
import proofs.«175731_j51161650430216_2_alg».proof.Proof.RefValue
import Idealize.ShloMosaic.Adequacy
import Idealize.ShloMosaic.Init

noncomputable section

namespace Cert.Proof

open Idealize.ShloMosaic Idealize.ShloMosaic.TcCoe Idealize.SL.Sem

/-- The kernel program, as printed, runs and leaves its arguments unchanged. -/
theorem frame_k : Cert.frame_Kernel := fun m ρ _ => Cert.Kernel.Fr.frame m ρ

/-- The idealized kernel program runs and leaves its arguments unchanged. -/
theorem frame_ki : Cert.frame_KernelIdeal := fun m ρ _ => Cert.KernelIdeal.Fr.frame m ρ

/-- The idealized kernel program ends with its result array at the layer's function of the arguments, and the
    arguments unchanged. -/
theorem run_ki (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v15)
          = Cert.Mha.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
              (m ((c.tc : Thread Cert.KernelIdeal.nD Cert.KernelIdeal.τ).loc Cert.KernelIdeal.main_arg2)) (m ((c.tc : Thread Cert.KernelIdeal.nD Cert.KernelIdeal.τ).loc Cert.KernelIdeal.main_arg3))
              (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono (fun r h c => ⟨
    (h c _ (Cert.KernelIdeal.Fr.mem_uc Cert.KernelIdeal.main_v15 (by decide))).trans (Cert.KernelIdeal.KValue.result_eq m c),
    (h c _ (Cert.KernelIdeal.Fr.mem_uc Cert.KernelIdeal.main_arg0 (by decide))).trans (Cert.KernelIdeal.Fr.W7_arg m c Cert.KernelIdeal.main_arg0 (by decide) (by decide) (by decide) (by decide) (by decide) (by decide) (by decide)),
    (h c _ (Cert.KernelIdeal.Fr.mem_uc Cert.KernelIdeal.main_arg1 (by decide))).trans (Cert.KernelIdeal.Fr.W7_arg m c Cert.KernelIdeal.main_arg1 (by decide) (by decide) (by decide) (by decide) (by decide) (by decide) (by decide)),
    (h c _ (Cert.KernelIdeal.Fr.mem_uc Cert.KernelIdeal.main_arg2 (by decide))).trans (Cert.KernelIdeal.Fr.W7_arg m c Cert.KernelIdeal.main_arg2 (by decide) (by decide) (by decide) (by decide) (by decide) (by decide) (by decide)),
    (h c _ (Cert.KernelIdeal.Fr.mem_uc Cert.KernelIdeal.main_arg3 (by decide))).trans (Cert.KernelIdeal.Fr.W7_arg m c Cert.KernelIdeal.main_arg3 (by decide) (by decide) (by decide) (by decide) (by decide) (by decide) (by decide)),
    (h c _ (Cert.KernelIdeal.Fr.mem_uc Cert.KernelIdeal.main_arg4 (by decide))).trans (Cert.KernelIdeal.Fr.W7_arg m c Cert.KernelIdeal.main_arg4 (by decide) (by decide) (by decide) (by decide) (by decide) (by decide) (by decide)),
    (h c _ (Cert.KernelIdeal.Fr.mem_uc Cert.KernelIdeal.main_arg5 (by decide))).trans (Cert.KernelIdeal.Fr.W7_arg m c Cert.KernelIdeal.main_arg5 (by decide) (by decide) (by decide) (by decide) (by decide) (by decide) (by decide))⟩)
    (Cert.KernelIdeal.Fr.run_all m ρ)

/-- From memories that agree on the arguments, the idealized kernel program and the idealized reference end with one
    result: the layer's function of the arguments, on either side. -/
theorem algebraic : Cert.algebraic_KernelIdeal_ReferenceIdeal := by
  intro m ρ m' ρ' _ hagree
  refine ⟨_, run_ki m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.RefValue.ref_eq _ _ _ _ _ _

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
